-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x5 .f32) (main_arg12 : FVec F S5 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x5 .f32 := Host.absf main_arg11
  let main_cst_16 : FVec F S_ .f32 := constant S_ .f32 0x7F800000#32
  let main_v45 : FVec F S256x5 .f32 := broadcastInDim S256x5 ![] bcast_S_S256x5 main_cst_16
  let main_v46 : IVec S256x5 1 := cmpf .olt main_v44 main_v45
  let main_c_17 : IVec S_ 1 := constantI S_ 1 1#1
  let main_v47 : IVec S_ 1 := (fun x v => Host.reduce IntOp.andi x v reducesTo_S256x5_S_d0_1 h_S_) main_v46 main_c_17
  let main_v48 : IVec S_ 1 := andi main_v43 main_v47
  let main_v49 : FVec F S5 .f32 := Host.absf main_arg12
  let main_cst_18 : FVec F S_ .f32 := constant S_ .f32 0x7F800000#32
  let main_v50 : FVec F S5 .f32 := broadcastInDim S5 ![] bcast_S_S5 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x5 .f32) (main_arg12 : FVec F S5 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x500000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x5 .f32) (main_arg12 : FVec F S5 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x500000 : Shape := ⟨2, ![2, 500000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S550000x256 : Shape := ⟨2, ![550000, 256]⟩
abbrev S1x256 : Shape := ⟨2, ![1, 256]⟩
abbrev S64x256 : Shape := ⟨2, ![64, 256]⟩
abbrev S64 : Shape := ⟨1, ![64]⟩
abbrev S64x1 : Shape := ⟨2, ![64, 1]⟩
abbrev S1x5 : Shape := ⟨2, ![1, 5]⟩
abbrev S64x5 : Shape := ⟨2, ![64, 5]⟩

abbrev nBuf : Space → Nat
  | .hbm => 95
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x5, .f32⟩
  | .hbm, ⟨12, _⟩ => ⟨S5, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S50000, .i32⟩
  | .hbm, ⟨18, _⟩ => ⟨S550000, .i32⟩
  | .hbm, ⟨19, _⟩ => ⟨S550000, .i32⟩
  | .hbm, ⟨20, _⟩ => ⟨S_, .f32⟩
  | .hbm, ⟨21, _⟩ => ⟨S550000, .f32⟩
  | .hbm, ⟨22, _⟩ => ⟨S_, .f32⟩
  | .hbm, ⟨23, _⟩ => ⟨S50000, .f32⟩
  | .hbm, ⟨24, _⟩ => ⟨S550000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .f32⟩
  | .hbm, ⟨31, _⟩ => ⟨S_, .i32⟩
  | .hbm, ⟨32, _⟩ => ⟨S550000, .i32⟩
  | .hbm, ⟨33, _⟩ => ⟨S550000, .i1⟩
  | .hbm, ⟨34, _⟩ => ⟨S_, .i32⟩
  | .hbm, ⟨35, _⟩ => ⟨S550000, .i32⟩
  | .hbm, ⟨36, _⟩ => ⟨S550000, .i32⟩
  | .hbm, ⟨37, _⟩ => ⟨S550000, .i32⟩
  | .hbm, ⟨38, _⟩ => ⟨S550000x1, .i32⟩
  | .hbm, ⟨39, _⟩ => ⟨S550000x256, .f32⟩
  | .hbm, ⟨40, _⟩ => ⟨S_, .f32⟩
  | .hbm, ⟨41, _⟩ => ⟨S50000x256, .f32⟩
  | .hbm, ⟨42, _⟩ => ⟨S550000x1, .i32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S550000, .i32⟩
  | .hbm, ⟨48, _⟩ => ⟨S550000, .i1⟩
  | .hbm, ⟨49, _⟩ => ⟨S_, .i32⟩
  | .hbm, ⟨50, _⟩ => ⟨S550000, .i32⟩
  | .hbm, ⟨51, _⟩ => ⟨S550000, .i32⟩
  | .hbm, ⟨52, _⟩ => ⟨S550000, .i32⟩
  | .hbm, ⟨53, _⟩ => ⟨S550000x1, .i32⟩
  | .hbm, ⟨54, _⟩ => ⟨S550000x256, .f32⟩
  | .hbm, ⟨55, _⟩ => ⟨S_, .f32⟩
  | .hbm, ⟨56, _⟩ => ⟨S50000x256, .f32⟩
  | .hbm, ⟨57, _⟩ => ⟨S550000x1, .i32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S_, .i32⟩
  | .hbm, ⟨62, _⟩ => ⟨S550000, .i32⟩
  | .hbm, ⟨63, _⟩ => ⟨S550000, .i1⟩
  | .hbm, ⟨64, _⟩ => ⟨S_, .i32⟩
  | .hbm, ⟨65, _⟩ => ⟨S550000, .i32⟩
  | .hbm, ⟨66, _⟩ => ⟨S550000, .i32⟩
  | .hbm, ⟨67, _⟩ => ⟨S550000, .i32⟩
  | .hbm, ⟨68, _⟩ => ⟨S550000x1, .i32⟩
  | .hbm, ⟨69, _⟩ => ⟨S550000x256, .f32⟩
  | .hbm, ⟨70, _⟩ => ⟨S_, .f32⟩
  | .hbm, ⟨71, _⟩ => ⟨S50000x256, .f32⟩
  | .hbm, ⟨72, _⟩ => ⟨S550000x1, .i32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S_, .f32⟩
  | .hbm, ⟨77, _⟩ => ⟨S64x256, .f32⟩
  | .hbm, ⟨78, _⟩ => ⟨S50000x1, .i32⟩
  | .hbm, ⟨79, _⟩ => ⟨S64x256, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S64, .f32⟩
  | .hbm, ⟨84, _⟩ => ⟨S50000x1, .i32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64x1, .f32⟩
  | .hbm, ⟨90, _⟩ => ⟨S64x256, .f32⟩
  | .hbm, ⟨91, _⟩ => ⟨S64x256, .f32⟩
  | .hbm, ⟨92, _⟩ => ⟨S1x256, .f32⟩
  | .hbm, ⟨93, _⟩ => ⟨S1x5, .f32⟩
  | .hbm, ⟨94, _⟩ => ⟨S64x5, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x1, .f32⟩
  | .local _ .vmem, ⟨18, _⟩ => ⟨S5000x1, .f32⟩
  | .local _ .vmem, ⟨19, _⟩ => ⟨S1x256, .f32⟩
  | .local _ .vmem, ⟨20, _⟩ => ⟨S256x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x1, .f32⟩
  | .local _ .vmem, ⟨26, _⟩ => ⟨S5000x1, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S64x256, .f32⟩
  | .local _ .vmem, ⟨31, _⟩ => ⟨S256x256, .f32⟩
  | .local _ .vmem, ⟨32, _⟩ => ⟨S1x256, .f32⟩
  | .local _ .vmem, ⟨33, _⟩ => ⟨S256x5, .f32⟩
  | .local _ .vmem, ⟨34, _⟩ => ⟨S1x5, .f32⟩
  | .local _ .vmem, ⟨35, _⟩ => ⟨S64x5, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x5 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x5 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x5 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S5_S1x5 : S5.ShapeCasts S1x5
  inb_S64x256_S64x256_0_0 : ∀ a, (![0, 0] : Fin 2 → Nat) a + S64x256.size a ≤ S64x256.size a
  h_S64x256 : 0 < S64x256.numel
  shapeCasts_S64x256_S64x256 : S64x256.ShapeCasts S64x256
  broadcasts_S1x256_S64x256 : S1x256.Broadcasts S64x256
  inb_S256x5_S256x5_0_0 : ∀ a, (![0, 0] : Fin 2 → Nat) a + S256x5.size a ≤ S256x5.size a
  h_S256x5 : 0 < S256x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S64x5 : S1x5.Broadcasts S64x5
  inb_S64x5_S64x5_0_0 : ∀ a, (![0, 0] : Fin 2 → Nat) a + S64x5.size a ≤ S64x5.size a
  h_S64x5 : 0 < S64x5.numel
  scatter_S50000_S550000x1_S550000_n_0_0_1_wf : ScatterDims.WF S50000 S550000x1 S550000 [] [0] [0] 1
  dot_S5000x128_S128x256_S5000x256_1_0_0_1_n_n_wf : DotDims.WF S5000x128 S128x256 S5000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S5000x256_S256x256_S5000x256_1_0_0_1_n_n_wf : DotDims.WF S5000x256 S256x256 S5000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x256_S64x256_1_0_0_1_n_n_wf : DotDims.WF S64x256 S256x256 S64x256 [1] [0] [0] [1] [] []
  dot_S64x256_S256x5_S64x5_1_0_0_1_n_n_wf : DotDims.WF S64x256 S256x5 S64x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x256.size a ≤ S50000x256.size a
  hwx2_4 : ∀ i : grid2.Coords, EltTy.bits .f32 = 32 ∨ (Rect.block (s := S50000x256) S5000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S50000x256.size a
  hwx3_3 : ∀ i : grid3.Coords, EltTy.bits .f32 = 32 ∨ (Rect.block (s := S50000x256) S5000x256.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x256.size a ≤ S64x256.size a
  hwx4_0 : ∀ i : grid4.Coords, EltTy.bits .f32 = 32 ∨ (Rect.block (s := S64x256) S64x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x5.size a ≤ S256x5.size a
  hwx4_3 : ∀ i : grid4.Coords, EltTy.bits .f32 = 32 ∨ (Rect.block (s := S256x5) S256x5.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x5.size a ≤ S1x5.size a
  hwx4_4 : ∀ i : grid4.Coords, EltTy.bits .f32 = 32 ∨ (Rect.block (s := S1x5) S1x5.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x5.size a ≤ S64x5.size a
  hwx4_5 : ∀ i : grid4.Coords, EltTy.bits .f32 = 32 ∨ (Rect.block (s := S64x5) S64x5.size (cc4_transform_5 i) (hinb4_5 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x5_S64x5_1_0_0_1_n_n : DotDims S64x256 S256x5 S64x5 where
  lhsContracting := [1]
  rhsContracting := [0]
  lhsNonContracting := [0]
  rhsNonContracting := [1]
  lhsBatch := []
  rhsBatch := []
  wf := dot_S64x256_S256x5_S64x5_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S64x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S256x5.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x5.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S64x5.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S1x500000 : Shape := ⟨2, ![1, 500000]⟩
abbrev S500000 : Shape := ⟨1, ![500000]⟩
abbrev S550000 : Shape := ⟨1, ![550000]⟩
abbrev S50000x256 : Shape := ⟨2, ![50000, 256]⟩
abbrev S_ : Shape := ⟨0, ![]⟩
abbrev S550000x1 : Shape := ⟨2, ![550000, 1]⟩
abbrev S550000x256 : Shape := ⟨2, ![550000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x5 : Shape := ⟨2, ![64, 5]⟩
abbrev S1x5 : Shape := ⟨2, ![1, 5]⟩

abbrev nBuf : Space → Nat
  | .hbm => 200
  | .vmem => 0
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x5, .f32⟩
  | 12 => ⟨S5, .f32⟩
  | 13 => ⟨S50000, .i32⟩
  | 14 => ⟨S1x500000, .i32⟩
  | 15 => ⟨S500000, .i32⟩
  | 16 => ⟨S550000, .i32⟩
  | 17 => ⟨S1x500000, .i32⟩
  | 18 => ⟨S500000, .i32⟩
  | 19 => ⟨S550000, .i32⟩
  | 20 => ⟨S50000x256, .f32⟩
  | 21 => ⟨S_, .f32⟩
  | 22 => ⟨S550000, .f32⟩
  | 23 => ⟨S_, .f32⟩
  | 24 => ⟨S50000, .f32⟩
  | 25 => ⟨S550000x1, .i32⟩
  | 26 => ⟨S50000, .f32⟩
  | 27 => ⟨S_, .f32⟩
  | 28 => ⟨S50000, .f32⟩
  | 29 => ⟨S50000, .f32⟩
  | 30 => ⟨S_, .i32⟩
  | 31 => ⟨S550000, .i32⟩
  | 32 => ⟨S550000, .i1⟩
  | 33 => ⟨S_, .i32⟩
  | 34 => ⟨S550000, .i32⟩
  | 35 => ⟨S550000, .i32⟩
  | 36 => ⟨S550000, .i32⟩
  | 37 => ⟨S550000x1, .i32⟩
  | 38 => ⟨S550000, .f32⟩
  | 39 => ⟨S_, .i32⟩
  | 40 => ⟨S550000, .i32⟩
  | 41 => ⟨S550000, .i1⟩
  | 42 => ⟨S_, .i32⟩
  | 43 => ⟨S550000, .i32⟩
  | 44 => ⟨S550000, .i32⟩
  | 45 => ⟨S550000, .i32⟩
  | 46 => ⟨S550000x1, .i32⟩
  | 47 => ⟨S550000, .f32⟩
  | 48 => ⟨S550000, .f32⟩
  | 49 => ⟨S_, .i32⟩
  | 50 => ⟨S550000, .i32⟩
  | 51 => ⟨S550000, .i1⟩
  | 52 => ⟨S_, .i32⟩
  | 53 => ⟨S550000, .i32⟩
  | 54 => ⟨S550000, .i32⟩
  | 55 => ⟨S550000, .i32⟩
  | 56 => ⟨S550000x1, .i32⟩
  | 57 => ⟨S550000x256, .f32⟩
  | 58 => ⟨S550000x1, .f32⟩
  | 59 => ⟨S550000x256, .f32⟩
  | 60 => ⟨S550000x256, .f32⟩
  | 61 => ⟨S_, .f32⟩
  | 62 => ⟨S50000x256, .f32⟩
  | 63 => ⟨S550000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x256, .f32⟩
  | 72 => ⟨S_, .f32⟩
  | 73 => ⟨S550000, .f32⟩
  | 74 => ⟨S_, .f32⟩
  | 75 => ⟨S50000, .f32⟩
  | 76 => ⟨S550000x1, .i32⟩
  | 77 => ⟨S50000, .f32⟩
  | 78 => ⟨S_, .f32⟩
  | 79 => ⟨S50000, .f32⟩
  | 80 => ⟨S50000, .f32⟩
  | 81 => ⟨S_, .i32⟩
  | 82 => ⟨S550000, .i32⟩
  | 83 => ⟨S550000, .i1⟩
  | 84 => ⟨S_, .i32⟩
  | 85 => ⟨S550000, .i32⟩
  | 86 => ⟨S550000, .i32⟩
  | 87 => ⟨S550000, .i32⟩
  | 88 => ⟨S550000x1, .i32⟩
  | 89 => ⟨S550000, .f32⟩
  | 90 => ⟨S_, .i32⟩
  | 91 => ⟨S550000, .i32⟩
  | 92 => ⟨S550000, .i1⟩
  | 93 => ⟨S_, .i32⟩
  | 94 => ⟨S550000, .i32⟩
  | 95 => ⟨S550000, .i32⟩
  | 96 => ⟨S550000, .i32⟩
  | 97 => ⟨S550000x1, .i32⟩
  | 98 => ⟨S550000, .f32⟩
  | 99 => ⟨S550000, .f32⟩
  | 100 => ⟨S_, .i32⟩
  | 101 => ⟨S550000, .i32⟩
  | 102 => ⟨S550000, .i1⟩
  | 103 => ⟨S_, .i32⟩
  | 104 => ⟨S550000, .i32⟩
  | 105 => ⟨S550000, .i32⟩
  | 106 => ⟨S550000, .i32⟩
  | 107 => ⟨S550000x1, .i32⟩
  | 108 => ⟨S550000x256, .f32⟩
  | 109 => ⟨S550000x1, .f32⟩
  | 110 => ⟨S550000x256, .f32⟩
  | 111 => ⟨S550000x256, .f32⟩
  | 112 => ⟨S_, .f32⟩
  | 113 => ⟨S50000x256, .f32⟩
  | 114 => ⟨S550000x1, .i32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S50000x256, .f32⟩
  | 123 => ⟨S_, .f32⟩
  | 124 => ⟨S550000, .f32⟩
  | 125 => ⟨S_, .f32⟩
  | 126 => ⟨S50000, .f32⟩
  | 127 => ⟨S550000x1, .i32⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S_, .i32⟩
  | 5 => ⟨S550000, .i32⟩
  | 6 => ⟨S550000, .i1⟩
  | 7 => ⟨S_, .i32⟩
  | 8 => ⟨S550000, .i32⟩
  | 9 => ⟨S550000, .i32⟩
  | 10 => ⟨S550000, .i32⟩
  | 11 => ⟨S550000x1, .i32⟩
  | 12 => ⟨S550000, .f32⟩
  | 13 => ⟨S_, .i32⟩
  | 14 => ⟨S550000, .i32⟩
  | 15 => ⟨S550000, .i1⟩
  | 16 => ⟨S_, .i32⟩
  | 17 => ⟨S550000, .i32⟩
  | 18 => ⟨S550000, .i32⟩
  | 19 => ⟨S550000, .i32⟩
  | 20 => ⟨S550000x1, .i32⟩
  | 21 => ⟨S550000, .f32⟩
  | 22 => ⟨S550000, .f32⟩
  | 23 => ⟨S_, .i32⟩
  | 24 => ⟨S550000, .i32⟩
  | 25 => ⟨S550000, .i1⟩
  | 26 => ⟨S_, .i32⟩
  | 27 => ⟨S550000, .i32⟩
  | 28 => ⟨S550000, .i32⟩
  | 29 => ⟨S550000, .i32⟩
  | 30 => ⟨S550000x1, .i32⟩
  | 31 => ⟨S550000x256, .f32⟩
  | 32 => ⟨S550000x1, .f32⟩
  | 33 => ⟨S550000x256, .f32⟩
  | 34 => ⟨S550000x256, .f32⟩
  | 35 => ⟨S_, .f32⟩
  | 36 => ⟨S50000x256, .f32⟩
  | 37 => ⟨S550000x1, .i32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S_, .f32⟩
  | 46 => ⟨S64x256, .f32⟩
  | 47 => ⟨S50000x1, .i32⟩
  | 48 => ⟨S64x256, .f32⟩
  | 49 => ⟨S_, .f32⟩
  | 50 => ⟨S50000, .f32⟩
  | 51 => ⟨S_, .f32⟩
  | 52 => ⟨S64, .f32⟩
  | 53 => ⟨S50000x1, .i32⟩
  | 54 => ⟨S64, .f32⟩
  | 55 => ⟨S_, .f32⟩
  | 56 => ⟨S64, .f32⟩
  | 57 => ⟨S64, .f32⟩
  | 58 => ⟨S64x1, .f32⟩
  | 59 => ⟨S64x256, .f32⟩
  | 60 => ⟨S64x256, .f32⟩
  | 61 => ⟨S64x256, .f32⟩
  | 62 => ⟨S1x256, .f32⟩
  | 63 => ⟨S64x256, .f32⟩
  | 64 => ⟨S64x256, .f32⟩
  | 65 => ⟨S_, .f32⟩
  | 66 => ⟨S64x256, .f32⟩
  | 67 => ⟨S64x256, .f32⟩
  | 68 => ⟨S64x5, .f32⟩
  | 69 => ⟨S1x5, .f32⟩
  | 70 => ⟨S64x5, .f32⟩
  | 71 => ⟨S64x5, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_cst : Ref sig .tc := ⟨.hbm, 68, rfl⟩
abbrev main_call0_v0 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call1_cst : Ref sig .tc := ⟨.hbm, 119, rfl⟩
abbrev main_call1_v0 : Ref sig .tc := ⟨.hbm, 120, rfl⟩
abbrev main_v84 : Ref sig .tc := ⟨.hbm, 121, rfl⟩
abbrev main_v85 : Ref sig .tc := ⟨.hbm, 122, rfl⟩
abbrev main_cst_18 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_20 : Ref sig .tc := ⟨.hbm, 129, rfl⟩
abbrev main_v90 : Ref sig .tc := ⟨.hbm, 130, rfl⟩
abbrev main_v91 : Ref sig .tc := ⟨.hbm, 131, rfl⟩
abbrev main_c_21 : Ref sig .tc := ⟨.hbm, 132, rfl⟩
abbrev main_v92 : Ref sig .tc := ⟨.hbm, 133, rfl⟩
abbrev main_v93 : Ref sig .tc := ⟨.hbm, 134, rfl⟩
abbrev main_c_22 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_23 : Ref sig .tc := ⟨.hbm, 141, rfl⟩
abbrev main_v99 : Ref sig .tc := ⟨.hbm, 142, rfl⟩
abbrev main_v100 : Ref sig .tc := ⟨.hbm, 143, rfl⟩
abbrev main_c_24 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_25 : Ref sig .tc := ⟨.hbm, 151, rfl⟩
abbrev main_v107 : Ref sig .tc := ⟨.hbm, 152, rfl⟩
abbrev main_v108 : Ref sig .tc := ⟨.hbm, 153, rfl⟩
abbrev main_c_26 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_27 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_call2_cst : Ref sig .tc := ⟨.hbm, 170, rfl⟩
abbrev main_call2_v0 : Ref sig .tc := ⟨.hbm, 171, rfl⟩
abbrev main_v123 : Ref sig .tc := ⟨.hbm, 172, rfl⟩
abbrev main_cst_28 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_29 : Ref sig .tc := ⟨.hbm, 177, rfl⟩
abbrev main_v127 : Ref sig .tc := ⟨.hbm, 178, rfl⟩
abbrev main_cst_30 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_31 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_call3_cst : Ref sig .tc := ⟨.hbm, 193, rfl⟩
abbrev main_call3_v0 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  dot_S50000x128_S128x256_S50000x256_1_0_0_1_n_n_wf : DotDims.WF S50000x128 S128x256 S50000x256 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x256_S64x256_1_0_0_1_n_n_wf : DotDims.WF S64x256 S256x256 S64x256 [1] [0] [0] [1] [] []
  dot_S64x256_S256x5_S64x5_1_0_0_1_n_n_wf : DotDims.WF S64x256 S256x5 S64x5 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x5_S64x5_1_0_0_1_n_n : DotDims S64x256 S256x5 S64x5 where
  lhsContracting := [1]
  rhsContracting := [0]
  lhsNonContracting := [0]
  rhsNonContracting := [1]
  lhsBatch := []
  rhsBatch := []
  wf := dot_S64x256_S256x5_S64x5_1_0_0_1_n_n_wf

class Facts : Prop extends Facts₀ where

variable [Facts]
-- ==== Proof.KRun.lean ====
/-
  The idealized kernel's run with its result named.

  Every weakly fair execution of the program from a memory `m` terminates without a fault; the result buffer then
  holds what the last boundary of the program's ten segments (five stretches of host operations, five regions) holds
  there, `W10 m ρ c` at the result's reference, and the thirteen argument arrays are as launched. The buffer contents
  at the segment boundaries are a fold from the launch memory: a stretch applies its operations, a region replaces
  its arrays by what its write-backs leave.
-/
import proofs.«140251_j35588099015135_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v65) = W10 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v65 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.KRun

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«140251_j35588099015135_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.Fn.lean ====
/-
  The functions a graph-convolution network's dense stages compute, index by index, on the extended reals.

  `pre x w d` is the product `x · w` with row `n` scaled by the column entry `d (n, 0)` (the transform a layer applies
  before its neighbourhood sum); `post a d b` is `max (a · d + b) 0` with `d` a column repeated over the columns and `b`
  a one-row array repeated over the rows (what a layer applies after the sum); `cls g w1 b1 w2 b2` is the two-layer
  read-out `max (g · w1 + b1) 0 · w2 + b2` with one-row biases.
-/
import proofs.«140251_j35588099015135_2_alg».proof.Proof.LibMatProd

noncomputable section

namespace Cert.Gcn.Fn

open Idealize.ShloMosaic Idealize.ShloMosaic.ValueIdx Cert.Lib.MatProd

variable {M K N : ℕ}

/-- Rows times columns, then row `n` scaled by `d (n, 0)`. -/
def pre (x : (⟨2, ![M, K]⟩ : Shape).Idx → EReal) (w : (⟨2, ![K, N]⟩ : Shape).Idx → EReal)
    (d : (⟨2, ![M, 1]⟩ : Shape).Idx → EReal) : (⟨2, ![M, N]⟩ : Shape).Idx → EReal :=
  fun j => prod x w j * d (ix2 (j 0) (0 : Fin 1))

theorem pre_apply (x : (⟨2, ![M, K]⟩ : Shape).Idx → EReal) (w : (⟨2, ![K, N]⟩ : Shape).Idx → EReal)
    (d : (⟨2, ![M, 1]⟩ : Shape).Idx → EReal) (n : Fin M) (c : Fin N) :
    pre x w d (ix2 n c) = (∑ k : Fin K, x (ix2 n k) * w (ix2 k c)) * d (ix2 n (0 : Fin 1)) := rfl

/-- `max (a (n, c) · d (n, 0) + b (0, c)) 0`. -/
def post (a : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun j => max (a j * d (ix2 (j 0) (0 : Fin 1)) + b (ix2 (0 : Fin 1) (j 1))) 0

theorem post_apply (a : (⟨2, ![M, N]⟩ : Shape).Idx → EReal) (d : (⟨2, ![M, 1]⟩ : Shape).Idx → EReal)
    (b : (⟨2, ![1, N]⟩ : Shape).Idx → EReal) (n : Fin M) (c : Fin N) :
    post a d b (ix2 n c) = max (a (ix2 n c) * d (ix2 n (0 : Fin 1)) + b (ix2 (0 : Fin 1) c)) 0 := rfl

/-- One dense layer with a one-row bias and a rectifier: `max (g · w + b) 0`. -/
def hidden (g : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => max (prod g w j + b (ix2 (0 : Fin 1) (j 1))) 0

/-- The read-out: `hidden g w1 b1 · w2 + b2`. -/
def cls {H : ℕ} (g : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) : (⟨2, ![M, N]⟩ : Shape).Idx → EReal :=
  fun j => prod (hidden g w1 b1) w2 j + b2 (ix2 (0 : Fin 1) (j 1))

theorem cls_apply {H : ℕ} (g : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) (p : Fin M) (c : Fin N) :
    cls g w1 b1 w2 b2 (ix2 p c)
      = (∑ k : Fin H, max ((∑ i : Fin K, g (ix2 p i) * w1 (ix2 i k)) + b1 (ix2 (0 : Fin 1) k)) 0 * w2 (ix2 k c))
        + b2 (ix2 (0 : Fin 1) c) := rfl

end Cert.Gcn.Fn

end
-- ==== Proof.LibColumnSpread.lean ====
/-
  One column spread over many.

  A kernel that keeps a per-row scalar as a column `[a, 1]` and multiplies a whole `[a, b]` block by it
  broadcasts the column along the second axis. Read at `(p, c)` the broadcast is the column's entry of row `p`,
  whatever the column `c`. (The library has the row form `[1, b] → [a, b]`; this is the column form.)
  Imports only the Idealize library.
-/
import Idealize.ShloMosaic.Lib.Pipeline.Value
import Idealize.ShloMosaic.Lib.ValueIdx

noncomputable section

namespace Cert.Lib.ColumnSpread

open Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnSpread

end
-- ==== Proof.KRegion0.lean ====
/-
  The first dense stage of the network, read off its ten row blocks.

  The stage multiplies the node features `x` (50000 rows of 128) by a weight (128 by 256) and scales row `n` of the
  product by the entry `d (n, 0)` of a column: the function `pre x w d`. It is computed 5000 rows at a time. Each
  block's stored value is `pre` of the block of rows of `x`, the whole weight, and the same rows of the column
  (`pay0_eq`: a product into a zero accumulator is the plain product; a column spread over the columns reads its
  own row). Row `p` of block `t` is row `t * 5000 + p` of the array, a row of a product depends only on that row of
  the left factor, so the block is that block of rows of `pre` of the whole arrays (`pre_rows0`, `flushed0_eq`).
  Every row lies in the block numbered by the row divided by 5000 (`cover0`), so the blocks together are the whole
  array (`final0`). No law of arithmetic beyond rewriting equal summands is used, so nothing needs finiteness.
-/
import proofs.«140251_j35588099015135_2_alg».proof.Proof.Gen.KernelIdeal.Frame
import proofs.«140251_j35588099015135_2_alg».proof.Proof.Fn
import proofs.«140251_j35588099015135_2_alg».proof.Proof.LibColumnSpread

noncomputable section
namespace Cert.KernelIdeal.KRegion
open Cert.KernelIdeal Cert.KernelIdeal.Gen Idealize.ShloMosaic Idealize.ShloMosaic.TcCoe Idealize.SL.Sem
open Idealize.ShloMosaic.Pipeline (Dat)
open Idealize.ShloMosaic.ValueIdx

/-! ## The contraction record of the block product: one contracted axis, rows against columns -/

theorem d0_lhs0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem d0_lhs1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem d0_rhs0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem d0_rhs1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- One block of rows: the body's stored value is the transform `pre` of the blocks it loaded — the block of rows
    times the weight, each row scaled by its entry of the column block. -/
theorem pay0_eq (v0 : Vec Ideal S5000x128 .f32) (v1 : Vec Ideal S128x256 .f32) (v3 : Vec Ideal S5000x1 .f32) :
    k0_pay1 (F := Ideal) v0 v1 v3 = Cert.Gcn.Fn.pre (M := 5000) (K := 128) (N := 256) v0 v1 v3 := by
  funext j
  obtain ⟨p, q, rfl⟩ : ∃ (p : Fin 5000) (q : Fin 256), j = ix2 p q := ⟨j 0, j 1, eq_ix2 j⟩
  unfold k0_pay1
  refine (mulf_apply _ _ _).trans ?_
  refine congrArg₂ (· * ·) ?_ ?_
  · exact congrFun (Cert.Lib.MatProd.matmul_zero_eq_prod dot_S5000x128_S128x256_S5000x256_1_0_0_1_n_n rfl rfl d0_lhs0 d0_lhs1 d0_rhs0 d0_rhs1 (some .fp32) v0 v1) (ix2 p q)
  · exact (Cert.Lib.ColumnSpread.broadcastTo_a1_ab_apply _ _ p q).trans (congrFun (shapeCast_self v3 _) _)

/-! ## From one block of rows to the whole array -/

theorem hz0 : (![0, 0] : Fin 2 → Nat) = fun _ => 0 := funext fun a => by fin_cases a <;> rfl

/-- `pre` of a block of 5000 rows is that block of rows of `pre` of the whole arrays: row `p` of block `T` is row
    `T * 5000 + p`, the weight is shared by every block, and the scaling column is cut in the same rows. -/
theorem pre_rows0 {K : ℕ} (x : (⟨2, ![50000, K]⟩ : Shape).Idx → EReal) (w : (⟨2, ![K, 256]⟩ : Shape).Idx → EReal)
    (d : (⟨2, ![50000, 1]⟩ : Shape).Idx → EReal)
    (xb : (⟨2, ![5000, K]⟩ : Shape).Idx → EReal) (wb : (⟨2, ![K, 256]⟩ : Shape).Idx → EReal)
    (db : (⟨2, ![5000, 1]⟩ : Shape).Idx → EReal)
    (T : ℕ) (p : Fin 5000) (q : Fin 256) (h : T * 5000 + p.val < 50000)
    (hx : ∀ k : Fin K, xb (ix2 p k) = x (ix2 ⟨T * 5000 + p.val, h⟩ k))
    (hw : ∀ k : Fin K, wb (ix2 k q) = w (ix2 k q))
    (hd : db (ix2 p (0 : Fin 1)) = d (ix2 ⟨T * 5000 + p.val, h⟩ (0 : Fin 1))) :
    Cert.Gcn.Fn.pre (M := 5000) (K := K) (N := 256) xb wb db (ix2 p q)
      = Cert.Gcn.Fn.pre (M := 50000) (K := K) (N := 256) x w d (ix2 ⟨T * 5000 + p.val, h⟩ q) :=
  congrArg₂ (· * ·) (Cert.Lib.MatProd.prod_rows x w xb wb T p q h hx hw) hd

/-- The printed index maps, decided once over the ten grid points: the row-blocked windows sit at block row `t`,
    block column 0; the weight's window is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `pre` of the arrays the region finds. -/
theorem flushed0_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal)
      (Cert.Gcn.Fn.pre (M := 50000) (K := 128) (N := 256) (V c main_arg0) (V c main_arg3) (V c main_v13)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x256) hz0, View.ld_unit_zero (S := S5000x1) hz0]
  rw [pay0_eq]
  obtain ⟨e00, e01, e10, e11, e20, e21, e30, e31⟩ := idx_facts0 t
  have ht : t.val < 10 := lt_of_lt_of_eq t.isLt N_0
  funext y
  obtain ⟨p, q, rfl⟩ : ∃ (p : Fin 5000) (q : Fin 256), y = ix2 p q := ⟨y 0, y 1, eq_ix2 y⟩
  have h : t.val * 5000 + p.val < 50000 := by have := p.isLt; omega
  have hemb : ((cfg0.win 3).blk t).view.emb (ix2 p q) = ix2 (⟨t.val * 5000 + p.val, h⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 256 + 1 * q.val = q.val; omega
  show Cert.Gcn.Fn.pre (M := 5000) (K := 128) (N := 256) (iblk0 V c 0 t) (iblk0 V c 1 t) (iblk0 V c 2 t) (ix2 p q)
    = Cert.Gcn.Fn.pre (M := 50000) (K := 128) (N := 256) (V c main_arg0) (V c main_arg3) (V c main_v13) (((cfg0.win 3).blk t).view.emb (ix2 p q))
  rw [hemb]
  refine pre_rows0 (V c main_arg0) (V c main_arg3) (V c main_v13) (iblk0 V c 0 t) (iblk0 V c 1 t) (iblk0 V c 2 t) t.val p q h (fun k => ?_) (fun k => ?_) ?_
  · show V c main_arg0 (((cfg0.win 0).blk t).view.emb (ix2 p k)) = V c main_arg0 (ix2 (⟨t.val * 5000 + p.val, h⟩ : Fin 50000) k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  · show V c main_v13 (((cfg0.win 2).blk t).view.emb (ix2 p (0 : Fin 1))) = V c main_v13 (ix2 (⟨t.val * 5000 + p.val, h⟩ : Fin 50000) (0 : Fin 1))
    refine congrArg (V c main_v13) ?_
    funext a; apply Fin.ext
    match a with
    | ⟨0, _⟩ => show win0_2.index t (0 : Fin 2) * 5000 + 1 * p.val = t.val * 5000 + p.val; omega
    | ⟨1, _⟩ => show win0_2.index t (1 : Fin 2) * 1 + 1 * (0 : Fin 1).val = (0 : Fin 1).val; omega

/-- An index of the array is in point `t`'s block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v14).slice (win0_3.rect t)).set ↔ _
  rw [View.set_slice_whole, Rect.mem_set_unit]
  exact Iff.rfl

/-- Every row lies in the block of the point numbered by the row divided by 5000. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hlt : (i 0).val / 5000 < cfg0.N := lt_of_lt_of_eq (by omega : (i 0).val / 5000 < 10) N_0.symm
  obtain ⟨-, -, -, -, -, -, e30, e31⟩ := idx_facts0 ⟨(i 0).val / 5000, hlt⟩
  have e30' : win0_3.index ⟨(i 0).val / 5000, hlt⟩ (0 : Fin 2) = (i 0).val / 5000 := e30
  refine ⟨⟨(i 0).val / 5000, hlt⟩, flush0_3 _, ?_⟩
  rw [mem_blk0]
  intro a
  match a with
  | ⟨0, _⟩ => show win0_3.index ⟨(i 0).val / 5000, hlt⟩ (0 : Fin 2) * 5000 ≤ (i 0).val ∧ (i 0).val < win0_3.index ⟨(i 0).val / 5000, hlt⟩ (0 : Fin 2) * 5000 + 5000; omega
  | ⟨1, _⟩ => show win0_3.index ⟨(i 0).val / 5000, hlt⟩ (1 : Fin 2) * 256 ≤ (i 1).val ∧ (i 1).val < win0_3.index ⟨(i 0).val / 5000, hlt⟩ (1 : Fin 2) * 256 + 256; omega

/-- The array after the ten points: `pre` of the arrays the region finds, whole. -/
theorem final0 (V : (c : Dev nD) → (b : Ref sig .tc) → Buf (Elt Ideal) ((c : Thread nD τ).loc b)) (c : Dev nD) :
    (dat0 (F := Ideal) V c).arrAt 3 cfg0.N = Cert.Gcn.Fn.pre (M := 50000) (K := 128) (N := 256) (V c main_arg0) (V c main_arg3) (V c main_v13) :=
  (dat0 (F := Ideal) V c).arrAt_eq_of_cover 3
    (Cert.Gcn.Fn.pre (M := 50000) (K := 128) (N := 256) (V c main_arg0) (V c main_arg3) (V c main_v13))
    (fun t _ => flushed0_eq V c t) cover0

end Cert.KernelIdeal.KRegion
end
-- ==== Proof.KRegion1.lean ====
/-
  The second fused dense stage of the network, read off its ten row blocks.

  The stage first finishes the previous layer, entry by entry — `post a d b (n, c) = max (a (n, c) * d (n, 0) + b (0, c)) 0`,
  with `d` a column and `b` a one-row bias — and then applies the next layer's transform `pre`: the result times a
  weight (256 by 256), row `n` scaled by `d (n, 0)` again. It is computed 5000 rows at a time. Each block's stored
  value is `pre` of `post` of the loaded blocks (`act1_eq`, `pay1_eq`: a column spread over the columns reads its own row, a one-row
  array spread over the rows reads its own column, the zero word is zero, a product into a zero accumulator is the
  plain product). Row `p` of block `t` is row `t * 5000 + p` of the array; `post` reads only the entry itself, the
  column's entry of the same row and the bias of the same column, and a row of a product depends only on that row
  of the left factor, so the block is that block of rows of `pre` of `post` of the whole arrays. Every row lies in
  the block numbered by the row divided by 5000, so the blocks together are the whole array. No law of arithmetic
  beyond rewriting equal subterms is used, so nothing needs finiteness.
-/
import proofs.«140251_j35588099015135_2_alg».proof.Proof.Gen.KernelIdeal.Frame
import proofs.«140251_j35588099015135_2_alg».proof.Proof.Fn
import proofs.«140251_j35588099015135_2_alg».proof.Proof.LibColumnSpread
import Idealize.ShloMosaic.Lib.ValueLayout
noncomputable section
namespace Cert.KernelIdeal.KRegion
open Cert.KernelIdeal Cert.KernelIdeal.Gen Idealize.ShloMosaic Idealize.ShloMosaic.TcCoe Idealize.SL.Sem
open Idealize.ShloMosaic.Pipeline (Dat)
open Idealize.ShloMosaic.ValueIdx

/-! ## The contraction record of the block product: one contracted axis, rows against columns -/

theorem d1_lhs0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem d1_lhs1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem d1_rhs0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem d1_rhs1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-! ## One block of rows -/

/-- The left factor the body builds from its loads is `post` of them: the block times the column spread over the
    columns, plus the bias row spread over the rows, cut below at zero. -/
theorem act1_eq (v0 : Vec Ideal S5000x256 .f32) (v2 : Vec Ideal S5000x1 .f32) (v6 : Vec Ideal S1x256 .f32) :
    maximumf (addf (mulf (shapeCast S5000x256 v0 shapeCasts_S5000x256_S5000x256)
          (broadcastTo S5000x256 (shapeCast S5000x1 v2 shapeCasts_S5000x1_S5000x1) broadcasts_S5000x1_S5000x256))
        (broadcastTo S5000x256 (shapeCast S1x256 v6 shapeCasts_S1x256_S1x256) broadcasts_S1x256_S5000x256))
      (broadcast S5000x256 (Scalar.ofBits (F := Ideal) .f32 0x00000000#32))
      = Cert.Gcn.Fn.post (M := 5000) (N := 256) v0 v2 v6 := by
  funext j
  obtain ⟨p, q, rfl⟩ : ∃ (p : Fin 5000) (q : Fin 256), j = ix2 p q := ⟨j 0, j 1, eq_ix2 j⟩
  refine (maximumf_apply _ _ _).trans ?_
  refine congrArg₂ max ?_ ?_
  · refine (addf_apply _ _ _).trans (congrArg₂ (· + ·) ?_ ?_)
    · refine (mulf_apply _ _ _).trans (congrArg₂ (· * ·) ?_ ?_)
      · exact congrFun (shapeCast_self v0 _) _
      · exact (Cert.Lib.ColumnSpread.broadcastTo_a1_ab_apply _ _ p q).trans (congrFun (shapeCast_self v2 _) _)
    · exact (broadcastTo_1b_ab_apply _ _ p q).trans (congrFun (shapeCast_self v6 _) _)
  · exact (broadcast_apply _ _).trans Ideal.ofBits_zero_f32

/-- The body's stored value is `pre` of `post` of the loaded blocks, the weight, and the column block. -/
theorem pay1_eq (v0 : Vec Ideal S5000x256 .f32) (v2 : Vec Ideal S5000x1 .f32) (v6 : Vec Ideal S1x256 .f32)
    (v12 : Vec Ideal S256x256 .f32) (v14 : Vec Ideal S5000x1 .f32) :
    k1_pay1 (F := Ideal) v0 v2 v6 v12 v14
      = Cert.Gcn.Fn.pre (M := 5000) (K := 256) (N := 256) (Cert.Gcn.Fn.post (M := 5000) (N := 256) v0 v2 v6) v12 v14 := by
  funext j
  obtain ⟨p, q, rfl⟩ : ∃ (p : Fin 5000) (q : Fin 256), j = ix2 p q := ⟨j 0, j 1, eq_ix2 j⟩
  unfold k1_pay1
  refine (mulf_apply _ _ _).trans ?_
  refine congrArg₂ (· * ·) ?_ ?_
  · refine (congrFun (Cert.Lib.MatProd.matmul_zero_eq_prod dot_S5000x256_S256x256_S5000x256_1_0_0_1_n_n rfl rfl d1_lhs0 d1_lhs1 d1_rhs0 d1_rhs1 (some .fp32) _ v12) (ix2 p q)).trans ?_
    exact congrArg (fun L => Cert.Lib.MatProd.prod (M := 5000) (K := 256) (N := 256) L v12 (ix2 p q)) (act1_eq v0 v2 v6)
  · exact (Cert.Lib.ColumnSpread.broadcastTo_a1_ab_apply _ _ p q).trans (congrFun (shapeCast_self v14 _) _)

/-! ## From one block of rows to the whole array -/

theorem hz1 : (![0, 0] : Fin 2 → Nat) = fun _ => 0 := funext fun a => by fin_cases a <;> rfl

/-- `pre` of a block of 5000 rows is that block of rows of `pre` of the whole arrays: row `p` of block `T` is row
    `T * 5000 + p`, the weight is shared by every block, and the scaling column is cut in the same rows. -/
theorem pre_rows1 {K : ℕ} (x : (⟨2, ![50000, K]⟩ : Shape).Idx → EReal) (w : (⟨2, ![K, 256]⟩ : Shape).Idx → EReal)
    (d : (⟨2, ![50000, 1]⟩ : Shape).Idx → EReal)
    (xb : (⟨2, ![5000, K]⟩ : Shape).Idx → EReal) (wb : (⟨2, ![K, 256]⟩ : Shape).Idx → EReal)
    (db : (⟨2, ![5000, 1]⟩ : Shape).Idx → EReal)
    (T : ℕ) (p : Fin 5000) (q : Fin 256) (h : T * 5000 + p.val < 50000)
    (hx : ∀ k : Fin K, xb (ix2 p k) = x (ix2 ⟨T * 5000 + p.val, h⟩ k))
    (hw : ∀ k : Fin K, wb (ix2 k q) = w (ix2 k q))
    (hd : db (ix2 p (0 : Fin 1)) = d (ix2 ⟨T * 5000 + p.val, h⟩ (0 : Fin 1))) :
    Cert.Gcn.Fn.pre (M := 5000) (K := K) (N := 256) xb wb db (ix2 p q)
      = Cert.Gcn.Fn.pre (M := 50000) (K := K) (N := 256) x w d (ix2 ⟨T * 5000 + p.val, h⟩ q) :=
  congrArg₂ (· * ·) (Cert.Lib.MatProd.prod_rows x w xb wb T p q h hx hw) hd

/-- `post` is entry by entry: an entry of `post` of a block of rows is the entry of `post` of the whole arrays at
    the same place, once the three entries it reads are. -/
theorem post_rows1 (a : (⟨2, ![50000, 256]⟩ : Shape).Idx → EReal) (d : (⟨2, ![50000, 1]⟩ : Shape).Idx → EReal)
    (b : (⟨2, ![1, 256]⟩ : Shape).Idx → EReal)
    (ab : (⟨2, ![5000, 256]⟩ : Shape).Idx → EReal) (db : (⟨2, ![5000, 1]⟩ : Shape).Idx → EReal)
    (bb : (⟨2, ![1, 256]⟩ : Shape).Idx → EReal)
    (P : Fin 50000) (p : Fin 5000) (k : Fin 256)
    (ha : ab (ix2 p k) = a (ix2 P k)) (hd : db (ix2 p (0 : Fin 1)) = d (ix2 P (0 : Fin 1)))
    (hb : bb (ix2 (0 : Fin 1) k) = b (ix2 (0 : Fin 1) k)) :
    Cert.Gcn.Fn.post (M := 5000) (N := 256) ab db bb (ix2 p k) = Cert.Gcn.Fn.post (M := 50000) (N := 256) a d b (ix2 P k) :=
  congrArg₂ max (congrArg₂ (· + ·) (congrArg₂ (· * ·) ha hd) hb) rfl

/-- The printed index maps, decided once over the ten grid points: the row-blocked windows sit at block row `t`,
    block column 0; the bias row's and the weight's windows are the whole arrays at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `pre` of `post` of the arrays the region finds. -/
theorem flushed1_eq (V : (c : Dev nD) → (b : Ref sig .tc) → Buf (Elt Ideal) ((c : Thread nD τ).loc b)) (c : Dev nD) (t : Fin cfg1.N) :
    (dat1 (F := Ideal) V c).flushed 4 t = ((cfg1.win 4).blk t).view.read (Elt Ideal)
      (Cert.Gcn.Fn.pre (M := 50000) (K := 256) (N := 256)
        (Cert.Gcn.Fn.post (M := 50000) (N := 256) (V c main_v24) (V c main_v13) (V c main_v25)) (V c main_arg5) (V c main_v13)) := by
  show (cfg1.win 4).cut (grid1.coords t) ((dat1 V c).after 4 t) = _
  rw [after1_4]
  unfold out1_4
  rw [View.canon_unit_zero hz1]
  simp only [View.ld_unit_zero (S := S5000x256) hz1, View.ld_unit_zero (S := S5000x1) hz1, View.ld_unit_zero (S := S1x256) hz1, View.ld_unit_zero (S := S256x256) hz1]
  rw [pay1_eq]
  obtain ⟨e00, e01, e10, e11, e20, e21, e30, e31, e40, e41⟩ := idx_facts1 t
  have ht : t.val < 10 := lt_of_lt_of_eq t.isLt N_1
  funext y
  obtain ⟨p, q, rfl⟩ : ∃ (p : Fin 5000) (q : Fin 256), y = ix2 p q := ⟨y 0, y 1, eq_ix2 y⟩
  have h : t.val * 5000 + p.val < 50000 := by have := p.isLt; omega
  have hemb : ((cfg1.win 4).blk t).view.emb (ix2 p q) = ix2 (⟨t.val * 5000 + p.val, h⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 256 + 1 * q.val = q.val; omega
  -- the three entries a row of the block reads, placed in the arrays
  have ha : ∀ k : Fin 256, iblk1 V c 0 t (ix2 p k) = V c main_v24 (ix2 (⟨t.val * 5000 + p.val, h⟩ : Fin 50000) k) := fun k => by
    show V c main_v24 (((cfg1.win 0).blk t).view.emb (ix2 p k)) = _
    refine congrArg (V c main_v24) ?_
    funext a; apply Fin.ext
    match a with
    | ⟨0, _⟩ => show win1_0.index t (0 : Fin 2) * 5000 + 1 * p.val = t.val * 5000 + p.val; omega
    | ⟨1, _⟩ => show win1_0.index t (1 : Fin 2) * 256 + 1 * k.val = k.val; omega
  have hd : iblk1 V c 1 t (ix2 p (0 : Fin 1)) = V c main_v13 (ix2 (⟨t.val * 5000 + p.val, h⟩ : Fin 50000) (0 : Fin 1)) := by
    show V c main_v13 (((cfg1.win 1).blk t).view.emb (ix2 p (0 : Fin 1))) = _
    refine congrArg (V c main_v13) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * (0 : Fin 1).val = (0 : Fin 1).val; omega
  have hb : ∀ k : Fin 256, iblk1 V c 2 t (ix2 (0 : Fin 1) k) = V c main_v25 (ix2 (0 : Fin 1) k) := fun k => by
    show V c main_v25 (((cfg1.win 2).blk t).view.emb (ix2 (0 : Fin 1) k)) = _
    refine congrArg (V c main_v25) ?_
    funext a; apply Fin.ext
    match a with
    | ⟨0, _⟩ => show win1_2.index t (0 : Fin 2) * 1 + 1 * (0 : Fin 1).val = (0 : Fin 1).val; omega
    | ⟨1, _⟩ => show win1_2.index t (1 : Fin 2) * 256 + 1 * k.val = k.val; omega
  have hw : ∀ k : Fin 256, iblk1 V c 3 t (ix2 k q) = V c main_arg5 (ix2 k q) := fun k => by
    show V c main_arg5 (((cfg1.win 3).blk t).view.emb (ix2 k q)) = _
    refine congrArg (V c main_arg5) ?_
    funext a; apply Fin.ext
    match a with
    | ⟨0, _⟩ => show win1_3.index t (0 : Fin 2) * 256 + 1 * k.val = k.val; omega
    | ⟨1, _⟩ => show win1_3.index t (1 : Fin 2) * 256 + 1 * q.val = q.val; omega
  show Cert.Gcn.Fn.pre (M := 5000) (K := 256) (N := 256)
      (Cert.Gcn.Fn.post (M := 5000) (N := 256) (iblk1 V c 0 t) (iblk1 V c 1 t) (iblk1 V c 2 t)) (iblk1 V c 3 t) (iblk1 V c 1 t) (ix2 p q)
    = Cert.Gcn.Fn.pre (M := 50000) (K := 256) (N := 256)
        (Cert.Gcn.Fn.post (M := 50000) (N := 256) (V c main_v24) (V c main_v13) (V c main_v25)) (V c main_arg5) (V c main_v13)
        (((cfg1.win 4).blk t).view.emb (ix2 p q))
  rw [hemb]
  exact pre_rows1 (Cert.Gcn.Fn.post (M := 50000) (N := 256) (V c main_v24) (V c main_v13) (V c main_v25)) (V c main_arg5) (V c main_v13)
    (Cert.Gcn.Fn.post (M := 5000) (N := 256) (iblk1 V c 0 t) (iblk1 V c 1 t) (iblk1 V c 2 t)) (iblk1 V c 3 t) (iblk1 V c 1 t)
    t.val p q h
    (fun k => post_rows1 (V c main_v24) (V c main_v13) (V c main_v25) (iblk1 V c 0 t) (iblk1 V c 1 t) (iblk1 V c 2 t)
      ⟨t.val * 5000 + p.val, h⟩ p k (ha k) hd (hb k))
    hw hd

/-- An index of the array is in point `t`'s block iff each coordinate is in the block's range on its axis. -/
theorem mem_blk1 (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v26).slice (win1_4.rect t)).set ↔ _
  rw [View.set_slice_whole, Rect.mem_set_unit]
  exact Iff.rfl

/-- Every row lies in the block of the point numbered by the row divided by 5000. -/
theorem cover1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hlt : (i 0).val / 5000 < cfg1.N := lt_of_lt_of_eq (by omega : (i 0).val / 5000 < 10) N_1.symm
  obtain ⟨-, -, -, -, -, -, -, -, e40, e41⟩ := idx_facts1 ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [mem_blk1]
  intro a
  match a with
  | ⟨0, _⟩ => show win1_4.index ⟨(i 0).val / 5000, hlt⟩ (0 : Fin 2) * 5000 ≤ (i 0).val ∧ (i 0).val < win1_4.index ⟨(i 0).val / 5000, hlt⟩ (0 : Fin 2) * 5000 + 5000; omega
  | ⟨1, _⟩ => show win1_4.index ⟨(i 0).val / 5000, hlt⟩ (1 : Fin 2) * 256 ≤ (i 1).val ∧ (i 1).val < win1_4.index ⟨(i 0).val / 5000, hlt⟩ (1 : Fin 2) * 256 + 256; omega

/-- The array after the ten points: `pre` of `post` of the arrays the region finds, whole. -/
theorem final1 (V : (c : Dev nD) → (b : Ref sig .tc) → Buf (Elt Ideal) ((c : Thread nD τ).loc b)) (c : Dev nD) :
    (dat1 (F := Ideal) V c).arrAt 4 cfg1.N = Cert.Gcn.Fn.pre (M := 50000) (K := 256) (N := 256)
      (Cert.Gcn.Fn.post (M := 50000) (N := 256) (V c main_v24) (V c main_v13) (V c main_v25)) (V c main_arg5) (V c main_v13) :=
  (dat1 (F := Ideal) V c).arrAt_eq_of_cover 4
    (Cert.Gcn.Fn.pre (M := 50000) (K := 256) (N := 256)
      (Cert.Gcn.Fn.post (M := 50000) (N := 256) (V c main_v24) (V c main_v13) (V c main_v25)) (V c main_arg5) (V c main_v13))
    (fun t _ => flushed1_eq V c t) cover1

end Cert.KernelIdeal.KRegion
end
-- ==== Proof.KRegion2.lean ====
/-
  The third fused dense stage of the network, read off its ten row blocks.

  The stage first finishes the previous layer, entry by entry — `post a d b (n, c) = max (a (n, c) * d (n, 0) + b (0, c)) 0`,
  with `d` a column and `b` a one-row bias — and then applies the next layer's transform `pre`: the result times a
  weight (256 by 256), row `n` scaled by `d (n, 0)` again. It is computed 5000 rows at a time. Each block's stored
  value is `pre` of `post` of the loaded blocks (`act2_eq`, `pay2_eq`: a column spread over the columns reads its own row, a one-row
  array spread over the rows reads its own column, the zero word is zero, a product into a zero accumulator is the
  plain product). Row `p` of block `t` is row `t * 5000 + p` of the array; `post` reads only the entry itself, the
  column's entry of the same row and the bias of the same column, and a row of a product depends only on that row
  of the left factor, so the block is that block of rows of `pre` of `post` of the whole arrays. Every row lies in
  the block numbered by the row divided by 5000, so the blocks together are the whole array. No law of arithmetic
  beyond rewriting equal subterms is used, so nothing needs finiteness.
-/
import proofs.«140251_j35588099015135_2_alg».proof.Proof.Gen.KernelIdeal.Frame
import proofs.«140251_j35588099015135_2_alg».proof.Proof.Fn
import proofs.«140251_j35588099015135_2_alg».proof.Proof.LibColumnSpread
import Idealize.ShloMosaic.Lib.ValueLayout
noncomputable section
namespace Cert.KernelIdeal.KRegion
open Cert.KernelIdeal Cert.KernelIdeal.Gen Idealize.ShloMosaic Idealize.ShloMosaic.TcCoe Idealize.SL.Sem
open Idealize.ShloMosaic.Pipeline (Dat)
open Idealize.ShloMosaic.ValueIdx

/-! ## The contraction record of the block product: one contracted axis, rows against columns -/

theorem d2_lhs0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem d2_lhs1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem d2_rhs0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem d2_rhs1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-! ## One block of rows -/

/-- The left factor the body builds from its loads is `post` of them: the block times the column spread over the
    columns, plus the bias row spread over the rows, cut below at zero. -/
theorem act2_eq (v0 : Vec Ideal S5000x256 .f32) (v2 : Vec Ideal S5000x1 .f32) (v6 : Vec Ideal S1x256 .f32) :
    maximumf (addf (mulf (shapeCast S5000x256 v0 shapeCasts_S5000x256_S5000x256)
          (broadcastTo S5000x256 (shapeCast S5000x1 v2 shapeCasts_S5000x1_S5000x1) broadcasts_S5000x1_S5000x256))
        (broadcastTo S5000x256 (shapeCast S1x256 v6 shapeCasts_S1x256_S1x256) broadcasts_S1x256_S5000x256))
      (broadcast S5000x256 (Scalar.ofBits (F := Ideal) .f32 0x00000000#32))
      = Cert.Gcn.Fn.post (M := 5000) (N := 256) v0 v2 v6 := by
  funext j
  obtain ⟨p, q, rfl⟩ : ∃ (p : Fin 5000) (q : Fin 256), j = ix2 p q := ⟨j 0, j 1, eq_ix2 j⟩
  refine (maximumf_apply _ _ _).trans ?_
  refine congrArg₂ max ?_ ?_
  · refine (addf_apply _ _ _).trans (congrArg₂ (· + ·) ?_ ?_)
    · refine (mulf_apply _ _ _).trans (congrArg₂ (· * ·) ?_ ?_)
      · exact congrFun (shapeCast_self v0 _) _
      · exact (Cert.Lib.ColumnSpread.broadcastTo_a1_ab_apply _ _ p q).trans (congrFun (shapeCast_self v2 _) _)
    · exact (broadcastTo_1b_ab_apply _ _ p q).trans (congrFun (shapeCast_self v6 _) _)
  · exact (broadcast_apply _ _).trans Ideal.ofBits_zero_f32

/-- The body's stored value is `pre` of `post` of the loaded blocks, the weight, and the column block. -/
theorem pay2_eq (v0 : Vec Ideal S5000x256 .f32) (v2 : Vec Ideal S5000x1 .f32) (v6 : Vec Ideal S1x256 .f32)
    (v12 : Vec Ideal S256x256 .f32) (v14 : Vec Ideal S5000x1 .f32) :
    k2_pay1 (F := Ideal) v0 v2 v6 v12 v14
      = Cert.Gcn.Fn.pre (M := 5000) (K := 256) (N := 256) (Cert.Gcn.Fn.post (M := 5000) (N := 256) v0 v2 v6) v12 v14 := by
  funext j
  obtain ⟨p, q, rfl⟩ : ∃ (p : Fin 5000) (q : Fin 256), j = ix2 p q := ⟨j 0, j 1, eq_ix2 j⟩
  unfold k2_pay1
  refine (mulf_apply _ _ _).trans ?_
  refine congrArg₂ (· * ·) ?_ ?_
  · refine (congrFun (Cert.Lib.MatProd.matmul_zero_eq_prod dot_S5000x256_S256x256_S5000x256_1_0_0_1_n_n rfl rfl d2_lhs0 d2_lhs1 d2_rhs0 d2_rhs1 (some .fp32) _ v12) (ix2 p q)).trans ?_
    exact congrArg (fun L => Cert.Lib.MatProd.prod (M := 5000) (K := 256) (N := 256) L v12 (ix2 p q)) (act2_eq v0 v2 v6)
  · exact (Cert.Lib.ColumnSpread.broadcastTo_a1_ab_apply _ _ p q).trans (congrFun (shapeCast_self v14 _) _)

/-! ## From one block of rows to the whole array -/

theorem hz2 : (![0, 0] : Fin 2 → Nat) = fun _ => 0 := funext fun a => by fin_cases a <;> rfl

/-- `pre` of a block of 5000 rows is that block of rows of `pre` of the whole arrays: row `p` of block `T` is row
    `T * 5000 + p`, the weight is shared by every block, and the scaling column is cut in the same rows. -/
theorem pre_rows2 {K : ℕ} (x : (⟨2, ![50000, K]⟩ : Shape).Idx → EReal) (w : (⟨2, ![K, 256]⟩ : Shape).Idx → EReal)
    (d : (⟨2, ![50000, 1]⟩ : Shape).Idx → EReal)
    (xb : (⟨2, ![5000, K]⟩ : Shape).Idx → EReal) (wb : (⟨2, ![K, 256]⟩ : Shape).Idx → EReal)
    (db : (⟨2, ![5000, 1]⟩ : Shape).Idx → EReal)
    (T : ℕ) (p : Fin 5000) (q : Fin 256) (h : T * 5000 + p.val < 50000)
    (hx : ∀ k : Fin K, xb (ix2 p k) = x (ix2 ⟨T * 5000 + p.val, h⟩ k))
    (hw : ∀ k : Fin K, wb (ix2 k q) = w (ix2 k q))
    (hd : db (ix2 p (0 : Fin 1)) = d (ix2 ⟨T * 5000 + p.val, h⟩ (0 : Fin 1))) :
    Cert.Gcn.Fn.pre (M := 5000) (K := K) (N := 256) xb wb db (ix2 p q)
      = Cert.Gcn.Fn.pre (M := 50000) (K := K) (N := 256) x w d (ix2 ⟨T * 5000 + p.val, h⟩ q) :=
  congrArg₂ (· * ·) (Cert.Lib.MatProd.prod_rows x w xb wb T p q h hx hw) hd

/-- `post` is entry by entry: an entry of `post` of a block of rows is the entry of `post` of the whole arrays at
    the same place, once the three entries it reads are. -/
theorem post_rows2 (a : (⟨2, ![50000, 256]⟩ : Shape).Idx → EReal) (d : (⟨2, ![50000, 1]⟩ : Shape).Idx → EReal)
    (b : (⟨2, ![1, 256]⟩ : Shape).Idx → EReal)
    (ab : (⟨2, ![5000, 256]⟩ : Shape).Idx → EReal) (db : (⟨2, ![5000, 1]⟩ : Shape).Idx → EReal)
    (bb : (⟨2, ![1, 256]⟩ : Shape).Idx → EReal)
    (P : Fin 50000) (p : Fin 5000) (k : Fin 256)
    (ha : ab (ix2 p k) = a (ix2 P k)) (hd : db (ix2 p (0 : Fin 1)) = d (ix2 P (0 : Fin 1)))
    (hb : bb (ix2 (0 : Fin 1) k) = b (ix2 (0 : Fin 1) k)) :
    Cert.Gcn.Fn.post (M := 5000) (N := 256) ab db bb (ix2 p k) = Cert.Gcn.Fn.post (M := 50000) (N := 256) a d b (ix2 P k) :=
  congrArg₂ max (congrArg₂ (· + ·) (congrArg₂ (· * ·) ha hd) hb) rfl

/-- The printed index maps, decided once over the ten grid points: the row-blocked windows sit at block row `t`,
    block column 0; the bias row's and the weight's windows are the whole arrays at every point. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `pre` of `post` of the arrays the region finds. -/
theorem flushed2_eq (V : (c : Dev nD) → (b : Ref sig .tc) → Buf (Elt Ideal) ((c : Thread nD τ).loc b)) (c : Dev nD) (t : Fin cfg2.N) :
    (dat2 (F := Ideal) V c).flushed 4 t = ((cfg2.win 4).blk t).view.read (Elt Ideal)
      (Cert.Gcn.Fn.pre (M := 50000) (K := 256) (N := 256)
        (Cert.Gcn.Fn.post (M := 50000) (N := 256) (V c main_v36) (V c main_v13) (V c main_v37)) (V c main_arg7) (V c main_v13)) := by
  show (cfg2.win 4).cut (grid2.coords t) ((dat2 V c).after 4 t) = _
  rw [after2_4]
  unfold out2_4
  rw [View.canon_unit_zero hz2]
  simp only [View.ld_unit_zero (S := S5000x256) hz2, View.ld_unit_zero (S := S5000x1) hz2, View.ld_unit_zero (S := S1x256) hz2, View.ld_unit_zero (S := S256x256) hz2]
  rw [pay2_eq]
  obtain ⟨e00, e01, e10, e11, e20, e21, e30, e31, e40, e41⟩ := idx_facts2 t
  have ht : t.val < 10 := lt_of_lt_of_eq t.isLt N_2
  funext y
  obtain ⟨p, q, rfl⟩ : ∃ (p : Fin 5000) (q : Fin 256), y = ix2 p q := ⟨y 0, y 1, eq_ix2 y⟩
  have h : t.val * 5000 + p.val < 50000 := by have := p.isLt; omega
  have hemb : ((cfg2.win 4).blk t).view.emb (ix2 p q) = ix2 (⟨t.val * 5000 + p.val, h⟩ : Fin 50000) q := by
    funext a; apply Fin.ext
    match a with
    | ⟨0, _⟩ => show win2_4.index t (0 : Fin 2) * 5000 + 1 * p.val = t.val * 5000 + p.val; omega
    | ⟨1, _⟩ => show win2_4.index t (1 : Fin 2) * 256 + 1 * q.val = q.val; omega
  -- the three entries a row of the block reads, placed in the arrays
  have ha : ∀ k : Fin 256, iblk2 V c 0 t (ix2 p k) = V c main_v36 (ix2 (⟨t.val * 5000 + p.val, h⟩ : Fin 50000) k) := fun k => by
    show V c main_v36 (((cfg2.win 0).blk t).view.emb (ix2 p k)) = _
    refine congrArg (V c main_v36) ?_
    funext a; apply Fin.ext
    match a with
    | ⟨0, _⟩ => show win2_0.index t (0 : Fin 2) * 5000 + 1 * p.val = t.val * 5000 + p.val; omega
    | ⟨1, _⟩ => show win2_0.index t (1 : Fin 2) * 256 + 1 * k.val = k.val; omega
  have hd : iblk2 V c 1 t (ix2 p (0 : Fin 1)) = V c main_v13 (ix2 (⟨t.val * 5000 + p.val, h⟩ : Fin 50000) (0 : Fin 1)) := by
    show V c main_v13 (((cfg2.win 1).blk t).view.emb (ix2 p (0 : Fin 1))) = _
    refine congrArg (V c main_v13) ?_
    funext a; apply Fin.ext
    match a with
    | ⟨0, _⟩ => show win2_1.index t (0 : Fin 2) * 5000 + 1 * p.val = t.val * 5000 + p.val; omega
    | ⟨1, _⟩ => show win2_1.index t (1 : Fin 2) * 1 + 1 * (0 : Fin 1).val = (0 : Fin 1).val; omega
  have hb : ∀ k : Fin 256, iblk2 V c 2 t (ix2 (0 : Fin 1) k) = V c main_v37 (ix2 (0 : Fin 1) k) := fun k => by
    show V c main_v37 (((cfg2.win 2).blk t).view.emb (ix2 (0 : Fin 1) k)) = _
    refine congrArg (V c main_v37) ?_
    funext a; apply Fin.ext
    match a with
    | ⟨0, _⟩ => show win2_2.index t (0 : Fin 2) * 1 + 1 * (0 : Fin 1).val = (0 : Fin 1).val; omega
    | ⟨1, _⟩ => show win2_2.index t (1 : Fin 2) * 256 + 1 * k.val = k.val; omega
  have hw : ∀ k : Fin 256, iblk2 V c 3 t (ix2 k q) = V c main_arg7 (ix2 k q) := fun k => by
    show V c main_arg7 (((cfg2.win 3).blk t).view.emb (ix2 k q)) = _
    refine congrArg (V c main_arg7) ?_
    funext a; apply Fin.ext
    match a with
    | ⟨0, _⟩ => show win2_3.index t (0 : Fin 2) * 256 + 1 * k.val = k.val; omega
    | ⟨1, _⟩ => show win2_3.index t (1 : Fin 2) * 256 + 1 * q.val = q.val; omega
  show Cert.Gcn.Fn.pre (M := 5000) (K := 256) (N := 256)
      (Cert.Gcn.Fn.post (M := 5000) (N := 256) (iblk2 V c 0 t) (iblk2 V c 1 t) (iblk2 V c 2 t)) (iblk2 V c 3 t) (iblk2 V c 1 t) (ix2 p q)
    = Cert.Gcn.Fn.pre (M := 50000) (K := 256) (N := 256)
        (Cert.Gcn.Fn.post (M := 50000) (N := 256) (V c main_v36) (V c main_v13) (V c main_v37)) (V c main_arg7) (V c main_v13)
        (((cfg2.win 4).blk t).view.emb (ix2 p q))
  rw [hemb]
  exact pre_rows2 (Cert.Gcn.Fn.post (M := 50000) (N := 256) (V c main_v36) (V c main_v13) (V c main_v37)) (V c main_arg7) (V c main_v13)
    (Cert.Gcn.Fn.post (M := 5000) (N := 256) (iblk2 V c 0 t) (iblk2 V c 1 t) (iblk2 V c 2 t)) (iblk2 V c 3 t) (iblk2 V c 1 t)
    t.val p q h
    (fun k => post_rows2 (V c main_v36) (V c main_v13) (V c main_v37) (iblk2 V c 0 t) (iblk2 V c 1 t) (iblk2 V c 2 t)
      ⟨t.val * 5000 + p.val, h⟩ p k (ha k) hd (hb k))
    hw hd

/-- An index of the array is in point `t`'s block iff each coordinate is in the block's range on its axis. -/
theorem mem_blk2 (t : Fin cfg2.N) (i : S50000x256.Idx) :
    i ∈ ((cfg2.win 4).blk t).view.set ↔ ∀ a : Fin 2, win2_4.index t a * S5000x256.size a ≤ (i a).val ∧ (i a).val < win2_4.index t a * S5000x256.size a + S5000x256.size a := by
  show i ∈ ((View.whole main_v38).slice (win2_4.rect t)).set ↔ _
  rw [View.set_slice_whole, Rect.mem_set_unit]
  exact Iff.rfl

/-- Every row lies in the block of the point numbered by the row divided by 5000. -/
theorem cover2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hlt : (i 0).val / 5000 < cfg2.N := lt_of_lt_of_eq (by omega : (i 0).val / 5000 < 10) N_2.symm
  obtain ⟨-, -, -, -, -, -, -, -, e40, e41⟩ := idx_facts2 ⟨(i 0).val / 5000, hlt⟩
  have e40' : win2_4.index ⟨(i 0).val / 5000, hlt⟩ (0 : Fin 2) = (i 0).val / 5000 := e40
  refine ⟨⟨(i 0).val / 5000, hlt⟩, flush2_4 _, ?_⟩
  rw [mem_blk2]
  intro a
  match a with
  | ⟨0, _⟩ => show win2_4.index ⟨(i 0).val / 5000, hlt⟩ (0 : Fin 2) * 5000 ≤ (i 0).val ∧ (i 0).val < win2_4.index ⟨(i 0).val / 5000, hlt⟩ (0 : Fin 2) * 5000 + 5000; omega
  | ⟨1, _⟩ => show win2_4.index ⟨(i 0).val / 5000, hlt⟩ (1 : Fin 2) * 256 ≤ (i 1).val ∧ (i 1).val < win2_4.index ⟨(i 0).val / 5000, hlt⟩ (1 : Fin 2) * 256 + 256; omega

/-- The array after the ten points: `pre` of `post` of the arrays the region finds, whole. -/
theorem final2 (V : (c : Dev nD) → (b : Ref sig .tc) → Buf (Elt Ideal) ((c : Thread nD τ).loc b)) (c : Dev nD) :
    (dat2 (F := Ideal) V c).arrAt 4 cfg2.N = Cert.Gcn.Fn.pre (M := 50000) (K := 256) (N := 256)
      (Cert.Gcn.Fn.post (M := 50000) (N := 256) (V c main_v36) (V c main_v13) (V c main_v37)) (V c main_arg7) (V c main_v13) :=
  (dat2 (F := Ideal) V c).arrAt_eq_of_cover 4
    (Cert.Gcn.Fn.pre (M := 50000) (K := 256) (N := 256)
      (Cert.Gcn.Fn.post (M := 50000) (N := 256) (V c main_v36) (V c main_v13) (V c main_v37)) (V c main_arg7) (V c main_v13))
    (fun t _ => flushed2_eq V c t) cover2

end Cert.KernelIdeal.KRegion
end
-- ==== Proof.KRegion3.lean ====
/-
  The last layer's closing stage, as one function of the arrays it finds.

  The stage walks the 50000 rows of a `[50000, 256]` array in ten blocks of 5000 rows. On each block it scales
  every row by that row's entry of a column `[50000, 1]`, adds a bias row `[1, 256]` to every row, and clamps
  the result below at zero. Read at an entry `(n, c)` of the whole array that is
  `max (a (n, c) * d (n, 0) + b (0, c)) 0`: the function `Cert.Gcn.Fn.post`.

  The proof reads the body's result at an entry of a block (`pay3_apply`), places each block in its array (row `p`
  of block `t` is row `t * 5000 + p`: `emb3_0` … `emb3_3`), concludes that every block written back is the block
  of the whole-array function (`flushed3_eq`), and, the ten blocks covering the array (`cover3`), that the array ends
  holding that function (`final3`).
-/
import proofs.«140251_j35588099015135_2_alg».proof.Proof.Gen.KernelIdeal.Frame
import proofs.«140251_j35588099015135_2_alg».proof.Proof.Fn
import proofs.«140251_j35588099015135_2_alg».proof.Proof.LibColumnSpread
import Idealize.ShloMosaic.Lib.ValueLayout
import Idealize.ShloMosaic.Lib.Pipeline.Value
import Idealize.ShloMosaic.PureOps.Ideal.Laws

noncomputable section
namespace Cert.KernelIdeal.KRegion
open Cert.KernelIdeal Cert.KernelIdeal.Gen Idealize.ShloMosaic Idealize.ShloMosaic.TcCoe Idealize.SL.Sem
open Idealize.ShloMosaic.Pipeline (Dat)
open Idealize.ShloMosaic.ValueIdx

/-- The body's payload at an index: the block entry scaled by its row's column entry, plus the bias row's entry,
    clamped below at zero. -/
theorem pay3_apply (v0 : Vec Ideal S5000x256 .f32) (v2 : Vec Ideal S5000x1 .f32) (v6 : Vec Ideal S1x256 .f32)
    (p : Fin 5000) (q : Fin 256) :
    k3_pay1 (F := Ideal) v0 v2 v6 (ix2 p q)
      = max (v0 (ix2 p q) * v2 (ix2 p (0 : Fin 1)) + v6 (ix2 (0 : Fin 1) q)) 0 := by
  unfold k3_pay1
  rw [maximumf_apply, addf_apply, mulf_apply, broadcast_apply, shapeCast_self, shapeCast_self, shapeCast_self,
    Cert.Lib.ColumnSpread.broadcastTo_a1_ab_apply, broadcastTo_1b_ab_apply]
  show max _ (Ideal.ofBits .f32 0x00000000#32) = _
  rw [Ideal.ofBits_zero_f32]

/-- The block's rectangle starts at the origin. -/
theorem zero_offsets3 : (![0, 0] : Fin 2 → Nat) = fun _ => 0 := funext fun a => by fin_cases a <;> rfl

/-- The printed index maps, decided over the grid: the row-blocked windows move with the point along the rows and
    stay at column block zero; the bias row's window stays at block (0, 0). -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row of the array that row `p` of point `t`'s block is. -/
def row3 (t : Fin cfg3.N) (p : Fin 5000) : Fin 50000 :=
  ⟨t.val * 5000 + p.val, by have hN : cfg3.N = 10 := N_3; have := t.isLt; have := p.isLt; omega⟩

/-- Where the output window's block sits in its array. -/
theorem emb3_3 (t : Fin cfg3.N) (p : Fin 5000) (q : Fin 256) :
    ((cfg3.win 3).blk t).view.emb (ix2 p q) = ix2 (row3 t p) q := by
  obtain ⟨-, -, -, -, -, -, e0, e1⟩ := index_facts3 t
  funext a; apply Fin.ext
  match a with
  | ⟨0, _⟩ => show win3_3.index t (0 : Fin 2) * 5000 + 1 * p.val = t.val * 5000 + p.val; omega
  | ⟨1, _⟩ => show win3_3.index t (1 : Fin 2) * 256 + 1 * q.val = q.val; omega

/-- Where the first input's block sits in its array: the same rows and columns. -/
theorem emb3_0 (t : Fin cfg3.N) (p : Fin 5000) (q : Fin 256) :
    ((cfg3.win 0).blk t).view.emb (ix2 p q) = ix2 (row3 t p) q := by
  obtain ⟨e0, e1, -⟩ := index_facts3 t
  funext a; apply Fin.ext
  match a with
  | ⟨0, _⟩ => show win3_0.index t (0 : Fin 2) * 5000 + 1 * p.val = t.val * 5000 + p.val; omega
  | ⟨1, _⟩ => show win3_0.index t (1 : Fin 2) * 256 + 1 * q.val = q.val; omega

/-- Where the column's block sits: the same rows, its one column. -/
theorem emb3_1 (t : Fin cfg3.N) (p : Fin 5000) :
    ((cfg3.win 1).blk t).view.emb (ix2 p (0 : Fin 1)) = ix2 (row3 t p) (0 : Fin 1) := by
  obtain ⟨-, -, e0, e1, -⟩ := index_facts3 t
  funext a; apply Fin.ext
  match a with
  | ⟨0, _⟩ => show win3_1.index t (0 : Fin 2) * 5000 + 1 * p.val = t.val * 5000 + p.val; omega
  | ⟨1, _⟩ => show win3_1.index t (1 : Fin 2) * 1 + 1 * 0 = 0; omega

/-- The bias row's block is the whole row at every point. -/
theorem emb3_2 (t : Fin cfg3.N) (q : Fin 256) :
    ((cfg3.win 2).blk t).view.emb (ix2 (0 : Fin 1) q) = ix2 (0 : Fin 1) q := by
  obtain ⟨-, -, -, -, e0, e1, -⟩ := index_facts3 t
  funext a; apply Fin.ext
  match a with
  | ⟨0, _⟩ => show win3_2.index t (0 : Fin 2) * 1 + 1 * 0 = 0; omega
  | ⟨1, _⟩ => show win3_2.index t (1 : Fin 2) * 256 + 1 * q.val = q.val; omega

/-- What point `t` writes back is block `t` of the whole-array function. -/
theorem flushed3_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal)
      (Cert.Gcn.Fn.post (M := 50000) (N := 256) (V c main_v48) (V c main_v13) (V c main_v49)) := by
  show (cfg3.win 3).cut (grid3.coords t) ((dat3 V c).after 3 t) = _
  rw [after3_3]
  unfold out3_3
  rw [View.canon_unit_zero zero_offsets3]
  simp only [View.ld_unit_zero (S := S5000x256) zero_offsets3, View.ld_unit_zero (S := S5000x1) zero_offsets3,
    View.ld_unit_zero (S := S1x256) zero_offsets3]
  funext j
  obtain ⟨p, q, rfl⟩ : ∃ (p : Fin 5000) (q : Fin 256), j = ix2 p q := ⟨j 0, j 1, eq_ix2 j⟩
  refine (pay3_apply (iblk3 V c 0 t) (iblk3 V c 1 t) (iblk3 V c 2 t) p q).trans ?_
  have h0 : iblk3 V c 0 t (ix2 p q) = V c main_v48 (ix2 (row3 t p) q) := congrArg (V c main_v48) (emb3_0 t p q)
  have h1 : iblk3 V c 1 t (ix2 p (0 : Fin 1)) = V c main_v13 (ix2 (row3 t p) (0 : Fin 1)) :=
    congrArg (V c main_v13) (emb3_1 t p)
  have h2 : iblk3 V c 2 t (ix2 (0 : Fin 1) q) = V c main_v49 (ix2 (0 : Fin 1) q) := congrArg (V c main_v49) (emb3_2 t q)
  rw [h0, h1, h2]
  show _ = Cert.Gcn.Fn.post (M := 50000) (N := 256) (V c main_v48) (V c main_v13) (V c main_v49)
    (((cfg3.win 3).blk t).view.emb (ix2 p q))
  rw [emb3_3, Cert.Gcn.Fn.post_apply]

/-- An index of the array is in point `t`'s block iff each coordinate is in the block's range on its axis. -/
theorem mem_blk3 (t : Fin cfg3.N) (i : S50000x256.Idx) :
    i ∈ ((cfg3.win 3).blk t).view.set ↔ ∀ a : Fin 2, win3_3.index t a * S5000x256.size a ≤ (i a).val
      ∧ (i a).val < win3_3.index t a * S5000x256.size a + S5000x256.size a := by
  show i ∈ ((View.whole main_v50).slice (win3_3.rect t)).set ↔ _
  rw [View.set_slice_whole, Rect.mem_set_unit]
  exact Iff.rfl

/-- Every index of the array is in some point's block: row `r` is in the block of point `r / 5000`. -/
theorem cover3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, e0, e1⟩ := index_facts3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 256 ≤ (i 1).val ∧ (i 1).val < win3_3.index t (1 : Fin 2) * 256 + 256
    omega

/-- The array after all ten points: the whole-array function of the arrays found at entry. -/
theorem final3 (V : (c : Dev nD) → (b : Ref sig .tc) → Buf (Elt Ideal) ((c : Thread nD τ).loc b)) (c : Dev nD) :
    (dat3 (F := Ideal) V c).arrAt 3 cfg3.N = Cert.Gcn.Fn.post (M := 50000) (N := 256) (V c main_v48) (V c main_v13) (V c main_v49) :=
  (dat3 V c).arrAt_eq_of_cover 3 (Cert.Gcn.Fn.post (M := 50000) (N := 256) (V c main_v48) (V c main_v13) (V c main_v49))
    (fun t _ => flushed3_eq V c t) cover3

end Cert.KernelIdeal.KRegion
end
-- ==== Proof.KRegion4.lean ====
/-
  The read-out stage, as one function of the arrays it finds.

  The stage has a single step and every block is a whole array. From pooled features `g : [64, 256]`, weights
  `w1 : [256, 256]` with bias row `b1 : [1, 256]`, and weights `w2 : [256, 5]` with bias row `b2 : [1, 5]`, it
  computes `max (g · w1 + b1) 0 · w2 + b2`, each bias row added to every row: the function `Cert.Gcn.Fn.cls`.

  Each of the two products is a matrix product accumulated into zero, so it is the plain rows-times-columns sum
  (`matmulA4`, `matmulB4`, from six facts about each contraction record); with the bias rows read at an entry and
  the zero word read as the extended real `0`, the body's result is `cls` of its loaded blocks (`pay4_eq`). Every
  block being its whole array (`emb4_0` … `emb4_5`), what the one step writes back is `cls` of the arrays found at
  entry (`flushed4_eq`), and since that block covers the output array (`cover4`) the array ends holding it (`final4`).
-/
import proofs.«140251_j35588099015135_2_alg».proof.Proof.Gen.KernelIdeal.Frame
import proofs.«140251_j35588099015135_2_alg».proof.Proof.Fn
import proofs.«140251_j35588099015135_2_alg».proof.Proof.LibMatProd
import Idealize.ShloMosaic.Lib.ValueLayout
import Idealize.ShloMosaic.Lib.Pipeline.Value
import Idealize.ShloMosaic.PureOps.Ideal.Laws

noncomputable section
namespace Cert.KernelIdeal.KRegion
open Cert.KernelIdeal Cert.KernelIdeal.Gen Idealize.ShloMosaic Idealize.ShloMosaic.TcCoe Idealize.SL.Sem
open Idealize.ShloMosaic.Pipeline (Dat)
open Idealize.ShloMosaic.ValueIdx

/-! ## The two contraction records: left rows by right columns, one contracted axis -/

theorem dotA4_l0 (j : S64x256.Idx) (q : dot_S64x256_S256x256_S64x256_1_0_0_1_n_n.contr.Idx) : (dot_S64x256_S256x256_S64x256_1_0_0_1_n_n.lhsIdx j q 0).val = (j 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem dotA4_l1 (j : S64x256.Idx) (q : dot_S64x256_S256x256_S64x256_1_0_0_1_n_n.contr.Idx) : (dot_S64x256_S256x256_S64x256_1_0_0_1_n_n.lhsIdx j q 1).val = (q ⟨0, by decide⟩).val :=
  dot_S64x256_S256x256_S64x256_1_0_0_1_n_n.lhsIdx_val_of_single rfl j q
theorem dotA4_r0 (j : S64x256.Idx) (q : dot_S64x256_S256x256_S64x256_1_0_0_1_n_n.contr.Idx) : (dot_S64x256_S256x256_S64x256_1_0_0_1_n_n.rhsIdx j q 0).val = (q ⟨0, by decide⟩).val :=
  dot_S64x256_S256x256_S64x256_1_0_0_1_n_n.rhsIdx_val_of_single rfl j q
theorem dotA4_r1 (j : S64x256.Idx) (q : dot_S64x256_S256x256_S64x256_1_0_0_1_n_n.contr.Idx) : (dot_S64x256_S256x256_S64x256_1_0_0_1_n_n.rhsIdx j q 1).val = (j 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

theorem dotB4_l0 (j : S64x5.Idx) (q : dot_S64x256_S256x5_S64x5_1_0_0_1_n_n.contr.Idx) : (dot_S64x256_S256x5_S64x5_1_0_0_1_n_n.lhsIdx j q 0).val = (j 0).val := by
  unfold DotDims.lhsIdx
  rw [dif_neg (show ¬(0 : Fin S64x256.rank) ∈ dot_S64x256_S256x5_S64x5_1_0_0_1_n_n.lhsBatch by decide), dif_pos (show (0 : Fin S64x256.rank) ∈ dot_S64x256_S256x5_S64x5_1_0_0_1_n_n.lhsNonContracting by decide)]
  rfl
theorem dotB4_l1 (j : S64x5.Idx) (q : dot_S64x256_S256x5_S64x5_1_0_0_1_n_n.contr.Idx) : (dot_S64x256_S256x5_S64x5_1_0_0_1_n_n.lhsIdx j q 1).val = (q ⟨0, by decide⟩).val :=
  dot_S64x256_S256x5_S64x5_1_0_0_1_n_n.lhsIdx_val_of_single rfl j q
theorem dotB4_r0 (j : S64x5.Idx) (q : dot_S64x256_S256x5_S64x5_1_0_0_1_n_n.contr.Idx) : (dot_S64x256_S256x5_S64x5_1_0_0_1_n_n.rhsIdx j q 0).val = (q ⟨0, by decide⟩).val :=
  dot_S64x256_S256x5_S64x5_1_0_0_1_n_n.rhsIdx_val_of_single rfl j q
theorem dotB4_r1 (j : S64x5.Idx) (q : dot_S64x256_S256x5_S64x5_1_0_0_1_n_n.contr.Idx) : (dot_S64x256_S256x5_S64x5_1_0_0_1_n_n.rhsIdx j q 1).val = (j 1).val := by
  unfold DotDims.rhsIdx
  rw [dif_neg (show ¬(1 : Fin S256x5.rank) ∈ dot_S64x256_S256x5_S64x5_1_0_0_1_n_n.rhsBatch by decide), dif_pos (show (1 : Fin S256x5.rank) ∈ dot_S64x256_S256x5_S64x5_1_0_0_1_n_n.rhsNonContracting by decide)]
  rfl

/-- The first product into the zero accumulator is the plain matrix product. -/
theorem matmulA4 (l : FVec Ideal S64x256 .f32) (r : FVec Ideal S256x256 .f32) (prec : Option ContractPrecision) :
    matmul dot_S64x256_S256x256_S64x256_1_0_0_1_n_n prec l r (constant (F := Ideal) S64x256 .f32 0x00000000#32)
      = Cert.Lib.MatProd.prod (M := 64) (K := 256) (N := 256) l r :=
  Cert.Lib.MatProd.matmul_zero_eq_prod dot_S64x256_S256x256_S64x256_1_0_0_1_n_n rfl rfl dotA4_l0 dotA4_l1 dotA4_r0 dotA4_r1 prec l r

/-- The second product into the zero accumulator is the plain matrix product. -/
theorem matmulB4 (l : FVec Ideal S64x256 .f32) (r : FVec Ideal S256x5 .f32) (prec : Option ContractPrecision) :
    matmul dot_S64x256_S256x5_S64x5_1_0_0_1_n_n prec l r (constant (F := Ideal) S64x5 .f32 0x00000000#32)
      = Cert.Lib.MatProd.prod (M := 64) (K := 256) (N := 5) l r :=
  Cert.Lib.MatProd.matmul_zero_eq_prod dot_S64x256_S256x5_S64x5_1_0_0_1_n_n rfl rfl dotB4_l0 dotB4_l1 dotB4_r0 dotB4_r1 prec l r

/-- The body's payload is the two-layer read-out of its loaded blocks: the first product plus the first bias row,
    clamped below at zero, times the second weights, plus the second bias row. -/
theorem pay4_eq (v0 : Vec Ideal S64x256 .f32) (v2 : Vec Ideal S256x256 .f32) (v4 : Vec Ideal S1x256 .f32)
    (v10 : Vec Ideal S256x5 .f32) (v12 : Vec Ideal S1x5 .f32) :
    k4_pay1 (F := Ideal) v0 v2 v4 v10 v12
      = Cert.Gcn.Fn.cls (M := 64) (K := 256) (H := 256) (N := 5) v0 v2 v4 v10 v12 := by
  funext j
  obtain ⟨p, c, rfl⟩ : ∃ (p : Fin 64) (c : Fin 5), j = ix2 p c := ⟨j 0, j 1, eq_ix2 j⟩
  unfold k4_pay1
  rw [addf_apply, broadcastTo_1b_ab_apply, shapeCast_self, shapeCast_self, shapeCast_self, matmulB4, matmulA4,
    Cert.Gcn.Fn.cls_apply, Cert.Lib.MatProd.prod_apply]
  refine congrArg (· + v12 (ix2 (0 : Fin 1) c)) (Finset.sum_congr rfl fun k _ => ?_)
  rw [maximumf_apply, addf_apply, broadcast_apply, broadcastTo_1b_ab_apply, Cert.Lib.MatProd.prod_apply]
  show max _ (Ideal.ofBits .f32 0x00000000#32) * _ = _
  rw [Ideal.ofBits_zero_f32]

/-- The block's rectangle starts at the origin. -/
theorem zero_offsets4 : (![0, 0] : Fin 2 → Nat) = fun _ => 0 := funext fun a => by fin_cases a <;> rfl

/-- The printed index maps, decided over the one grid point: every window's block is block (0, 0) of its array. -/
theorem index_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Each window's block is its whole array: an entry of the block is the same entry of the array. -/
theorem emb4_0 (t : Fin cfg4.N) (y : S64x256.Idx) : ((cfg4.win 0).blk t).view.emb y = y := by
  have e0 := (index_facts4 t).1
  have e1 := (index_facts4 t).2.1
  funext a; apply Fin.ext
  match a with
  | ⟨0, _⟩ => show win4_0.index t (0 : Fin 2) * 64 + 1 * (y 0).val = (y 0).val; omega
  | ⟨1, _⟩ => show win4_0.index t (1 : Fin 2) * 256 + 1 * (y 1).val = (y 1).val; omega

/-- The first weights' block is the whole array. -/
theorem emb4_1 (t : Fin cfg4.N) (y : S256x256.Idx) : ((cfg4.win 1).blk t).view.emb y = y := by
  have e0 := (index_facts4 t).2.2.1
  have e1 := (index_facts4 t).2.2.2.1
  funext a; apply Fin.ext
  match a with
  | ⟨0, _⟩ => show win4_1.index t (0 : Fin 2) * 256 + 1 * (y 0).val = (y 0).val; omega
  | ⟨1, _⟩ => show win4_1.index t (1 : Fin 2) * 256 + 1 * (y 1).val = (y 1).val; omega

/-- The first bias row's block is the whole row. -/
theorem emb4_2 (t : Fin cfg4.N) (y : S1x256.Idx) : ((cfg4.win 2).blk t).view.emb y = y := by
  have e0 := (index_facts4 t).2.2.2.2.1
  have e1 := (index_facts4 t).2.2.2.2.2.1
  funext a; apply Fin.ext
  match a with
  | ⟨0, _⟩ => show win4_2.index t (0 : Fin 2) * 1 + 1 * (y 0).val = (y 0).val; omega
  | ⟨1, _⟩ => show win4_2.index t (1 : Fin 2) * 256 + 1 * (y 1).val = (y 1).val; omega

/-- The second weights' block is the whole array. -/
theorem emb4_3 (t : Fin cfg4.N) (y : S256x5.Idx) : ((cfg4.win 3).blk t).view.emb y = y := by
  have e0 := (index_facts4 t).2.2.2.2.2.2.1
  have e1 := (index_facts4 t).2.2.2.2.2.2.2.1
  funext a; apply Fin.ext
  match a with
  | ⟨0, _⟩ => show win4_3.index t (0 : Fin 2) * 256 + 1 * (y 0).val = (y 0).val; omega
  | ⟨1, _⟩ => show win4_3.index t (1 : Fin 2) * 5 + 1 * (y 1).val = (y 1).val; omega

/-- The second bias row's block is the whole row. -/
theorem emb4_4 (t : Fin cfg4.N) (y : S1x5.Idx) : ((cfg4.win 4).blk t).view.emb y = y := by
  have e0 := (index_facts4 t).2.2.2.2.2.2.2.2.1
  have e1 := (index_facts4 t).2.2.2.2.2.2.2.2.2.1
  funext a; apply Fin.ext
  match a with
  | ⟨0, _⟩ => show win4_4.index t (0 : Fin 2) * 1 + 1 * (y 0).val = (y 0).val; omega
  | ⟨1, _⟩ => show win4_4.index t (1 : Fin 2) * 5 + 1 * (y 1).val = (y 1).val; omega

/-- The output's block is the whole array. -/
theorem emb4_5 (t : Fin cfg4.N) (y : S64x5.Idx) : ((cfg4.win 5).blk t).view.emb y = y := by
  have e0 := (index_facts4 t).2.2.2.2.2.2.2.2.2.2.1
  have e1 := (index_facts4 t).2.2.2.2.2.2.2.2.2.2.2
  funext a; apply Fin.ext
  match a with
  | ⟨0, _⟩ => show win4_5.index t (0 : Fin 2) * 64 + 1 * (y 0).val = (y 0).val; omega
  | ⟨1, _⟩ => show win4_5.index t (1 : Fin 2) * 5 + 1 * (y 1).val = (y 1).val; omega

/-- What the one point writes back is the (whole) block of the read-out of the arrays found at entry. -/
theorem flushed4_eq (V : (c : Dev nD) → (b : Ref sig .tc) → Buf (Elt Ideal) ((c : Thread nD τ).loc b)) (c : Dev nD) (t : Fin cfg4.N) :
    (dat4 (F := Ideal) V c).flushed 5 t = ((cfg4.win 5).blk t).view.read (Elt Ideal)
      (Cert.Gcn.Fn.cls (M := 64) (K := 256) (H := 256) (N := 5)
      (V c main_v62) (V c main_arg9) (V c main_v63) (V c main_arg11) (V c main_v64)) := by
  show (cfg4.win 5).cut (grid4.coords t) ((dat4 V c).after 5 t) = _
  rw [after4_5]
  unfold out4_5
  rw [View.canon_unit_zero zero_offsets4]
  simp only [View.ld_unit_zero (S := S64x256) zero_offsets4, View.ld_unit_zero (S := S256x256) zero_offsets4,
    View.ld_unit_zero (S := S1x256) zero_offsets4, View.ld_unit_zero (S := S256x5) zero_offsets4,
    View.ld_unit_zero (S := S1x5) zero_offsets4]
  have e0 : iblk4 V c 0 t = V c main_v62 := funext fun y => congrArg (V c main_v62) (emb4_0 t y)
  have e1 : iblk4 V c 1 t = V c main_arg9 := funext fun y => congrArg (V c main_arg9) (emb4_1 t y)
  have e2 : iblk4 V c 2 t = V c main_v63 := funext fun y => congrArg (V c main_v63) (emb4_2 t y)
  have e3 : iblk4 V c 3 t = V c main_arg11 := funext fun y => congrArg (V c main_arg11) (emb4_3 t y)
  have e4 : iblk4 V c 4 t = V c main_v64 := funext fun y => congrArg (V c main_v64) (emb4_4 t y)
  funext j
  refine (congrFun (pay4_eq (iblk4 V c 0 t) (iblk4 V c 1 t) (iblk4 V c 2 t) (iblk4 V c 3 t) (iblk4 V c 4 t)) j).trans ?_
  rw [e0, e1, e2, e3, e4]
  show _ = Cert.Gcn.Fn.cls (M := 64) (K := 256) (H := 256) (N := 5) (V c main_v62) (V c main_arg9) (V c main_v63) (V c main_arg11) (V c main_v64)
    (((cfg4.win 5).blk t).view.emb j)
  rw [emb4_5]

/-- An index of the array is in point `t`'s block iff each coordinate is in the block's range on its axis. -/
theorem mem_blk4 (t : Fin cfg4.N) (i : S64x5.Idx) :
    i ∈ ((cfg4.win 5).blk t).view.set ↔ ∀ a : Fin 2, win4_5.index t a * S64x5.size a ≤ (i a).val
      ∧ (i a).val < win4_5.index t a * S64x5.size a + S64x5.size a := by
  show i ∈ ((View.whole main_v65).slice (win4_5.rect t)).set ↔ _
  rw [View.set_slice_whole, Rect.mem_set_unit]
  exact Iff.rfl

/-- The one point's block is the whole array, so it covers every index. -/
theorem cover4 (i : S64x5.Idx) :
    ∃ t : Fin cfg4.N, (cfg4.win 5).flush t = true ∧ i ∈ ((cfg4.win 5).blk t).view.set := by
  have hi0 : (i 0).val < 64 := (i 0).isLt
  have hi1 : (i 1).val < 5 := (i 1).isLt
  have hN : cfg4.N = 1 := N_4
  obtain ⟨t, -⟩ : ∃ t : Fin cfg4.N, t.val = 0 := ⟨⟨0, by omega⟩, rfl⟩
  have e0 := (index_facts4 t).2.2.2.2.2.2.2.2.2.2.1
  have e1 := (index_facts4 t).2.2.2.2.2.2.2.2.2.2.2
  refine ⟨t, flush4_5 t, ?_⟩
  rw [mem_blk4]
  intro a
  match a with
  | ⟨0, _⟩ =>
    show win4_5.index t (0 : Fin 2) * 64 ≤ (i 0).val ∧ (i 0).val < win4_5.index t (0 : Fin 2) * 64 + 64
    omega
  | ⟨1, _⟩ =>
    show win4_5.index t (1 : Fin 2) * 5 ≤ (i 1).val ∧ (i 1).val < win4_5.index t (1 : Fin 2) * 5 + 5
    omega

/-- The array after the one point: the two-layer read-out of the arrays found at entry. -/
theorem final4 (V : (c : Dev nD) → (b : Ref sig .tc) → Buf (Elt Ideal) ((c : Thread nD τ).loc b)) (c : Dev nD) :
    (dat4 (F := Ideal) V c).arrAt 5 cfg4.N = Cert.Gcn.Fn.cls (M := 64) (K := 256) (H := 256) (N := 5)
      (V c main_v62) (V c main_arg9) (V c main_v63) (V c main_arg11) (V c main_v64) :=
  (dat4 V c).arrAt_eq_of_cover 5 (Cert.Gcn.Fn.cls (M := 64) (K := 256) (H := 256) (N := 5)
      (V c main_v62) (V c main_arg9) (V c main_v63) (V c main_arg11) (V c main_v64))
    (fun t _ => flushed4_eq V c t) cover4

end Cert.KernelIdeal.KRegion
end
-- ==== Proof.KHostFn.lean ====
/-
  The host operations of the kernel's program between its regions, as functions of the arrays they read.

  `srcOf e` and `dstOf e` are the edge list's two rows, each followed by the self-loops 0 … 49999; `dinvCol dst` is the
  column of node scales: the in-degree (ones added at the destination words into zeros) raised to the power -1/2;
  `agg src dst p` gathers the rows of `p` at the source words (a negative word moved up by the number of nodes first)
  and adds them at the destination words into zeros; `pool batch h` adds the rows of `h` at their graph's word into
  zeros and divides each graph's sum by its node count, at least one; `row256` and `row5` lay a bias vector out as one row.
-/
import proofs.«140251_j35588099015135_2_alg».proof.Proof.Gen.KernelIdeal
import Idealize.ShloMosaic.PureOps.Ideal

noncomputable section

namespace Cert.KernelIdeal.KHost

open Cert.KernelIdeal Cert.KernelIdeal.Facts₀ Cert.KernelIdeal.Facts Idealize.ShloMosaic

/-- The sources: row 0 of the edge list, then the self-loops. -/
def srcOf (e : (⟨S2x500000, .i32⟩ : BufTy).Contents (Elt Ideal)) : (⟨S550000, .i32⟩ : BufTy).Contents (Elt Ideal) :=
  concatenate S550000 0
    [⟨S500000, shapeCast S500000 (extractStridedSlice S1x500000 ![0, 0] e slices_S2x500000_S1x500000_0_0) shapeCasts_S1x500000_S500000⟩,
      ⟨S50000, iotaInDim S50000 32 0⟩]
    concatenates_S500000_S50000_S550000_d0

/-- The destinations: row 1 of the edge list, then the self-loops. -/
def dstOf (e : (⟨S2x500000, .i32⟩ : BufTy).Contents (Elt Ideal)) : (⟨S550000, .i32⟩ : BufTy).Contents (Elt Ideal) :=
  concatenate S550000 0
    [⟨S500000, shapeCast S500000 (extractStridedSlice S1x500000 ![1, 0] e slices_S2x500000_S1x500000_1_0) shapeCasts_S1x500000_S500000⟩,
      ⟨S50000, iotaInDim S50000 32 0⟩]
    concatenates_S500000_S50000_S550000_d0

/-- The node scales as a column: the in-degree to the power -1/2. -/
def dinvCol (dst : (⟨S550000, .i32⟩ : BufTy).Contents (Elt Ideal)) : (⟨S50000x1, .f32⟩ : BufTy).Contents (Elt Ideal) :=
  shapeCast S50000x1
    (Host.powf (F := Ideal)
      (Host.scatterAdd (F := Ideal) scatter_S50000_S550000x1_S550000_n_0_0_1
        (broadcastInDim S50000 ![] bcast_S_S50000 (constant (F := Ideal) S_ .f32 0x00000000#32))
        (broadcastInDim S550000x1 ![0] bcast_S550000_S550000x1_0 dst)
        (broadcastInDim S550000 ![] bcast_S_S550000 (constant (F := Ideal) S_ .f32 0x3F800000#32)))
      (broadcastInDim S50000 ![] bcast_S_S50000 (constant (F := Ideal) S_ .f32 0xBF000000#32)))
    shapeCasts_S50000_S50000x1

/-- Rows gathered at the sources and added at the destinations. -/
def agg (src dst : (⟨S550000, .i32⟩ : BufTy).Contents (Elt Ideal)) (p : (⟨S50000x256, .f32⟩ : BufTy).Contents (Elt Ideal)) : (⟨S50000x256, .f32⟩ : BufTy).Contents (Elt Ideal) :=
  Host.scatterAdd (F := Ideal) scatter_S50000x256_S550000x1_S550000x256_1_0_0_1
    (broadcastInDim S50000x256 ![] bcast_S_S50000x256 (constant (F := Ideal) S_ .f32 0x00000000#32))
    (broadcastInDim S550000x1 ![0] bcast_S550000_S550000x1_0 dst)
    (Host.gather gather_S50000x256_S550000x1_S550000x256_1_0_n_n_0_1_1256 p
      (broadcastInDim S550000x1 ![0] bcast_S550000_S550000x1_0
        (select (cmpi .slt src (broadcastInDim S550000 ![] bcast_S_S550000 (constantI S_ 32 0#32)))
          (addi src (broadcastInDim S550000 ![] bcast_S_S550000 (constantI S_ 32 50000#32))) src)))

/-- A bias vector of 256 entries as one row. -/
def row256 (b : (⟨S256, .f32⟩ : BufTy).Contents (Elt Ideal)) : (⟨S1x256, .f32⟩ : BufTy).Contents (Elt Ideal) := shapeCast S1x256 b shapeCasts_S256_S1x256

/-- A bias vector of 5 entries as one row. -/
def row5 (b : (⟨S5, .f32⟩ : BufTy).Contents (Elt Ideal)) : (⟨S1x5, .f32⟩ : BufTy).Contents (Elt Ideal) := shapeCast S1x5 b shapeCasts_S5_S1x5

/-- The mean of the node rows of each graph, the count taken as at least one. -/
def pool (batch : (⟨S50000, .i32⟩ : BufTy).Contents (Elt Ideal)) (h : (⟨S50000x256, .f32⟩ : BufTy).Contents (Elt Ideal)) : (⟨S64x256, .f32⟩ : BufTy).Contents (Elt Ideal) :=
  Host.divf (F := Ideal)
    (Host.scatterAdd (F := Ideal) scatter_S64x256_S50000x1_S50000x256_1_0_0_1
      (broadcastInDim S64x256 ![] bcast_S_S64x256 (constant (F := Ideal) S_ .f32 0x00000000#32))
      (broadcastInDim S50000x1 ![0] bcast_S50000_S50000x1_0 batch) h)
    (broadcastInDim S64x256 ![0, 1] bcast_S64x1_S64x256_0_1
      (broadcastInDim S64x1 ![0] bcast_S64_S64x1_0
        (maximumf
          (Host.scatterAdd (F := Ideal) scatter_S64_S50000x1_S50000_n_0_0_1
            (broadcastInDim S64 ![] bcast_S_S64 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S64 ![] bcast_S_S64 (constant (F := Ideal) S_ .f32 0x3F800000#32)))))

end Cert.KernelIdeal.KHost

end
-- ==== Proof.KStretch.lean ====
/-
  What each stretch of host operations of the kernel's program leaves in the buffers that are read later, from ANY
  contents `W` of the buffers when the stretch starts: a buffer the stretch writes holds the stretch's function of the
  buffers it reads, and a buffer the stretch does not write holds what it held.
-/
import proofs.«140251_j35588099015135_2_alg».proof.Proof.Gen.KernelIdeal.Launch
import proofs.«140251_j35588099015135_2_alg».proof.Proof.KHostFn
import Idealize.ShloMosaic.Lib.StableHlo.Run

noncomputable section

namespace Cert.KernelIdeal.KStretch

open Cert.KernelIdeal Cert.KernelIdeal.Gen Idealize.ShloMosaic Idealize.ShloMosaic.TcCoe Idealize.SL.Sem Idealize.ShloMosaic.StableHlo

variable (W : Valuation τ sig (Elt Ideal))

/-! ## The stretch of host operations before region 0 -/

set_option maxHeartbeats 4000000 in
theorem s0_v5 : StableHlo.after (hostOps0 (F := Ideal)) W (Proc.devRef .tc main_v5) = KHost.srcOf (W (Proc.devRef .tc main_arg1)) := by
  after_results; rfl
set_option maxHeartbeats 4000000 in
theorem s0_v6 : StableHlo.after (hostOps0 (F := Ideal)) W (Proc.devRef .tc main_v6) = KHost.dstOf (W (Proc.devRef .tc main_arg1)) := by
  after_results; rfl
set_option maxHeartbeats 4000000 in
theorem s0_v13 : StableHlo.after (hostOps0 (F := Ideal)) W (Proc.devRef .tc main_v13) = KHost.dinvCol (KHost.dstOf (W (Proc.devRef .tc main_arg1))) := by
  after_results; rfl
theorem s0_arg0 : StableHlo.after (hostOps0 (F := Ideal)) W (Proc.devRef .tc main_arg0) = W (Proc.devRef .tc main_arg0) := by
  after_results <;> rfl
theorem s0_arg2 : StableHlo.after (hostOps0 (F := Ideal)) W (Proc.devRef .tc main_arg2) = W (Proc.devRef .tc main_arg2) := by
  after_results <;> rfl
theorem s0_arg3 : StableHlo.after (hostOps0 (F := Ideal)) W (Proc.devRef .tc main_arg3) = W (Proc.devRef .tc main_arg3) := by
  after_results <;> rfl
theorem s0_arg4 : StableHlo.after (hostOps0 (F := Ideal)) W (Proc.devRef .tc main_arg4) = W (Proc.devRef .tc main_arg4) := by
  after_results <;> rfl
theorem s0_arg5 : StableHlo.after (hostOps0 (F := Ideal)) W (Proc.devRef .tc main_arg5) = W (Proc.devRef .tc main_arg5) := by
  after_results <;> rfl
theorem s0_arg6 : StableHlo.after (hostOps0 (F := Ideal)) W (Proc.devRef .tc main_arg6) = W (Proc.devRef .tc main_arg6) := by
  after_results <;> rfl
theorem s0_arg7 : StableHlo.after (hostOps0 (F := Ideal)) W (Proc.devRef .tc main_arg7) = W (Proc.devRef .tc main_arg7) := by
  after_results <;> rfl
theorem s0_arg8 : StableHlo.after (hostOps0 (F := Ideal)) W (Proc.devRef .tc main_arg8) = W (Proc.devRef .tc main_arg8) := by
  after_results <;> rfl
theorem s0_arg9 : StableHlo.after (hostOps0 (F := Ideal)) W (Proc.devRef .tc main_arg9) = W (Proc.devRef .tc main_arg9) := by
  after_results <;> rfl
theorem s0_arg10 : StableHlo.after (hostOps0 (F := Ideal)) W (Proc.devRef .tc main_arg10) = W (Proc.devRef .tc main_arg10) := by
  after_results <;> rfl
theorem s0_arg11 : StableHlo.after (hostOps0 (F := Ideal)) W (Proc.devRef .tc main_arg11) = W (Proc.devRef .tc main_arg11) := by
  after_results <;> rfl
theorem s0_arg12 : StableHlo.after (hostOps0 (F := Ideal)) W (Proc.devRef .tc main_arg12) = W (Proc.devRef .tc main_arg12) := by
  after_results <;> rfl

/-! ## The stretch of host operations before region 1 -/

set_option maxHeartbeats 4000000 in
theorem s1_v24 : StableHlo.after (hostOps1 (F := Ideal)) W (Proc.devRef .tc main_v24) = KHost.agg (W (Proc.devRef .tc main_v5)) (W (Proc.devRef .tc main_v6)) (W (Proc.devRef .tc main_v14)) := by
  after_results; rfl
set_option maxHeartbeats 4000000 in
theorem s1_v25 : StableHlo.after (hostOps1 (F := Ideal)) W (Proc.devRef .tc main_v25) = KHost.row256 (W (Proc.devRef .tc main_arg4)) := by
  after_results; rfl
theorem s1_v5 : StableHlo.after (hostOps1 (F := Ideal)) W (Proc.devRef .tc main_v5) = W (Proc.devRef .tc main_v5) := by
  after_results <;> rfl
theorem s1_v6 : StableHlo.after (hostOps1 (F := Ideal)) W (Proc.devRef .tc main_v6) = W (Proc.devRef .tc main_v6) := by
  after_results <;> rfl
theorem s1_v13 : StableHlo.after (hostOps1 (F := Ideal)) W (Proc.devRef .tc main_v13) = W (Proc.devRef .tc main_v13) := by
  after_results <;> rfl
theorem s1_arg2 : StableHlo.after (hostOps1 (F := Ideal)) W (Proc.devRef .tc main_arg2) = W (Proc.devRef .tc main_arg2) := by
  after_results <;> rfl
theorem s1_arg5 : StableHlo.after (hostOps1 (F := Ideal)) W (Proc.devRef .tc main_arg5) = W (Proc.devRef .tc main_arg5) := by
  after_results <;> rfl
theorem s1_arg6 : StableHlo.after (hostOps1 (F := Ideal)) W (Proc.devRef .tc main_arg6) = W (Proc.devRef .tc main_arg6) := by
  after_results <;> rfl
theorem s1_arg7 : StableHlo.after (hostOps1 (F := Ideal)) W (Proc.devRef .tc main_arg7) = W (Proc.devRef .tc main_arg7) := by
  after_results <;> rfl
theorem s1_arg8 : StableHlo.after (hostOps1 (F := Ideal)) W (Proc.devRef .tc main_arg8) = W (Proc.devRef .tc main_arg8) := by
  after_results <;> rfl
theorem s1_arg9 : StableHlo.after (hostOps1 (F := Ideal)) W (Proc.devRef .tc main_arg9) = W (Proc.devRef .tc main_arg9) := by
  after_results <;> rfl
theorem s1_arg10 : StableHlo.after (hostOps1 (F := Ideal)) W (Proc.devRef .tc main_arg10) = W (Proc.devRef .tc main_arg10) := by
  after_results <;> rfl
theorem s1_arg11 : StableHlo.after (hostOps1 (F := Ideal)) W (Proc.devRef .tc main_arg11) = W (Proc.devRef .tc main_arg11) := by
  after_results <;> rfl
theorem s1_arg12 : StableHlo.after (hostOps1 (F := Ideal)) W (Proc.devRef .tc main_arg12) = W (Proc.devRef .tc main_arg12) := by
  after_results <;> rfl

/-! ## The stretch of host operations before region 2 -/

set_option maxHeartbeats 4000000 in
theorem s2_v36 : StableHlo.after (hostOps2 (F := Ideal)) W (Proc.devRef .tc main_v36) = KHost.agg (W (Proc.devRef .tc main_v5)) (W (Proc.devRef .tc main_v6)) (W (Proc.devRef .tc main_v26)) := by
  after_results; rfl
set_option maxHeartbeats 4000000 in
theorem s2_v37 : StableHlo.after (hostOps2 (F := Ideal)) W (Proc.devRef .tc main_v37) = KHost.row256 (W (Proc.devRef .tc main_arg6)) := by
  after_results; rfl
theorem s2_v5 : StableHlo.after (hostOps2 (F := Ideal)) W (Proc.devRef .tc main_v5) = W (Proc.devRef .tc main_v5) := by
  after_results <;> rfl
theorem s2_v6 : StableHlo.after (hostOps2 (F := Ideal)) W (Proc.devRef .tc main_v6) = W (Proc.devRef .tc main_v6) := by
  after_results <;> rfl
theorem s2_v13 : StableHlo.after (hostOps2 (F := Ideal)) W (Proc.devRef .tc main_v13) = W (Proc.devRef .tc main_v13) := by
  after_results <;> rfl
theorem s2_arg2 : StableHlo.after (hostOps2 (F := Ideal)) W (Proc.devRef .tc main_arg2) = W (Proc.devRef .tc main_arg2) := by
  after_results <;> rfl
theorem s2_arg7 : StableHlo.after (hostOps2 (F := Ideal)) W (Proc.devRef .tc main_arg7) = W (Proc.devRef .tc main_arg7) := by
  after_results <;> rfl
theorem s2_arg8 : StableHlo.after (hostOps2 (F := Ideal)) W (Proc.devRef .tc main_arg8) = W (Proc.devRef .tc main_arg8) := by
  after_results <;> rfl
theorem s2_arg9 : StableHlo.after (hostOps2 (F := Ideal)) W (Proc.devRef .tc main_arg9) = W (Proc.devRef .tc main_arg9) := by
  after_results <;> rfl
theorem s2_arg10 : StableHlo.after (hostOps2 (F := Ideal)) W (Proc.devRef .tc main_arg10) = W (Proc.devRef .tc main_arg10) := by
  after_results <;> rfl
theorem s2_arg11 : StableHlo.after (hostOps2 (F := Ideal)) W (Proc.devRef .tc main_arg11) = W (Proc.devRef .tc main_arg11) := by
  after_results <;> rfl
theorem s2_arg12 : StableHlo.after (hostOps2 (F := Ideal)) W (Proc.devRef .tc main_arg12) = W (Proc.devRef .tc main_arg12) := by
  after_results <;> rfl

/-! ## The stretch of host operations before region 3 -/

set_option maxHeartbeats 4000000 in
theorem s3_v48 : StableHlo.after (hostOps3 (F := Ideal)) W (Proc.devRef .tc main_v48) = KHost.agg (W (Proc.devRef .tc main_v5)) (W (Proc.devRef .tc main_v6)) (W (Proc.devRef .tc main_v38)) := by
  after_results; rfl
set_option maxHeartbeats 4000000 in
theorem s3_v49 : StableHlo.after (hostOps3 (F := Ideal)) W (Proc.devRef .tc main_v49) = KHost.row256 (W (Proc.devRef .tc main_arg8)) := by
  after_results; rfl
theorem s3_v13 : StableHlo.after (hostOps3 (F := Ideal)) W (Proc.devRef .tc main_v13) = W (Proc.devRef .tc main_v13) := by
  after_results <;> rfl
theorem s3_arg2 : StableHlo.after (hostOps3 (F := Ideal)) W (Proc.devRef .tc main_arg2) = W (Proc.devRef .tc main_arg2) := by
  after_results <;> rfl
theorem s3_arg9 : StableHlo.after (hostOps3 (F := Ideal)) W (Proc.devRef .tc main_arg9) = W (Proc.devRef .tc main_arg9) := by
  after_results <;> rfl
theorem s3_arg10 : StableHlo.after (hostOps3 (F := Ideal)) W (Proc.devRef .tc main_arg10) = W (Proc.devRef .tc main_arg10) := by
  after_results <;> rfl
theorem s3_arg11 : StableHlo.after (hostOps3 (F := Ideal)) W (Proc.devRef .tc main_arg11) = W (Proc.devRef .tc main_arg11) := by
  after_results <;> rfl
theorem s3_arg12 : StableHlo.after (hostOps3 (F := Ideal)) W (Proc.devRef .tc main_arg12) = W (Proc.devRef .tc main_arg12) := by
  after_results <;> rfl

/-! ## The stretch of host operations before region 4 -/

set_option maxHeartbeats 4000000 in
theorem s4_v62 : StableHlo.after (hostOps4 (F := Ideal)) W (Proc.devRef .tc main_v62) = KHost.pool (W (Proc.devRef .tc main_arg2)) (W (Proc.devRef .tc main_v50)) := by
  after_results; rfl
set_option maxHeartbeats 4000000 in
theorem s4_v63 : StableHlo.after (hostOps4 (F := Ideal)) W (Proc.devRef .tc main_v63) = KHost.row256 (W (Proc.devRef .tc main_arg10)) := by
  after_results; rfl
set_option maxHeartbeats 4000000 in
theorem s4_v64 : StableHlo.after (hostOps4 (F := Ideal)) W (Proc.devRef .tc main_v64) = KHost.row5 (W (Proc.devRef .tc main_arg12)) := by
  after_results; rfl
theorem s4_arg9 : StableHlo.after (hostOps4 (F := Ideal)) W (Proc.devRef .tc main_arg9) = W (Proc.devRef .tc main_arg9) := by
  after_results <;> rfl
theorem s4_arg11 : StableHlo.after (hostOps4 (F := Ideal)) W (Proc.devRef .tc main_arg11) = W (Proc.devRef .tc main_arg11) := by
  after_results <;> rfl

end Cert.KernelIdeal.KStretch

end
-- ==== Proof.KVal.lean ====
/-
  The stages of the idealized kernel's computation as functions of its argument arrays.

  Three layers, each `post (agg (pre …))`: the layer's input times its weights with every node's row scaled by the node's
  scale (`pre`), the rows gathered along the edges and added at their destinations (`agg`), then scaled by the node's
  scale again, biased and rectified (`post`); then each graph's mean node feature and the two-layer read-out.
-/
import proofs.«140251_j35588099015135_2_alg».proof.Proof.KHostFn
import proofs.«140251_j35588099015135_2_alg».proof.Proof.Fn

noncomputable section

namespace Cert.KernelIdeal.KVal

open Cert.KernelIdeal Idealize.ShloMosaic

/-- The node scales as a column. -/
def dc (x1 : (⟨S2x500000, .i32⟩ : BufTy).Contents (Elt Ideal)) : (⟨S50000x1, .f32⟩ : BufTy).Contents (Elt Ideal) :=
  KHost.dinvCol (KHost.dstOf x1)

/-- Layer 0 before its neighbourhood sum: the features times the weights, each node's row scaled. -/
def p0 (x0 : (⟨S50000x128, .f32⟩ : BufTy).Contents (Elt Ideal)) (x1 : (⟨S2x500000, .i32⟩ : BufTy).Contents (Elt Ideal)) (x3 : (⟨S128x256, .f32⟩ : BufTy).Contents (Elt Ideal)) : (⟨S50000x256, .f32⟩ : BufTy).Contents (Elt Ideal) :=
  Cert.Gcn.Fn.pre (M := 50000) (K := 128) (N := 256) x0 x3 (dc x1)

/-- Layer 0's neighbourhood sums. -/
def a0 (x0 : (⟨S50000x128, .f32⟩ : BufTy).Contents (Elt Ideal)) (x1 : (⟨S2x500000, .i32⟩ : BufTy).Contents (Elt Ideal)) (x3 : (⟨S128x256, .f32⟩ : BufTy).Contents (Elt Ideal)) : (⟨S50000x256, .f32⟩ : BufTy).Contents (Elt Ideal) :=
  KHost.agg (KHost.srcOf x1) (KHost.dstOf x1) (p0 x0 x1 x3)

/-- Layer 1 before its sum: layer 0's output (scaled sums plus bias, rectified) times the weights, rows scaled. -/
def p1 (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) : (⟨S50000x256, .f32⟩ : BufTy).Contents (Elt Ideal) :=
  Cert.Gcn.Fn.pre (M := 50000) (K := 256) (N := 256) (Cert.Gcn.Fn.post (M := 50000) (N := 256) (a0 x0 x1 x3) (dc x1) (KHost.row256 x4)) x5 (dc x1)

/-- Layer 1's neighbourhood sums. -/
def a1 (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) : (⟨S50000x256, .f32⟩ : BufTy).Contents (Elt Ideal) :=
  KHost.agg (KHost.srcOf x1) (KHost.dstOf x1) (p1 x0 x1 x3 x4 x5)

/-- Layer 2 before its sum. -/
def p2 (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) : (⟨S50000x256, .f32⟩ : BufTy).Contents (Elt Ideal) :=
  Cert.Gcn.Fn.pre (M := 50000) (K := 256) (N := 256) (Cert.Gcn.Fn.post (M := 50000) (N := 256) (a1 x0 x1 x3 x4 x5) (dc x1) (KHost.row256 x6)) x7 (dc x1)

/-- Layer 2's neighbourhood sums. -/
def a2 (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) : (⟨S50000x256, .f32⟩ : BufTy).Contents (Elt Ideal) :=
  KHost.agg (KHost.srcOf x1) (KHost.dstOf x1) (p2 x0 x1 x3 x4 x5 x6 x7)

/-- The node features after the three layers. -/
def hk (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) : (⟨S50000x256, .f32⟩ : BufTy).Contents (Elt Ideal) :=
  Cert.Gcn.Fn.post (M := 50000) (N := 256) (a2 x0 x1 x3 x4 x5 x6 x7) (dc x1) (KHost.row256 x8)

/-- Each graph's mean node feature. -/
def gk (x0 : (⟨S50000x128, .f32⟩ : BufTy).Contents (Elt Ideal)) (x1 : (⟨S2x500000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) : (⟨S64x256, .f32⟩ : BufTy).Contents (Elt Ideal) :=
  KHost.pool x2 (hk x0 x1 x3 x4 x5 x6 x7 x8)

/-- The program's result: the read-out of the graph means. -/
def kval (x0 : (⟨S50000x128, .f32⟩ : BufTy).Contents (Elt Ideal)) (x1 : (⟨S2x500000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x5, .f32⟩ : BufTy).Contents (Elt Ideal)) (x12 : (⟨S5, .f32⟩ : BufTy).Contents (Elt Ideal)) : (⟨S64x5, .f32⟩ : BufTy).Contents (Elt Ideal) :=
  Cert.Gcn.Fn.cls (M := 64) (K := 256) (H := 256) (N := 5) (gk x0 x1 x2 x3 x4 x5 x6 x7 x8) x9 (KHost.row256 x10) x11 (KHost.row5 x12)

end Cert.KernelIdeal.KVal

end
-- ==== Proof.KChain.lean ====
/-
  The idealized kernel's result as one function of its arguments.

  The program is ten segments: a stretch of host operations, then a region, five times. The buffer contents at the ten
  boundaries are a fold from the launch memory `m`; read at the buffers that are still to be read, each boundary holds
  a fixed function of the argument arrays: a stretch writes its operations' functions of what it reads and leaves the
  rest, a region replaces its output array by its closed form of the arrays it reads and leaves every other buffer
  (its input arrays are read through windows, the rest bypassed). Walking the ten boundaries, the result buffer ends at
  `kval` of the arguments: three layers `post (agg (pre …))` — each layer's product with the weights scaled by the node
  scales before the neighbourhood sum, scaled again, biased and rectified after it — then the graph means and the read-out.
-/
import proofs.«140251_j35588099015135_2_alg».proof.Proof.Gen.KernelIdeal.Frame
import proofs.«140251_j35588099015135_2_alg».proof.Proof.KRegion0
import proofs.«140251_j35588099015135_2_alg».proof.Proof.KRegion1
import proofs.«140251_j35588099015135_2_alg».proof.Proof.KRegion2
import proofs.«140251_j35588099015135_2_alg».proof.Proof.KRegion3
import proofs.«140251_j35588099015135_2_alg».proof.Proof.KRegion4
import proofs.«140251_j35588099015135_2_alg».proof.Proof.KStretch
import proofs.«140251_j35588099015135_2_alg».proof.Proof.KVal

noncomputable section

namespace Cert.KernelIdeal.KChain

open Cert.KernelIdeal Cert.KernelIdeal.Gen Cert.KernelIdeal.KVal Idealize.ShloMosaic Idealize.ShloMosaic.TcCoe Idealize.SL.Sem
open Idealize.ShloMosaic.Pipeline (Dat)

/-! ## The boundaries -/

variable (m : (ℓ : Loc nD τ sig) → Buf (Elt Ideal) ℓ) (ρ : Dev nD → PrngReg) (c : Dev nD)

/-! ### Boundary 1 -/

theorem W1_v5 : W1 m ρ c (Proc.devRef .tc main_v5) = KHost.srcOf (m ((c : Thread nD τ).loc main_arg1)) :=
  KStretch.s0_v5 (W0 m ρ c)
theorem W1_v6 : W1 m ρ c (Proc.devRef .tc main_v6) = KHost.dstOf (m ((c : Thread nD τ).loc main_arg1)) :=
  KStretch.s0_v6 (W0 m ρ c)
theorem W1_v13 : W1 m ρ c (Proc.devRef .tc main_v13) = dc (m ((c : Thread nD τ).loc main_arg1)) :=
  KStretch.s0_v13 (W0 m ρ c)
theorem W1_arg0 : W1 m ρ c (Proc.devRef .tc main_arg0) = (m ((c : Thread nD τ).loc main_arg0)) :=
  KStretch.s0_arg0 (W0 m ρ c)
theorem W1_arg2 : W1 m ρ c (Proc.devRef .tc main_arg2) = (m ((c : Thread nD τ).loc main_arg2)) :=
  KStretch.s0_arg2 (W0 m ρ c)
theorem W1_arg3 : W1 m ρ c (Proc.devRef .tc main_arg3) = (m ((c : Thread nD τ).loc main_arg3)) :=
  KStretch.s0_arg3 (W0 m ρ c)
theorem W1_arg4 : W1 m ρ c (Proc.devRef .tc main_arg4) = (m ((c : Thread nD τ).loc main_arg4)) :=
  KStretch.s0_arg4 (W0 m ρ c)
theorem W1_arg5 : W1 m ρ c (Proc.devRef .tc main_arg5) = (m ((c : Thread nD τ).loc main_arg5)) :=
  KStretch.s0_arg5 (W0 m ρ c)
theorem W1_arg6 : W1 m ρ c (Proc.devRef .tc main_arg6) = (m ((c : Thread nD τ).loc main_arg6)) :=
  KStretch.s0_arg6 (W0 m ρ c)
theorem W1_arg7 : W1 m ρ c (Proc.devRef .tc main_arg7) = (m ((c : Thread nD τ).loc main_arg7)) :=
  KStretch.s0_arg7 (W0 m ρ c)
theorem W1_arg8 : W1 m ρ c (Proc.devRef .tc main_arg8) = (m ((c : Thread nD τ).loc main_arg8)) :=
  KStretch.s0_arg8 (W0 m ρ c)
theorem W1_arg9 : W1 m ρ c (Proc.devRef .tc main_arg9) = (m ((c : Thread nD τ).loc main_arg9)) :=
  KStretch.s0_arg9 (W0 m ρ c)
theorem W1_arg10 : W1 m ρ c (Proc.devRef .tc main_arg10) = (m ((c : Thread nD τ).loc main_arg10)) :=
  KStretch.s0_arg10 (W0 m ρ c)
theorem W1_arg11 : W1 m ρ c (Proc.devRef .tc main_arg11) = (m ((c : Thread nD τ).loc main_arg11)) :=
  KStretch.s0_arg11 (W0 m ρ c)
theorem W1_arg12 : W1 m ρ c (Proc.devRef .tc main_arg12) = (m ((c : Thread nD τ).loc main_arg12)) :=
  KStretch.s0_arg12 (W0 m ρ c)

/-! ### Boundary 2 -/

theorem W2_v14 : W2 m ρ c (Proc.devRef .tc main_v14) = p0 (m ((c : Thread nD τ).loc main_arg0)) (m ((c : Thread nD τ).loc main_arg1)) (m ((c : Thread nD τ).loc main_arg3)) :=
  (W2_arr m ρ c 3).trans ((KRegion.final0 (V1 m ρ) c).trans (by
    rw [show V1 m ρ c main_arg0 = _ from W1_arg0 m ρ c,
      show V1 m ρ c main_arg3 = _ from W1_arg3 m ρ c,
      show V1 m ρ c main_v13 = _ from W1_v13 m ρ c] <;> rfl))
theorem W2_v5 : W2 m ρ c (Proc.devRef .tc main_v5) = KHost.srcOf (m ((c : Thread nD τ).loc main_arg1)) :=
  (W2_of_ne m ρ c main_v5 (by decide)).trans (W1_v5 m ρ c)
theorem W2_v6 : W2 m ρ c (Proc.devRef .tc main_v6) = KHost.dstOf (m ((c : Thread nD τ).loc main_arg1)) :=
  (W2_of_ne m ρ c main_v6 (by decide)).trans (W1_v6 m ρ c)
theorem W2_v13 : W2 m ρ c (Proc.devRef .tc main_v13) = dc (m ((c : Thread nD τ).loc main_arg1)) :=
  ((W2_arr m ρ c 2).trans (((dat0 (V1 m ρ) c).arrAt_in 2 rfl _).trans (A_eq0 (V1 m ρ) c 2))).trans (W1_v13 m ρ c)
theorem W2_arg2 : W2 m ρ c (Proc.devRef .tc main_arg2) = (m ((c : Thread nD τ).loc main_arg2)) :=
  (W2_of_ne m ρ c main_arg2 (by decide)).trans (W1_arg2 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)

/-! ### Boundary 3 -/

theorem W3_v24 : W3 m ρ c (Proc.devRef .tc main_v24) = a0 (m ((c : Thread nD τ).loc main_arg0)) (m ((c : Thread nD τ).loc main_arg1)) (m ((c : Thread nD τ).loc main_arg3)) :=
  (KStretch.s1_v24 (W2 m ρ c)).trans (by rw [W2_v5 m ρ c, W2_v6 m ρ c, W2_v14 m ρ c] <;> rfl)
theorem W3_v25 : W3 m ρ c (Proc.devRef .tc main_v25) = KHost.row256 (m ((c : Thread nD τ).loc main_arg4)) :=
  (KStretch.s1_v25 (W2 m ρ c)).trans (by rw [W2_arg4 m ρ c] <;> rfl)
theorem W3_v5 : W3 m ρ c (Proc.devRef .tc main_v5) = KHost.srcOf (m ((c : Thread nD τ).loc main_arg1)) :=
  (KStretch.s1_v5 (W2 m ρ c)).trans (W2_v5 m ρ c)
theorem W3_v6 : W3 m ρ c (Proc.devRef .tc main_v6) = KHost.dstOf (m ((c : Thread nD τ).loc main_arg1)) :=
  (KStretch.s1_v6 (W2 m ρ c)).trans (W2_v6 m ρ c)
theorem W3_v13 : W3 m ρ c (Proc.devRef .tc main_v13) = dc (m ((c : Thread nD τ).loc main_arg1)) :=
  (KStretch.s1_v13 (W2 m ρ c)).trans (W2_v13 m ρ c)
theorem W3_arg2 : W3 m ρ c (Proc.devRef .tc main_arg2) = (m ((c : Thread nD τ).loc main_arg2)) :=
  (KStretch.s1_arg2 (W2 m ρ c)).trans (W2_arg2 m ρ c)
theorem W3_arg5 : W3 m ρ c (Proc.devRef .tc main_arg5) = (m ((c : Thread nD τ).loc main_arg5)) :=
  (KStretch.s1_arg5 (W2 m ρ c)).trans (W2_arg5 m ρ c)
theorem W3_arg6 : W3 m ρ c (Proc.devRef .tc main_arg6) = (m ((c : Thread nD τ).loc main_arg6)) :=
  (KStretch.s1_arg6 (W2 m ρ c)).trans (W2_arg6 m ρ c)
theorem W3_arg7 : W3 m ρ c (Proc.devRef .tc main_arg7) = (m ((c : Thread nD τ).loc main_arg7)) :=
  (KStretch.s1_arg7 (W2 m ρ c)).trans (W2_arg7 m ρ c)
theorem W3_arg8 : W3 m ρ c (Proc.devRef .tc main_arg8) = (m ((c : Thread nD τ).loc main_arg8)) :=
  (KStretch.s1_arg8 (W2 m ρ c)).trans (W2_arg8 m ρ c)
theorem W3_arg9 : W3 m ρ c (Proc.devRef .tc main_arg9) = (m ((c : Thread nD τ).loc main_arg9)) :=
  (KStretch.s1_arg9 (W2 m ρ c)).trans (W2_arg9 m ρ c)
theorem W3_arg10 : W3 m ρ c (Proc.devRef .tc main_arg10) = (m ((c : Thread nD τ).loc main_arg10)) :=
  (KStretch.s1_arg10 (W2 m ρ c)).trans (W2_arg10 m ρ c)
theorem W3_arg11 : W3 m ρ c (Proc.devRef .tc main_arg11) = (m ((c : Thread nD τ).loc main_arg11)) :=
  (KStretch.s1_arg11 (W2 m ρ c)).trans (W2_arg11 m ρ c)
theorem W3_arg12 : W3 m ρ c (Proc.devRef .tc main_arg12) = (m ((c : Thread nD τ).loc main_arg12)) :=
  (KStretch.s1_arg12 (W2 m ρ c)).trans (W2_arg12 m ρ c)

/-! ### Boundary 4 -/

theorem W4_v26 : W4 m ρ c (Proc.devRef .tc main_v26) = p1 (m ((c : Thread nD τ).loc main_arg0)) (m ((c : Thread nD τ).loc main_arg1)) (m ((c : Thread nD τ).loc main_arg3)) (m ((c : Thread nD τ).loc main_arg4)) (m ((c : Thread nD τ).loc main_arg5)) :=
  (W4_arr m ρ c 4).trans ((KRegion.final1 (V3 m ρ) c).trans (by
    rw [show V3 m ρ c main_v24 = _ from W3_v24 m ρ c,
      show V3 m ρ c main_v13 = _ from W3_v13 m ρ c,
      show V3 m ρ c main_v25 = _ from W3_v25 m ρ c,
      show V3 m ρ c main_arg5 = _ from W3_arg5 m ρ c] <;> rfl))
theorem W4_v5 : W4 m ρ c (Proc.devRef .tc main_v5) = KHost.srcOf (m ((c : Thread nD τ).loc main_arg1)) :=
  (W4_of_ne m ρ c main_v5 (by decide)).trans (W3_v5 m ρ c)
theorem W4_v6 : W4 m ρ c (Proc.devRef .tc main_v6) = KHost.dstOf (m ((c : Thread nD τ).loc main_arg1)) :=
  (W4_of_ne m ρ c main_v6 (by decide)).trans (W3_v6 m ρ c)
theorem W4_v13 : W4 m ρ c (Proc.devRef .tc main_v13) = dc (m ((c : Thread nD τ).loc main_arg1)) :=
  ((W4_arr m ρ c 1).trans (((dat1 (V3 m ρ) c).arrAt_in 1 rfl _).trans (A_eq1 (V3 m ρ) c 1))).trans (W3_v13 m ρ c)
theorem W4_arg2 : W4 m ρ c (Proc.devRef .tc main_arg2) = (m ((c : Thread nD τ).loc main_arg2)) :=
  (W4_of_ne m ρ c main_arg2 (by decide)).trans (W3_arg2 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)

/-! ### Boundary 5 -/

theorem W5_v36 : W5 m ρ c (Proc.devRef .tc main_v36) = a1 (m ((c : Thread nD τ).loc main_arg0)) (m ((c : Thread nD τ).loc main_arg1)) (m ((c : Thread nD τ).loc main_arg3)) (m ((c : Thread nD τ).loc main_arg4)) (m ((c : Thread nD τ).loc main_arg5)) :=
  (KStretch.s2_v36 (W4 m ρ c)).trans (by rw [W4_v5 m ρ c, W4_v6 m ρ c, W4_v26 m ρ c] <;> rfl)
theorem W5_v37 : W5 m ρ c (Proc.devRef .tc main_v37) = KHost.row256 (m ((c : Thread nD τ).loc main_arg6)) :=
  (KStretch.s2_v37 (W4 m ρ c)).trans (by rw [W4_arg6 m ρ c] <;> rfl)
theorem W5_v5 : W5 m ρ c (Proc.devRef .tc main_v5) = KHost.srcOf (m ((c : Thread nD τ).loc main_arg1)) :=
  (KStretch.s2_v5 (W4 m ρ c)).trans (W4_v5 m ρ c)
theorem W5_v6 : W5 m ρ c (Proc.devRef .tc main_v6) = KHost.dstOf (m ((c : Thread nD τ).loc main_arg1)) :=
  (KStretch.s2_v6 (W4 m ρ c)).trans (W4_v6 m ρ c)
theorem W5_v13 : W5 m ρ c (Proc.devRef .tc main_v13) = dc (m ((c : Thread nD τ).loc main_arg1)) :=
  (KStretch.s2_v13 (W4 m ρ c)).trans (W4_v13 m ρ c)
theorem W5_arg2 : W5 m ρ c (Proc.devRef .tc main_arg2) = (m ((c : Thread nD τ).loc main_arg2)) :=
  (KStretch.s2_arg2 (W4 m ρ c)).trans (W4_arg2 m ρ c)
theorem W5_arg7 : W5 m ρ c (Proc.devRef .tc main_arg7) = (m ((c : Thread nD τ).loc main_arg7)) :=
  (KStretch.s2_arg7 (W4 m ρ c)).trans (W4_arg7 m ρ c)
theorem W5_arg8 : W5 m ρ c (Proc.devRef .tc main_arg8) = (m ((c : Thread nD τ).loc main_arg8)) :=
  (KStretch.s2_arg8 (W4 m ρ c)).trans (W4_arg8 m ρ c)
theorem W5_arg9 : W5 m ρ c (Proc.devRef .tc main_arg9) = (m ((c : Thread nD τ).loc main_arg9)) :=
  (KStretch.s2_arg9 (W4 m ρ c)).trans (W4_arg9 m ρ c)
theorem W5_arg10 : W5 m ρ c (Proc.devRef .tc main_arg10) = (m ((c : Thread nD τ).loc main_arg10)) :=
  (KStretch.s2_arg10 (W4 m ρ c)).trans (W4_arg10 m ρ c)
theorem W5_arg11 : W5 m ρ c (Proc.devRef .tc main_arg11) = (m ((c : Thread nD τ).loc main_arg11)) :=
  (KStretch.s2_arg11 (W4 m ρ c)).trans (W4_arg11 m ρ c)
theorem W5_arg12 : W5 m ρ c (Proc.devRef .tc main_arg12) = (m ((c : Thread nD τ).loc main_arg12)) :=
  (KStretch.s2_arg12 (W4 m ρ c)).trans (W4_arg12 m ρ c)

/-! ### Boundary 6 -/

theorem W6_v38 : W6 m ρ c (Proc.devRef .tc main_v38) = p2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 4).trans ((KRegion.final2 (V5 m ρ) c).trans (by
    rw [show V5 m ρ c main_v36 = _ from W5_v36 m ρ c,
      show V5 m ρ c main_v13 = _ from W5_v13 m ρ c,
      show V5 m ρ c main_v37 = _ from W5_v37 m ρ c,
      show V5 m ρ c main_arg7 = _ from W5_arg7 m ρ c] <;> rfl))
theorem W6_v5 : W6 m ρ c (Proc.devRef .tc main_v5) = KHost.srcOf (m ((c : Thread nD τ).loc main_arg1)) :=
  (W6_of_ne m ρ c main_v5 (by decide)).trans (W5_v5 m ρ c)
theorem W6_v6 : W6 m ρ c (Proc.devRef .tc main_v6) = KHost.dstOf (m ((c : Thread nD τ).loc main_arg1)) :=
  (W6_of_ne m ρ c main_v6 (by decide)).trans (W5_v6 m ρ c)
theorem W6_v13 : W6 m ρ c (Proc.devRef .tc main_v13) = dc (m ((c : Thread nD τ).loc main_arg1)) :=
  ((W6_arr m ρ c 1).trans (((dat2 (V5 m ρ) c).arrAt_in 1 rfl _).trans (A_eq2 (V5 m ρ) c 1))).trans (W5_v13 m ρ c)
theorem W6_arg2 : W6 m ρ c (Proc.devRef .tc main_arg2) = (m ((c : Thread nD τ).loc main_arg2)) :=
  (W6_of_ne m ρ c main_arg2 (by decide)).trans (W5_arg2 m ρ c)
theorem W6_arg8 : W6 m ρ c (Proc.devRef .tc main_arg8) = (m ((c : Thread nD τ).loc main_arg8)) :=
  (W6_of_ne m ρ c main_arg8 (by decide)).trans (W5_arg8 m ρ c)
theorem W6_arg9 : W6 m ρ c (Proc.devRef .tc main_arg9) = (m ((c : Thread nD τ).loc main_arg9)) :=
  (W6_of_ne m ρ c main_arg9 (by decide)).trans (W5_arg9 m ρ c)
theorem W6_arg10 : W6 m ρ c (Proc.devRef .tc main_arg10) = (m ((c : Thread nD τ).loc main_arg10)) :=
  (W6_of_ne m ρ c main_arg10 (by decide)).trans (W5_arg10 m ρ c)
theorem W6_arg11 : W6 m ρ c (Proc.devRef .tc main_arg11) = (m ((c : Thread nD τ).loc main_arg11)) :=
  (W6_of_ne m ρ c main_arg11 (by decide)).trans (W5_arg11 m ρ c)
theorem W6_arg12 : W6 m ρ c (Proc.devRef .tc main_arg12) = (m ((c : Thread nD τ).loc main_arg12)) :=
  (W6_of_ne m ρ c main_arg12 (by decide)).trans (W5_arg12 m ρ c)

/-! ### Boundary 7 -/

theorem W7_v48 : W7 m ρ c (Proc.devRef .tc main_v48) = a2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (KStretch.s3_v48 (W6 m ρ c)).trans (by rw [W6_v5 m ρ c, W6_v6 m ρ c, W6_v38 m ρ c] <;> rfl)
theorem W7_v49 : W7 m ρ c (Proc.devRef .tc main_v49) = KHost.row256 (m ((c : Thread nD τ).loc main_arg8)) :=
  (KStretch.s3_v49 (W6 m ρ c)).trans (by rw [W6_arg8 m ρ c] <;> rfl)
theorem W7_v13 : W7 m ρ c (Proc.devRef .tc main_v13) = dc (m ((c : Thread nD τ).loc main_arg1)) :=
  (KStretch.s3_v13 (W6 m ρ c)).trans (W6_v13 m ρ c)
theorem W7_arg2 : W7 m ρ c (Proc.devRef .tc main_arg2) = (m ((c : Thread nD τ).loc main_arg2)) :=
  (KStretch.s3_arg2 (W6 m ρ c)).trans (W6_arg2 m ρ c)
theorem W7_arg9 : W7 m ρ c (Proc.devRef .tc main_arg9) = (m ((c : Thread nD τ).loc main_arg9)) :=
  (KStretch.s3_arg9 (W6 m ρ c)).trans (W6_arg9 m ρ c)
theorem W7_arg10 : W7 m ρ c (Proc.devRef .tc main_arg10) = (m ((c : Thread nD τ).loc main_arg10)) :=
  (KStretch.s3_arg10 (W6 m ρ c)).trans (W6_arg10 m ρ c)
theorem W7_arg11 : W7 m ρ c (Proc.devRef .tc main_arg11) = (m ((c : Thread nD τ).loc main_arg11)) :=
  (KStretch.s3_arg11 (W6 m ρ c)).trans (W6_arg11 m ρ c)
theorem W7_arg12 : W7 m ρ c (Proc.devRef .tc main_arg12) = (m ((c : Thread nD τ).loc main_arg12)) :=
  (KStretch.s3_arg12 (W6 m ρ c)).trans (W6_arg12 m ρ c)

/-! ### Boundary 8 -/

theorem W8_v50 : W8 m ρ c (Proc.devRef .tc main_v50) = hk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 3).trans ((KRegion.final3 (V7 m ρ) c).trans (by
    rw [show V7 m ρ c main_v48 = _ from W7_v48 m ρ c,
      show V7 m ρ c main_v13 = _ from W7_v13 m ρ c,
      show V7 m ρ c main_v49 = _ from W7_v49 m ρ c] <;> rfl))
theorem W8_arg2 : W8 m ρ c (Proc.devRef .tc main_arg2) = (m ((c : Thread nD τ).loc main_arg2)) :=
  (W8_of_ne m ρ c main_arg2 (by decide)).trans (W7_arg2 m ρ c)
theorem W8_arg9 : W8 m ρ c (Proc.devRef .tc main_arg9) = (m ((c : Thread nD τ).loc main_arg9)) :=
  (W8_of_ne m ρ c main_arg9 (by decide)).trans (W7_arg9 m ρ c)
theorem W8_arg10 : W8 m ρ c (Proc.devRef .tc main_arg10) = (m ((c : Thread nD τ).loc main_arg10)) :=
  (W8_of_ne m ρ c main_arg10 (by decide)).trans (W7_arg10 m ρ c)
theorem W8_arg11 : W8 m ρ c (Proc.devRef .tc main_arg11) = (m ((c : Thread nD τ).loc main_arg11)) :=
  (W8_of_ne m ρ c main_arg11 (by decide)).trans (W7_arg11 m ρ c)
theorem W8_arg12 : W8 m ρ c (Proc.devRef .tc main_arg12) = (m ((c : Thread nD τ).loc main_arg12)) :=
  (W8_of_ne m ρ c main_arg12 (by decide)).trans (W7_arg12 m ρ c)

/-! ### Boundary 9 -/

theorem W9_v62 : W9 m ρ c (Proc.devRef .tc main_v62) = gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (KStretch.s4_v62 (W8 m ρ c)).trans (by rw [W8_arg2 m ρ c, W8_v50 m ρ c] <;> rfl)
theorem W9_v63 : W9 m ρ c (Proc.devRef .tc main_v63) = KHost.row256 (m ((c : Thread nD τ).loc main_arg10)) :=
  (KStretch.s4_v63 (W8 m ρ c)).trans (by rw [W8_arg10 m ρ c] <;> rfl)
theorem W9_v64 : W9 m ρ c (Proc.devRef .tc main_v64) = KHost.row5 (m ((c : Thread nD τ).loc main_arg12)) :=
  (KStretch.s4_v64 (W8 m ρ c)).trans (by rw [W8_arg12 m ρ c] <;> rfl)
theorem W9_arg9 : W9 m ρ c (Proc.devRef .tc main_arg9) = (m ((c : Thread nD τ).loc main_arg9)) :=
  (KStretch.s4_arg9 (W8 m ρ c)).trans (W8_arg9 m ρ c)
theorem W9_arg11 : W9 m ρ c (Proc.devRef .tc main_arg11) = (m ((c : Thread nD τ).loc main_arg11)) :=
  (KStretch.s4_arg11 (W8 m ρ c)).trans (W8_arg11 m ρ c)

/-! ### Boundary 10 -/

theorem W10_v65 : W10 m ρ c (Proc.devRef .tc main_v65) = kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W10_arr m ρ c 5).trans ((KRegion.final4 (V9 m ρ) c).trans (by
    rw [show V9 m ρ c main_v62 = _ from W9_v62 m ρ c,
      show V9 m ρ c main_arg9 = _ from W9_arg9 m ρ c,
      show V9 m ρ c main_v63 = _ from W9_v63 m ρ c,
      show V9 m ρ c main_arg11 = _ from W9_arg11 m ρ c,
      show V9 m ρ c main_v64 = _ from W9_v64 m ρ c] <;> rfl))

end Cert.KernelIdeal.KChain

end
-- ==== Proof.RFn.lean ====
/-
  The reference program's result, cut into its layers.

  `layer h e b` is what the reference makes of a layer's product `h` (features times weights): the rows of `h` gathered
  at the source words, each scaled by the product of the two node scales gathered at the edge's source and destination
  words, added at the destination words into zeros, the bias added to every row, rectified. `tail h …` is what it makes
  of the last layer's node features: the graph means and the two-layer read-out. The program's three layers are
  `layer` of the products, and its result is `tail` of the third.
-/
import proofs.«140251_j35588099015135_2_alg».proof.Proof.Gen.ReferenceIdeal.Read

noncomputable section

namespace Cert.ReferenceIdeal.RFn

open Cert.ReferenceIdeal Cert.ReferenceIdeal.Facts₀ Cert.ReferenceIdeal.Facts Cert.ReferenceIdeal.Read Idealize.ShloMosaic

/-- One layer of the reference, from the layer's product. -/
def layer (h : (⟨S50000x256, .f32⟩ : BufTy).Contents (Elt Ideal)) (e : (⟨S2x500000, .i32⟩ : BufTy).Contents (Elt Ideal)) (b : (⟨S256, .f32⟩ : BufTy).Contents (Elt Ideal)) : (⟨S50000x256, .f32⟩ : BufTy).Contents (Elt Ideal) :=
  maximumf (φ := .f32)
    (addf (φ := .f32)
      (Host.scatterAdd (F := Ideal) (φ := .f32) scatter_S50000x256_S550000x1_S550000x256_1_0_0_1 (val_main_v39 (F := Ideal)) (val_main_v40 (F := Ideal) e)
        (mulf (φ := .f32) (Host.gather (α := Ideal .f32) gather_S50000x256_S550000x1_S550000x256_1_0_n_n_0_1_1256 h (val_main_v34 (F := Ideal) e)) (val_main_v37 (F := Ideal) e)))
      (val_main_v43 (F := Ideal) b))
    (val_main_call0_v0 (F := Ideal))

/-- The graph means and the read-out, from the node features. -/
def tail (h : (⟨S50000x256, .f32⟩ : BufTy).Contents (Elt Ideal)) (x2 : (⟨S50000, .i32⟩ : BufTy).Contents (Elt Ideal)) (x9 : (⟨S256x256, .f32⟩ : BufTy).Contents (Elt Ideal)) (x10 : (⟨S256, .f32⟩ : BufTy).Contents (Elt Ideal)) (x11 : (⟨S256x5, .f32⟩ : BufTy).Contents (Elt Ideal)) (x12 : (⟨S5, .f32⟩ : BufTy).Contents (Elt Ideal)) : (⟨S64x5, .f32⟩ : BufTy).Contents (Elt Ideal) :=
  addf (φ := .f32)
    (Host.dotGeneral (F := Ideal) (φ₁ := .f32) (φ₂ := .f32) dot_S64x256_S256x5_S64x5_1_0_0_1_n_n none
      (maximumf (φ := .f32)
        (addf (φ := .f32)
          (Host.dotGeneral (F := Ideal) (φ₁ := .f32) (φ₂ := .f32) dot_S64x256_S256x256_S64x256_1_0_0_1_n_n none
            (Host.divf (F := Ideal) (φ := .f32)
              (Host.scatterAdd (F := Ideal) (φ := .f32) scatter_S64x256_S50000x1_S50000x256_1_0_0_1 (val_main_v124 (F := Ideal)) (val_main_v125 (F := Ideal) x2) h)
              (val_main_v134 (F := Ideal) x2))
            x9)
          (val_main_v138 (F := Ideal) x10))
        (val_main_call3_v0 (F := Ideal)))
      x11)
    (val_main_v143 (F := Ideal) x12)

theorem v45_eq (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) :
    val_main_v45 (F := Ideal) x0 x1 x3 x4 = layer (val_main_v7 (F := Ideal) x0 x3) x1 x4 := rfl

theorem v84_eq (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v84 (F := Ideal) x0 x1 x3 x4 x5 x6 = layer (val_main_v46 (F := Ideal) x0 x1 x3 x4 x5) x1 x6 := rfl

theorem v123_eq (x0 : (⟨S50000x128, .f32⟩ : BufTy).Contents (Elt Ideal)) (x1 : (⟨S2x500000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    val_main_v123 (F := Ideal) x0 x1 x3 x4 x5 x6 x7 x8 = layer (val_main_v85 (F := Ideal) x0 x1 x3 x4 x5 x6 x7) x1 x8 := rfl

theorem v144_eq (x0 : (⟨S50000x128, .f32⟩ : BufTy).Contents (Elt Ideal)) (x1 : (⟨S2x500000, .i32⟩ : BufTy).Contents (Elt Ideal)) (x2 : (⟨S50000, .i32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x5, .f32⟩ : BufTy).Contents (Elt Ideal)) (x12 : (⟨S5, .f32⟩ : BufTy).Contents (Elt Ideal)) :
    val_main_v144 (F := Ideal) x0 x1 x2 x3 x4 x5 x6 x7 x8 x9 x10 x11 x12
      = tail (val_main_v123 (F := Ideal) x0 x1 x3 x4 x5 x6 x7 x8) x2 x9 x10 x11 x12 := rfl

end Cert.ReferenceIdeal.RFn

end
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.LibVecGather.lean ====
/-
  One entry of a vector gathered per start word.

  `v[idx]` for a vector `v : [N]` and one start word per result entry (`idx : [E, 1]`, the shape jax gives the
  indices of a plain `v[i]`) is a gather with the one axis collapsed and no offset axes: entry `e` of the result is
  the vector at `e`'s start word read as a signed integer and clamped into `0 … N − 1` — the same row function
  `rowOf` as a gather of whole rows of a table takes (`Cert.Lib.RowGatherScatter`), so that a per-node quantity and a
  per-node row gathered at the same words are read at the same node. The dimension numbers enter as hypotheses on
  the record's fields; over any element type and any extents. Imports the Idealize library and that file.
-/
import Idealize.ShloMosaic.PureOps.Ideal
import Idealize.ShloMosaic.Lib.ValueIdx
import proofs.«140251_j35588099015135_2_alg».proof.Proof.LibRowGatherScatter

noncomputable section

namespace Cert.Lib.VecGather

open Idealize.ShloMosaic Idealize.ShloMosaic.ValueIdx
open Cert.Lib.RowGatherScatter (startAt rowOf)

/-- `v[idx]` for a vector `v : [N]` and one start word per result entry (`idx : [E, 1]`): entry `e` is the vector
    at `e`'s start word read signed and clamped into `0 … N − 1`. -/
theorem gather_vec_apply {α : Type} {N E : ℕ} (g : GatherDims ⟨1, ![N]⟩ ⟨2, ![E, 1]⟩ ⟨1, ![E]⟩) (hN : 0 < N)
    (ho : g.offsetDims = []) (hc : g.collapsedSliceDims = [0]) (hob : g.operandBatchingDims = [])
    (hsb : g.startIndicesBatchingDims = []) (hm : g.startIndexMap = [0]) (hv : g.indexVectorDim = 1)
    (hs : g.sliceSizes = ![1]) {w : ℕ} (x : (⟨1, ![N]⟩ : Shape).Idx → α) (idx : IVec ⟨2, ![E, 1]⟩ w) (e : Fin E) :
    Host.gather g x idx (ix1 e) = x (ix1 (rowOf hN idx e)) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl

end Cert.Lib.VecGather

end
-- ==== Proof.LibColBroadcast.lean ====
/-
  A vector spread over the columns of a matrix, as jax prints `v[:, None]` meeting an `[a, b]` array.

  The host places a vector `[a]` as the one column of `[a, 1]` and repeats that column over `b` columns (two
  `broadcast_in_dim`s). Read at `(r, c)` the result is the vector at `r`, whatever the column. A scalar spread over
  a whole array reads the scalar at every index. Imports only the Idealize library.
-/
import Idealize.ShloMosaic.Lib.Pipeline.Value
import Idealize.ShloMosaic.Lib.ValueIdx

noncomputable section

namespace Cert.Lib.ColBroadcast

open Idealize.ShloMosaic Idealize.ShloMosaic.ValueIdx

/-- A vector `[a]` placed as the one column of `[a, 1]` and that column repeated over `b` columns reads, at
    `(r, c)`, the vector at `r` (for `a ≠ 1`: the library's lemma asks whether the axis is a unit one). -/
theorem col_apply {α : Type} {a b : ℕ} (ha : a ≠ 1) (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (c : Fin b) :
    broadcastInDim ⟨2, ![a, b]⟩ ![0, 1] h2 (broadcastInDim ⟨2, ![a, 1]⟩ ![0] h1 x) (ix2 r c) = x (ix1 r) :=
  (broadcastInDim_apply ![0, 1] h2 _ (ix2 r c) (ix2 r (⟨0, Nat.one_pos⟩ : Fin 1)) (fun d => match d with
      | ⟨0, _⟩ => by show r.val = if a = 1 then 0 else r.val; rw [if_neg ha]
      | ⟨1, _⟩ => by show (0 : ℕ) = if (1 : ℕ) = 1 then 0 else c.val; rw [if_pos rfl])).trans
    (broadcastInDim_apply ![0] h1 x (ix2 r (⟨0, Nat.one_pos⟩ : Fin 1)) (ix1 r) (fun d => match d with
      | ⟨0, _⟩ => by show r.val = if a = 1 then 0 else r.val; rw [if_neg ha]))

/-- A scalar spread over an array reads the scalar at every index. -/
theorem scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun d => d.elim0)

end Cert.Lib.ColBroadcast

end
-- ==== Proof.LibInvSqrtGuard.lean ====
/-
  Cert.Lib.InvSqrtGuard — the inverse square root of a degree, with its guard, two ways.

  A normalized graph convolution scales by d ↦ d^(-1/2) of a row sum d, and protects the value against d = 0.
  One spelling raises d to the power -1/2 and replaces an infinite result by 0; another takes 1 / sqrt d where
  0 < d and 0 elsewhere. On the extended reals, at a REAL d, the two agree everywhere, including at d ≤ 0:
  the real power d^(-1/2) is 1 / sqrt d for 0 < d, is 0 at d = 0 (the convention 0^y = 0 for y ≠ 0), and is
  exp(-(1/2) log d) · cos(-(π/2)) = 0 for d < 0; it is never infinite, so the guard of the first spelling never
  fires, and the guard of the second picks exactly the branch where the power is not 0 by convention.

  * rpow_neg_half      : d^(-(1/2)) = if 0 < d then 1 / sqrt d else 0 over the reals
  * pow_neg_half_coe   : the same for the extended reals' power at real arguments
  * one_div_sqrt_coe   : for 0 < d, the extended reals' quotient of 1 by their square root of d is the real 1 / sqrt d
  * abs_coe_ne_top     : a real number's magnitude is not +∞ (the "is infinite" test fails on it)
  * the float words 0xBF000000, 0x3F000000, 0x3F800000 denote -1/2, 1/2 and 1.

  Imports only the Idealize library (PureOps/Ideal) and Mathlib.
-/
import Idealize.ShloMosaic.PureOps.Ideal
import Idealize.ShloMosaic.PureOps.Ideal.Laws
import Mathlib.Analysis.SpecialFunctions.Pow.Real
import Mathlib.Analysis.SpecialFunctions.Trigonometric.Basic

noncomputable section

namespace Cert.Lib.InvSqrtGuard

open Idealize.ShloMosaic

/-- Over the reals, d^(-1/2) is 1 / sqrt d where 0 < d and 0 elsewhere: at 0 by the convention 0^y = 0 (y ≠ 0),
    below 0 because the real power of a negative base carries the factor cos(y π), and cos(-(π/2)) = 0. -/
theorem rpow_neg_half (d : ℝ) : d ^ (-(1 / 2) : ℝ) = if 0 < d then 1 / Real.sqrt d else 0 := by
  rcases lt_trichotomy d 0 with h | h | h
  · rw [if_neg (not_lt.2 h.le), Real.rpow_def_of_neg h]
    have : Real.cos (-(1 / 2) * Real.pi) = 0 := by
      rw [show -(1 / 2) * Real.pi = -(Real.pi / 2) by ring, Real.cos_neg, Real.cos_pi_div_two]
    rw [this, mul_zero]
  · subst h
    rw [if_neg (lt_irrefl _), Real.zero_rpow (by norm_num)]
  · rw [if_pos h, Real.rpow_neg h.le, Real.sqrt_eq_rpow]
    exact (one_div _).symm

/-- The extended reals' power at a real base and the exponent -1/2 is that real number. -/
theorem pow_neg_half_coe (d : ℝ) :
    Ideal.pow (d : EReal) ((-(1 / 2) : ℝ) : EReal) = ((if 0 < d then 1 / Real.sqrt d else 0 : ℝ) : EReal) := by
  rw [Ideal.pow_coe_coe]
  exact congrArg _ (rpow_neg_half d)

/-- For 0 < d the quotient of 1 by the square root of d, both taken on the extended reals, is the real 1 / sqrt d. -/
theorem one_div_sqrt_coe {d : ℝ} (h : 0 < d) :
    Ideal.div 1 (Ideal.sqrt (d : EReal)) = ((1 / Real.sqrt d : ℝ) : EReal) := by
  rw [Ideal.sqrt_coe, if_neg (not_lt.2 h.le), Ideal.div_coe (ne_of_gt (Real.sqrt_pos.2 h)), one_mul]

/-- A real number's magnitude is not +∞. -/
theorem abs_coe_ne_top (r : ℝ) : ((|r| : ℝ) : EReal) ≠ ⊤ := EReal.coe_ne_top _

/-- The float word 0xBF000000 denotes -1/2. -/
theorem ofBits_neg_half : Ideal.ofBits .f32 0xBF000000#32 = ((-(1 / 2) : ℝ) : EReal) := by
  simp [Ideal.ofBits, Ideal.ieee]
  rw [← EReal.coe_mul]
  norm_num

/-- The float word 0x3F000000 denotes 1/2. -/
theorem ofBits_half : Ideal.ofBits .f32 0x3F000000#32 = (((1 / 2) : ℝ) : EReal) := by
  simp [Ideal.ofBits, Ideal.ieee]
  rw [← EReal.coe_mul]
  norm_num

/-- The float word 0x3F800000 denotes 1. -/
theorem ofBits_one : Ideal.ofBits .f32 0x3F800000#32 = 1 := by
  simp [Ideal.ofBits, Ideal.ieee]
  rw [← EReal.coe_mul, show (8388608 : ℝ) * ((2 : ℝ) ^ 23)⁻¹ = 1 by norm_num]
  rfl

end Cert.Lib.InvSqrtGuard

end
-- ==== Proof.LibTileSum.lean ====
/-
  Sums cut into equal tiles, and a nonnegative real factor moved across a finite sum of extended reals.

  * `sum_mul_coe`: on the extended reals a finite sum times a nonnegative REAL is the sum of the products. (Multiplying by
    such a factor is additive even where the summands are infinite of both signs: `(⊤ + ⊥) * c = ⊥ = ⊤ * c + ⊥ * c`.)
  * `sum_tiles`: a sequence of length `N` laid out in `T` tiles of `B` places each (`N ≤ T * B`), the places past `N`
    reading zero, sums tile by tile to the plain sum of the sequence — in any additive commutative monoid.
  * `pow_two_coe`: the real power with exponent `2` of a real base is the product of the base with itself.
-/
import Idealize.ShloMosaic.PureOps.Ideal
import Mathlib.Algebra.BigOperators.Fin
import Mathlib.Logic.Equiv.Fin.Basic

noncomputable section

namespace Cert.Lib.TileSum

open Idealize.ShloMosaic

/-- A finite sum of extended reals times a nonnegative real is the sum of the products. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The places of a tiled sequence past its length read zero, so the tiles' sums add up to the sequence's sum. -/
theorem sum_tiles {M : Type*} [AddCommMonoid M] (T B N : ℕ) (hN : N ≤ T * B) (g : ℕ → M) :
    ∑ t : Fin T, ∑ r : Fin B, (if t.val * B + r.val < N then g (t.val * B + r.val) else 0)
      = ∑ n : Fin N, g n.val := by
  have h1 : ∑ t : Fin T, ∑ r : Fin B, (if t.val * B + r.val < N then g (t.val * B + r.val) else 0)
      = ∑ p : Fin T × Fin B, (fun n : Fin (T * B) => if n.val < N then g n.val else 0) (finProdFinEquiv p) := by
    rw [Fintype.sum_prod_type]
    refine Finset.sum_congr rfl fun t _ => Finset.sum_congr rfl fun r _ => ?_
    have e : (finProdFinEquiv (t, r)).val = t.val * B + r.val := by
      show r.val + B * t.val = _
      rw [Nat.mul_comm, Nat.add_comm]
    simp only [e]
  rw [h1, Equiv.sum_comp finProdFinEquiv (fun n : Fin (T * B) => if n.val < N then g n.val else 0),
    Fin.sum_univ_eq_sum_range (fun n => if n < N then g n else 0) (T * B),
    Fin.sum_univ_eq_sum_range (fun n => g n) N, ← Finset.sum_filter]
  refine Finset.sum_congr ?_ fun _ _ => rfl
  ext n
  simp only [Finset.mem_filter, Finset.mem_range]
  omega

/-- The real power of a real base with exponent `2`, read on the extended reals, is the base times itself. -/
theorem pow_two_coe (y : ℝ) : Ideal.pow (y : EReal) ((2 : ℝ) : EReal) = (y : EReal) * (y : EReal) := by
  rw [Ideal.pow_coe_coe, ← EReal.coe_mul]
  congr 1
  show y ^ (2 : ℝ) = y * y
  rw [Real.rpow_two, sq]

end Cert.Lib.TileSum

end
-- ==== Proof.Law.lean ====
/-
  The symmetric normalization of a graph convolution, moved across the neighbourhood sum.

  A layer that scales every source row by `ds`, sums the rows arriving at a node, and then scales the node's sum by a
  NON-NEGATIVE REAL `r` computes the same as a layer that scales each arriving row by `ds · dd` before the sum, when
  `dd` is `r` on the rows that arrive at that node: on the extended reals multiplication by a non-negative real
  distributes over any finite sum, infinities of both signs included, and the product is associative. So nothing is
  asked of the rows themselves.

  The scale of a node is its in-degree raised to the power -1/2. The in-degree is a finite sum of ones and zeros, a
  non-negative real, and a real raised to -1/2 is a non-negative real on the extended reals (1 / sqrt d for d > 0 and 0
  otherwise).
-/
import proofs.«140251_j35588099015135_2_alg».proof.Proof.LibTileSum
import proofs.«140251_j35588099015135_2_alg».proof.Proof.LibInvSqrtGuard

noncomputable section

open scoped BigOperators

namespace Cert.Gcn.Law

open Idealize.ShloMosaic

/-- Scaling after the sum by a non-negative real is scaling each arriving term, the second factor being that real on
    the terms that arrive. -/
theorem norm_law {E : Type*} [Fintype E] (p : E → Prop) [DecidablePred p] (a ds dd : E → EReal) (r : ℝ) (hr : 0 ≤ r)
    (hdd : ∀ e, p e → dd e = (r : EReal)) :
    (0 + ∑ e, if p e then a e * ds e else 0) * (r : EReal) = 0 + ∑ e, if p e then a e * (ds e * dd e) else 0 := by
  rw [zero_add, zero_add, Cert.Lib.TileSum.sum_mul_coe _ _ r hr]
  refine Finset.sum_congr rfl fun e _ => ?_
  by_cases h : p e
  · rw [if_pos h, if_pos h, hdd e h, mul_assoc]
  · rw [if_neg h, if_neg h, zero_mul]

/-- A finite sum of ones and zeros is a non-negative real. -/
theorem count_real {E : Type*} (s : Finset E) (p : E → Prop) [DecidablePred p] :
    ∃ k : ℝ, 0 ≤ k ∧ ∑ e ∈ s, (if p e then (1 : EReal) else 0) = (k : EReal) := by
  classical
  induction s using Finset.induction_on with
  | empty => exact ⟨0, le_rfl, by simp⟩
  | insert a s ha ih =>
    obtain ⟨k, hk, e⟩ := ih
    rw [Finset.sum_insert ha, e]
    by_cases h : p a
    · refine ⟨1 + k, by positivity, ?_⟩
      rw [if_pos h, EReal.coe_add, EReal.coe_one]
    · exact ⟨k, hk, by rw [if_neg h, zero_add]⟩

/-- Zero plus a finite sum of ones and zeros, raised to the power -1/2, is a non-negative real. -/
theorem inv_sqrt_count {E : Type*} [Fintype E] (p : E → Prop) [DecidablePred p] :
    ∃ r : ℝ, 0 ≤ r ∧
      Ideal.pow (0 + ∑ e, (if p e then (1 : EReal) else 0)) ((-(1 / 2) : ℝ) : EReal) = (r : EReal) := by
  obtain ⟨k, -, e⟩ := count_real Finset.univ p
  rw [zero_add, e, Cert.Lib.InvSqrtGuard.pow_neg_half_coe]
  refine ⟨_, ?_, rfl⟩
  split_ifs
  · positivity
  · exact le_rfl

end Cert.Gcn.Law

end
-- ==== Proof.AggRead.lean ====
/-
  The two neighbourhood sums of a graph convolution, read at a node and a column.

  Both programs add, at every node, the rows that arrive along its incoming edges. One gathers rows that were scaled
  beforehand and adds them as they are; the other gathers the unscaled rows, multiplies each arriving row by the
  product of the two end nodes' scales (a vector of edge weights spread over the columns), and adds those. Read at
  node `n` and column `c`, each is the initial entry plus a sum over ALL edges of the edge's term when the edge's
  destination word is `n` and of `0` otherwise; the row an edge reads is its source word clamped into the table.
  Every extent is a variable.
-/
import Idealize.ShloMosaic.PureOps.Ideal
import Idealize.ShloMosaic.PureOps.Ideal.Laws
import Idealize.ShloMosaic.Lib.ValueIdx
import Idealize.ShloMosaic.Lib.Pipeline.Value
import proofs.«140251_j35588099015135_2_alg».proof.Proof.LibRowGatherScatter
import proofs.«140251_j35588099015135_2_alg».proof.Proof.LibVecGather
import proofs.«140251_j35588099015135_2_alg».proof.Proof.LibColBroadcast
import proofs.«140251_j35588099015135_2_alg».proof.Proof.LibInvSqrtGuard
import proofs.«140251_j35588099015135_2_alg».proof.Proof.Law

noncomputable section

open scoped BigOperators

namespace Cert.Gcn.AggRead

open Idealize.ShloMosaic Idealize.ShloMosaic.ValueIdx
open Cert.Lib.RowGatherScatter (startAt rowOf)

variable {N E C : ℕ}

/-- The sum of pre-scaled rows at `(n, c)`: the initial entry plus, over every edge whose destination word is `n`,
    the table's entry in column `c` of the row the edge's source word names. -/
theorem agg_apply (g : GatherDims ⟨2, ![N, C]⟩ ⟨2, ![E, 1]⟩ ⟨2, ![E, C]⟩) (hN : 0 < N)
    (ho : g.offsetDims = [1]) (hc : g.collapsedSliceDims = [0]) (hob : g.operandBatchingDims = [])
    (hsb : g.startIndicesBatchingDims = []) (hm : g.startIndexMap = [0]) (hv : g.indexVectorDim = 1)
    (hs : g.sliceSizes = ![1, C])
    (s : ScatterDims ⟨2, ![N, C]⟩ ⟨2, ![E, 1]⟩ ⟨2, ![E, C]⟩)
    (h1 : s.updateWindowDims = [1]) (h2 : s.insertedWindowDims = [0])
    (h3 : s.scatterDimsToOperandDims = [0]) (h4 : s.indexVectorDim = 1)
    (z p : FVec Ideal ⟨2, ![N, C]⟩ .f32) (srcW dstB : IVec ⟨2, ![E, 1]⟩ 32) (n : Fin N) (c : Fin C) :
    Host.scatterAdd (F := Ideal) s z dstB (Host.gather g p srcW) (ix2 n c)
      = z (ix2 n c) + ∑ e : Fin E,
          if (dstB (startAt e)).toInt = (n.val : ℤ) then p (ix2 (rowOf hN srcW e) c) else 0 := by
  show Ideal.hostScatterAdd s z dstB (Host.gather g p srcW) (ix2 n c) = _
  rw [Cert.Lib.RowGatherScatter.hostScatterAdd_rows_apply s h1 h2 h3 h4]
  simp only [Cert.Lib.RowGatherScatter.gather_rows_apply g hN ho hc hob hsb hm hv hs]

/-- A vector placed as the one column of `[E, 1]` reads, at row `e`, the vector at `e`. -/
theorem bcast_col_apply {α : Type} (hE : E ≠ 1) (x : (⟨1, ![E]⟩ : Shape).Idx → α)
    (hb : (⟨1, ![E]⟩ : Shape).BroadcastsInDim ⟨2, ![E, 1]⟩ ![0]) (e : Fin E) :
    broadcastInDim ⟨2, ![E, 1]⟩ ![0] hb x (startAt e) = x (ix1 e) :=
  broadcastInDim_apply ![0] hb x (startAt e) (ix1 e) (fun d => match d with
    | ⟨0, _⟩ => by show e.val = if E = 1 then 0 else e.val; rw [if_neg hE])

/-- The row a start word names, as a number: the word read signed, clamped into `0 … N − 1`. -/
theorem rowOf_val (hN : 0 < N) {w : ℕ} (idx : IVec ⟨2, ![E, 1]⟩ w) (e : Fin E) :
    (rowOf hN idx e).val = min (idx (startAt e)).toInt.toNat (N - 1) := rfl

/-- The wrapped destination word of an edge arriving at node `n` names `n`: the word, read signed, is `n ≥ 0`, so the
    test "is negative" fails and the word is kept, whatever would have been added; clamped into `0 … N − 1` it is
    still `n`. -/
theorem rowOf_wrapped_of_arrives (hN : 0 < N) (hE : E ≠ 1) (dst : IVec ⟨1, ![E]⟩ 32) (k : BitVec 32)
    (hb : (⟨1, ![E]⟩ : Shape).BroadcastsInDim ⟨2, ![E, 1]⟩ ![0])
    (hs0 : (⟨0, ![]⟩ : Shape).BroadcastsInDim ⟨1, ![E]⟩ ![]) (e : Fin E) (n : Fin N)
    (h : (broadcastInDim ⟨2, ![E, 1]⟩ ![0] hb dst (startAt e)).toInt = (n.val : ℤ)) :
    rowOf hN (broadcastInDim ⟨2, ![E, 1]⟩ ![0] hb
      (select (cmpi .slt dst (broadcastInDim ⟨1, ![E]⟩ ![] hs0 (constantI ⟨0, ![]⟩ 32 0#32)))
        (addi dst (broadcastInDim ⟨1, ![E]⟩ ![] hs0 (constantI ⟨0, ![]⟩ 32 k))) dst)) e = n := by
  rw [bcast_col_apply hE] at h
  have hlt : (dst (ix1 e)).slt 0#32 = false := by
    simp only [BitVec.slt, BitVec.toInt_zero, decide_eq_false_iff_not, Int.not_lt]
    rw [h]; omega
  have hsel : select (cmpi .slt dst (broadcastInDim ⟨1, ![E]⟩ ![] hs0 (constantI ⟨0, ![]⟩ 32 0#32)))
      (addi dst (broadcastInDim ⟨1, ![E]⟩ ![] hs0 (constantI ⟨0, ![]⟩ 32 k))) dst (ix1 e) = dst (ix1 e) := by
    show (if BitVec.ofBool ((dst (ix1 e)).slt 0#32) = 1 then _ else _) = _
    rw [hlt]
    rfl
  refine Fin.ext ?_
  rw [rowOf_val, bcast_col_apply hE, hsel, h]
  have := n.isLt
  omega

/-- The sum of rows scaled as they arrive at `(n, c)`: the initial entry plus, over every edge whose destination word
    is `n`, the source row's entry in column `c` times the product of the scales of the edge's two end nodes. -/
theorem ref_agg_apply (g : GatherDims ⟨2, ![N, C]⟩ ⟨2, ![E, 1]⟩ ⟨2, ![E, C]⟩) (hN : 0 < N)
    (ho : g.offsetDims = [1]) (hc : g.collapsedSliceDims = [0]) (hob : g.operandBatchingDims = [])
    (hsb : g.startIndicesBatchingDims = []) (hm : g.startIndexMap = [0]) (hv : g.indexVectorDim = 1)
    (hs : g.sliceSizes = ![1, C])
    (s : ScatterDims ⟨2, ![N, C]⟩ ⟨2, ![E, 1]⟩ ⟨2, ![E, C]⟩)
    (h1 : s.updateWindowDims = [1]) (h2 : s.insertedWindowDims = [0])
    (h3 : s.scatterDimsToOperandDims = [0]) (h4 : s.indexVectorDim = 1)
    (gv : GatherDims ⟨1, ![N]⟩ ⟨2, ![E, 1]⟩ ⟨1, ![E]⟩)
    (vo : gv.offsetDims = []) (vc : gv.collapsedSliceDims = [0]) (vob : gv.operandBatchingDims = [])
    (vsb : gv.startIndicesBatchingDims = []) (vm : gv.startIndexMap = [0]) (vv : gv.indexVectorDim = 1)
    (vs : gv.sliceSizes = ![1])
    (hb1 : (⟨1, ![E]⟩ : Shape).BroadcastsInDim ⟨2, ![E, 1]⟩ ![0])
    (hb2 : (⟨2, ![E, 1]⟩ : Shape).BroadcastsInDim ⟨2, ![E, C]⟩ ![0, 1]) (hE : E ≠ 1)
    (z h : FVec Ideal ⟨2, ![N, C]⟩ .f32) (dv : FVec Ideal ⟨1, ![N]⟩ .f32)
    (srcW dstW dstB : IVec ⟨2, ![E, 1]⟩ 32) (n : Fin N) (c : Fin C) :
    Host.scatterAdd (F := Ideal) s z dstB
        (mulf (F := Ideal) (φ := .f32) (Host.gather g h srcW)
          (broadcastInDim ⟨2, ![E, C]⟩ ![0, 1] hb2 (broadcastInDim ⟨2, ![E, 1]⟩ ![0] hb1
            (mulf (F := Ideal) (φ := .f32) (Host.gather gv dv srcW) (Host.gather gv dv dstW))))) (ix2 n c)
      = z (ix2 n c) + ∑ e : Fin E,
          if (dstB (startAt e)).toInt = (n.val : ℤ)
            then h (ix2 (rowOf hN srcW e) c) * (dv (ix1 (rowOf hN srcW e)) * dv (ix1 (rowOf hN dstW e))) else 0 := by
  show Ideal.hostScatterAdd s z dstB _ (ix2 n c) = _
  rw [Cert.Lib.RowGatherScatter.hostScatterAdd_rows_apply s h1 h2 h3 h4]
  congr 1
  refine Finset.sum_congr rfl fun e _ => ?_
  rw [mulf_apply, Cert.Lib.RowGatherScatter.gather_rows_apply g hN ho hc hob hsb hm hv hs,
    Cert.Lib.ColBroadcast.col_apply hE _ hb1 hb2 e c, mulf_apply,
    Cert.Lib.VecGather.gather_vec_apply gv hN vo vc vob vsb vm vv vs,
    Cert.Lib.VecGather.gather_vec_apply gv hN vo vc vob vsb vm vv vs]

/-- A node's scale is a non-negative real: ones added into zeros count the arriving positions, a non-negative real,
    and a real to the power -1/2 is a non-negative real on the extended reals. Over any shapes and dimension numbers. -/
theorem scale_real {t ti tu : Shape} (d : ScatterDims t ti tu) {w : ℕ} (z y : FVec Ideal t .f32)
    (u : FVec Ideal tu .f32) (idx : IVec ti w) (hz : ∀ i, z i = 0) (hu : ∀ j, u j = 1)
    (hy : ∀ i, y i = ((-(1 / 2) : ℝ) : EReal)) (i : t.Idx) :
    ∃ r : ℝ, 0 ≤ r ∧ Host.powf (F := Ideal) (Host.scatterAdd (F := Ideal) d z idx u) y i = (r : EReal) := by
  show ∃ r : ℝ, 0 ≤ r ∧ Ideal.pow (Ideal.hostScatterAdd d z idx u i) (y i) = (r : EReal)
  unfold Ideal.hostScatterAdd
  rw [hz, hy, Finset.sum_filter]
  simp only [hu]
  exact Cert.Gcn.Law.inv_sqrt_count (fun j => d.resultIdx? j idx = some i)

/-- The same with the three constants as the program prints them: the float words of 0, 1 and -1/2 spread over the
    arrays. -/
theorem scale_real_consts {t ti tu : Shape} (d : ScatterDims t ti tu) {w : ℕ} (idx : IVec ti w)
    (hz hy : (⟨0, ![]⟩ : Shape).BroadcastsInDim t ![]) (hu : (⟨0, ![]⟩ : Shape).BroadcastsInDim tu ![])
    (i : t.Idx) :
    ∃ r : ℝ, 0 ≤ r ∧ Host.powf (F := Ideal)
      (Host.scatterAdd (F := Ideal) d
        (broadcastInDim t ![] hz (constant (F := Ideal) ⟨0, ![]⟩ .f32 0x00000000#32)) idx
        (broadcastInDim tu ![] hu (constant (F := Ideal) ⟨0, ![]⟩ .f32 0x3F800000#32)))
      (broadcastInDim t ![] hy (constant (F := Ideal) ⟨0, ![]⟩ .f32 0xBF000000#32)) i = (r : EReal) :=
  scale_real d _ _ _ idx
    (fun _ => (Cert.Lib.ColBroadcast.scalar_apply _ hz _).trans Ideal.ofBits_zero_f32)
    (fun _ => (Cert.Lib.ColBroadcast.scalar_apply _ hu _).trans Cert.Lib.InvSqrtGuard.ofBits_one)
    (fun _ => (Cert.Lib.ColBroadcast.scalar_apply _ hy _).trans Cert.Lib.InvSqrtGuard.ofBits_neg_half) i

end Cert.Gcn.AggRead

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«140251_j35588099015135_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LayoutRead.lean ====
/-
  Layout operations read at an index, and the two-layer read-out written with them.

  A vector `[N]` recast as the one column of `[N, 1]` reads, at `(n, 0)`, the vector at `n`; recast as the one row of
  `[1, N]` it reads, at `(0, c)`, the vector at `c` (both positions have the same row-major offset as the vector's).
  A vector bias spread over the rows of a matrix by two `broadcast_in_dim`s, added to the matrix and rectified against
  a spread zero, reads `max (y (n, c) + b c) 0`. Put together: a host program's
  `max (g · w1 + b1) 0 · w2 + b2`, with vector biases and plain matrix products, is the function `cls` at the biases
  laid out as one row each. Every extent is a variable.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«140251_j35588099015135_2_alg».proof.Proof.LibMatProd
import proofs.«140251_j35588099015135_2_alg».proof.Proof.LibDenseLayer
import proofs.«140251_j35588099015135_2_alg».proof.Proof.LibColBroadcast
import proofs.«140251_j35588099015135_2_alg».proof.Proof.Fn

noncomputable section

open scoped BigOperators

namespace Cert.Gcn.LayoutRead

open Idealize.ShloMosaic Idealize.ShloMosaic.ValueIdx Cert.Lib.MatProd

variable {α : Type} {M K H N : ℕ}

/-! ## A vector recast with a unit axis -/

/-- A vector `[N]` recast as the one column of `[N, 1]` reads, at `(n, 0)`, the vector at `n`: the offset
    `n * 1 + 0` is `n`. -/
theorem col_cast_apply (v : (⟨1, ![N]⟩ : Shape).Idx → α) (h : (⟨1, ![N]⟩ : Shape).ShapeCasts ⟨2, ![N, 1]⟩)
    (n : Fin N) : shapeCast ⟨2, ![N, 1]⟩ v h (ix2 n (0 : Fin 1)) = v (ix1 n) :=
  shapeCast_apply v h _ _ (by
    rw [Shape.rowMajor_val_two, Shape.rowMajor_val_one]
    show n.val = n.val * 1 + 0
    rw [Nat.mul_one, Nat.add_zero])

/-- A vector `[N]` recast as the one row of `[1, N]` reads, at `(0, c)`, the vector at `c`. -/
theorem row_cast_apply (b : (⟨1, ![N]⟩ : Shape).Idx → α) (h : (⟨1, ![N]⟩ : Shape).ShapeCasts ⟨2, ![1, N]⟩)
    (c : Fin N) : shapeCast ⟨2, ![1, N]⟩ b h (ix2 (0 : Fin 1) c) = b (ix1 c) :=
  shapeCast_a_1a_apply b h (0 : Fin 1) c

/-! ## A layer's second half with a vector bias -/

/-- `post` with the bias a vector laid out as one row: `max (a (n, c) · d (n, 0) + b c) 0`. -/
theorem post_row_apply (a : (⟨2, ![M, N]⟩ : Shape).Idx → EReal) (d : (⟨2, ![M, 1]⟩ : Shape).Idx → EReal)
    (b : (⟨1, ![N]⟩ : Shape).Idx → EReal) (hc : (⟨1, ![N]⟩ : Shape).ShapeCasts ⟨2, ![1, N]⟩) (n : Fin M) (c : Fin N) :
    Cert.Gcn.Fn.post a d (shapeCast ⟨2, ![1, N]⟩ b hc) (ix2 n c)
      = max (a (ix2 n c) * d (ix2 n (0 : Fin 1)) + b (ix1 c)) 0 := by
  rw [Cert.Gcn.Fn.post_apply, row_cast_apply]

/-- The host's bias-then-rectify at an index: a vector bias spread over the rows, added, and the maximum with a
    spread zero taken, reads `max (y (n, c) + b c) 0`. -/
theorem bias_relu_apply (y : FVec Ideal ⟨2, ![M, N]⟩ .f32) (b : FVec Ideal ⟨1, ![N]⟩ .f32) (hN : N ≠ 1)
    (hba : (⟨1, ![N]⟩ : Shape).BroadcastsInDim ⟨2, ![1, N]⟩ ![1])
    (hbb : (⟨2, ![1, N]⟩ : Shape).BroadcastsInDim ⟨2, ![M, N]⟩ ![0, 1])
    (hz : (⟨0, ![]⟩ : Shape).BroadcastsInDim ⟨2, ![M, N]⟩ ![]) (n : Fin M) (c : Fin N) :
    maximumf (addf y (broadcastInDim ⟨2, ![M, N]⟩ ![0, 1] hbb (broadcastInDim ⟨2, ![1, N]⟩ ![1] hba b)))
        (broadcastInDim ⟨2, ![M, N]⟩ ![] hz (constant (F := Ideal) ⟨0, ![]⟩ .f32 0x00000000#32)) (ix2 n c)
      = max (y (ix2 n c) + b (ix1 c)) 0 := by
  rw [maximumf_apply, addf_apply, Cert.Lib.DenseLayer.bias_apply hN, Cert.Lib.ColBroadcast.scalar_apply,
    constant_apply, Ideal.ofBits_zero_f32]

/-! ## The two-layer read-out -/

/-- The host's read-out, `max (g · w1 + b1) 0 · w2 + b2` with plain matrix products, vector biases spread over the
    rows and a spread zero, is `cls` at the biases laid out as one row each. Each contraction record enters through
    the six facts of a plain matrix product. At `(p, c)` both sides are the sum over the hidden coordinate `k` of
    `max ((∑ i, g (p, i) · w1 (i, k)) + b1 k) 0 · w2 (k, c)`, plus `b2 c`. -/
theorem readout_eq_cls
    (D1 : DotDims ⟨2, ![M, K]⟩ ⟨2, ![K, H]⟩ ⟨2, ![M, H]⟩)
    (hrD1 : D1.contr.rank = 1) (hsD1 : D1.contr.size ⟨0, by omega⟩ = K)
    (hl0D1 : ∀ (j : (⟨2, ![M, H]⟩ : Shape).Idx) (q : D1.contr.Idx), (D1.lhsIdx j q 0).val = (j 0).val)
    (hl1D1 : ∀ (j : (⟨2, ![M, H]⟩ : Shape).Idx) (q : D1.contr.Idx), (D1.lhsIdx j q 1).val = (q ⟨0, by omega⟩).val)
    (hr0D1 : ∀ (j : (⟨2, ![M, H]⟩ : Shape).Idx) (q : D1.contr.Idx), (D1.rhsIdx j q 0).val = (q ⟨0, by omega⟩).val)
    (hr1D1 : ∀ (j : (⟨2, ![M, H]⟩ : Shape).Idx) (q : D1.contr.Idx), (D1.rhsIdx j q 1).val = (j 1).val)
    (D2 : DotDims ⟨2, ![M, H]⟩ ⟨2, ![H, N]⟩ ⟨2, ![M, N]⟩)
    (hrD2 : D2.contr.rank = 1) (hsD2 : D2.contr.size ⟨0, by omega⟩ = H)
    (hl0D2 : ∀ (j : (⟨2, ![M, N]⟩ : Shape).Idx) (q : D2.contr.Idx), (D2.lhsIdx j q 0).val = (j 0).val)
    (hl1D2 : ∀ (j : (⟨2, ![M, N]⟩ : Shape).Idx) (q : D2.contr.Idx), (D2.lhsIdx j q 1).val = (q ⟨0, by omega⟩).val)
    (hr0D2 : ∀ (j : (⟨2, ![M, N]⟩ : Shape).Idx) (q : D2.contr.Idx), (D2.rhsIdx j q 0).val = (q ⟨0, by omega⟩).val)
    (hr1D2 : ∀ (j : (⟨2, ![M, N]⟩ : Shape).Idx) (q : D2.contr.Idx), (D2.rhsIdx j q 1).val = (j 1).val)
    (g : FVec Ideal ⟨2, ![M, K]⟩ .f32) (w1 : FVec Ideal ⟨2, ![K, H]⟩ .f32) (w2 : FVec Ideal ⟨2, ![H, N]⟩ .f32)
    (b1 : FVec Ideal ⟨1, ![H]⟩ .f32) (b2 : FVec Ideal ⟨1, ![N]⟩ .f32) (hH : H ≠ 1) (hN : N ≠ 1)
    (hb1a : (⟨1, ![H]⟩ : Shape).BroadcastsInDim ⟨2, ![1, H]⟩ ![1])
    (hb1b : (⟨2, ![1, H]⟩ : Shape).BroadcastsInDim ⟨2, ![M, H]⟩ ![0, 1])
    (hb2a : (⟨1, ![N]⟩ : Shape).BroadcastsInDim ⟨2, ![1, N]⟩ ![1])
    (hb2b : (⟨2, ![1, N]⟩ : Shape).BroadcastsInDim ⟨2, ![M, N]⟩ ![0, 1])
    (hz : (⟨0, ![]⟩ : Shape).BroadcastsInDim ⟨2, ![M, H]⟩ ![])
    (hc1 : (⟨1, ![H]⟩ : Shape).ShapeCasts ⟨2, ![1, H]⟩) (hc2 : (⟨1, ![N]⟩ : Shape).ShapeCasts ⟨2, ![1, N]⟩) :
    addf (Host.dotGeneral (F := Ideal) D2 none
            (maximumf (addf (Host.dotGeneral (F := Ideal) D1 none g w1)
                            (broadcastInDim ⟨2, ![M, H]⟩ ![0, 1] hb1b (broadcastInDim ⟨2, ![1, H]⟩ ![1] hb1a b1)))
                      (broadcastInDim ⟨2, ![M, H]⟩ ![] hz (constant (F := Ideal) ⟨0, ![]⟩ .f32 0x00000000#32)))
            w2)
         (broadcastInDim ⟨2, ![M, N]⟩ ![0, 1] hb2b (broadcastInDim ⟨2, ![1, N]⟩ ![1] hb2a b2))
      = Cert.Gcn.Fn.cls g w1 (shapeCast ⟨2, ![1, H]⟩ b1 hc1) w2 (shapeCast ⟨2, ![1, N]⟩ b2 hc2) := by
  funext j
  obtain ⟨p, c, rfl⟩ : ∃ p c, j = ix2 p c := ⟨j 0, j 1, eq_ix2 j⟩
  rw [Cert.Gcn.Fn.cls_apply, addf_apply, Cert.Lib.DenseLayer.bias_apply hN, row_cast_apply,
    dotGeneral_eq_prod D2 hrD2 hsD2 hl0D2 hl1D2 hr0D2 hr1D2, prod_apply]
  refine congrArg (· + b2 (ix1 c)) (Finset.sum_congr rfl fun k _ => ?_)
  rw [bias_relu_apply _ b1 hH hb1a hb1b hz p k, row_cast_apply,
    dotGeneral_eq_prod D1 hrD1 hsD1 hl0D1 hl1D1 hr0D1 hr1D1, prod_apply]

end Cert.Gcn.LayoutRead

end
-- ==== Proof.LayerBridge.lean ====
/-
  One graph-convolution layer written two ways.

  Write `dv n` for the scale of node `n`: its in-degree (ones added at the destination words of the edges, into
  zeros) raised to the power -1/2. One program scales every row of the layer's product `h` by `dv` of the row's node,
  adds at every node the rows arriving along its incoming edges, scales the node's sum by `dv n`, adds the bias and
  takes the maximum with zero. The other gathers the unscaled rows, multiplies each arriving row by
  `dv (source) · dv (destination)`, adds them at the destinations, adds the bias and takes the maximum with zero.

  At node `n` and column `c` the first is `max ((0 + ∑ h (src e, c) · dv (src e)) · dv n + b c) 0` and the second
  `max ((0 + ∑ h (src e, c) · (dv (src e) · dv (dst e))) + b c) 0`, both sums over the edges whose destination word is
  `n`. They agree for ANY `h`, infinite entries included: `dv n` is a non-negative real (a real count to the power
  -1/2), a non-negative real distributes over a finite sum of extended reals, products are associative, and an edge
  that arrives at `n` has destination `n` — also after the program's treatment of negative words, which leaves a
  non-negative word alone. First for every extent and every choice of dimension records (`layer_generic`), then at
  the two programs' shapes (`layer_bridge`), whose records are equal field by field.
-/
import proofs.«140251_j35588099015135_2_alg».proof.Proof.AggRead
import proofs.«140251_j35588099015135_2_alg».proof.Proof.LayoutRead
import proofs.«140251_j35588099015135_2_alg».proof.Proof.KVal
import proofs.«140251_j35588099015135_2_alg».proof.Proof.RFn

noncomputable section

open scoped BigOperators

namespace Cert.Gcn.LayerBridge

open Idealize.ShloMosaic Idealize.ShloMosaic.ValueIdx
open Cert.Lib.RowGatherScatter (startAt rowOf)

variable {N E C : ℕ}

/-- The step itself, for ANY scale vector `dv` that is a non-negative real at every node and ANY start words: at
    `(n, c)` one side is `(0 + ∑ over edges arriving at n of h (src e, c) · dv (src e)) · dv n`, the other
    `0 + ∑ over the same edges of h (src e, c) · (dv (src e) · dv (dst e))`; an edge arriving at `n` has `dst e = n`
    (`harr`), `dv n` is a non-negative real, and a non-negative real distributes over a finite sum of extended reals.
    Then the same bias is added and the same maximum with zero taken on both sides. -/
theorem layer_core (g : GatherDims ⟨2, ![N, C]⟩ ⟨2, ![E, 1]⟩ ⟨2, ![E, C]⟩)
    (ho : g.offsetDims = [1]) (hc : g.collapsedSliceDims = [0]) (hob : g.operandBatchingDims = [])
    (hsb : g.startIndicesBatchingDims = []) (hm : g.startIndexMap = [0]) (hv : g.indexVectorDim = 1)
    (hs : g.sliceSizes = ![1, C])
    (s : ScatterDims ⟨2, ![N, C]⟩ ⟨2, ![E, 1]⟩ ⟨2, ![E, C]⟩)
    (h1 : s.updateWindowDims = [1]) (h2 : s.insertedWindowDims = [0])
    (h3 : s.scatterDimsToOperandDims = [0]) (h4 : s.indexVectorDim = 1)
    (gv : GatherDims ⟨1, ![N]⟩ ⟨2, ![E, 1]⟩ ⟨1, ![E]⟩)
    (vo : gv.offsetDims = []) (vc : gv.collapsedSliceDims = [0]) (vob : gv.operandBatchingDims = [])
    (vsb : gv.startIndicesBatchingDims = []) (vm : gv.startIndexMap = [0]) (vv : gv.indexVectorDim = 1)
    (vs : gv.sliceSizes = ![1])
    (hN : 0 < N) (hE : E ≠ 1) (hC : C ≠ 1)
    (hcol : (⟨1, ![E]⟩ : Shape).BroadcastsInDim ⟨2, ![E, 1]⟩ ![0])
    (hzNC : (⟨0, ![]⟩ : Shape).BroadcastsInDim ⟨2, ![N, C]⟩ ![])
    (hb2 : (⟨2, ![E, 1]⟩ : Shape).BroadcastsInDim ⟨2, ![E, C]⟩ ![0, 1])
    (hba : (⟨1, ![C]⟩ : Shape).BroadcastsInDim ⟨2, ![1, C]⟩ ![1])
    (hbb : (⟨2, ![1, C]⟩ : Shape).BroadcastsInDim ⟨2, ![N, C]⟩ ![0, 1])
    (hcc : (⟨1, ![N]⟩ : Shape).ShapeCasts ⟨2, ![N, 1]⟩) (hcr : (⟨1, ![C]⟩ : Shape).ShapeCasts ⟨2, ![1, C]⟩)
    (h : FVec Ideal ⟨2, ![N, C]⟩ .f32) (b : FVec Ideal ⟨1, ![C]⟩ .f32) (dv : FVec Ideal ⟨1, ![N]⟩ .f32)
    (hdv : ∀ n : Fin N, ∃ r : ℝ, 0 ≤ r ∧ dv (ix1 n) = (r : EReal))
    (srcW dstW dstB : IVec ⟨2, ![E, 1]⟩ 32)
    (harr : ∀ (e : Fin E) (n : Fin N), (dstB (startAt e)).toInt = (n.val : ℤ) → rowOf hN dstW e = n) :
    Cert.Gcn.Fn.post (Host.scatterAdd (F := Ideal) s (broadcastInDim ⟨2, ![N, C]⟩ ![] hzNC (constant (F := Ideal) ⟨0, ![]⟩ .f32 0x00000000#32)) dstB
        (Host.gather g (fun j => h j * (shapeCast ⟨2, ![N, 1]⟩ dv hcc) (ix2 (j 0) (0 : Fin 1))) srcW))
      (shapeCast ⟨2, ![N, 1]⟩ dv hcc) (shapeCast ⟨2, ![1, C]⟩ b hcr)
    = maximumf (addf (Host.scatterAdd (F := Ideal) s (broadcastInDim ⟨2, ![N, C]⟩ ![] hzNC (constant (F := Ideal) ⟨0, ![]⟩ .f32 0x00000000#32)) dstB
          (mulf (Host.gather g h srcW)
            (broadcastInDim ⟨2, ![E, C]⟩ ![0, 1] hb2 (broadcastInDim ⟨2, ![E, 1]⟩ ![0] hcol
              (mulf (Host.gather gv dv srcW) (Host.gather gv dv dstW))))))
        (broadcastInDim ⟨2, ![N, C]⟩ ![0, 1] hbb (broadcastInDim ⟨2, ![1, C]⟩ ![1] hba b)))
      (broadcastInDim ⟨2, ![N, C]⟩ ![] hzNC (constant (F := Ideal) ⟨0, ![]⟩ .f32 0x00000000#32)) := by
  funext j
  obtain ⟨n, c, rfl⟩ : ∃ (n : Fin N) (c : Fin C), j = ix2 n c := ⟨j 0, j 1, eq_ix2 j⟩
  rw [Cert.Gcn.LayoutRead.post_row_apply, Cert.Gcn.LayoutRead.bias_relu_apply _ b hC hba hbb hzNC n c]
  refine congrArg (fun x => max (x + b (ix1 c)) 0) ?_
  rw [Cert.Gcn.AggRead.agg_apply g hN ho hc hob hsb hm hv hs s h1 h2 h3 h4,
    Cert.Gcn.AggRead.ref_agg_apply g hN ho hc hob hsb hm hv hs s h1 h2 h3 h4 gv vo vc vob vsb vm vv vs hcol hb2 hE,
    Cert.Gcn.LayoutRead.col_cast_apply, Cert.Lib.ColBroadcast.scalar_apply, constant_apply, Ideal.ofBits_zero_f32]
  obtain ⟨r, hr, er⟩ := hdv n
  rw [er]
  have hsum : ∀ e : Fin E,
      (fun j : (⟨2, ![N, C]⟩ : Shape).Idx => h j * shapeCast ⟨2, ![N, 1]⟩ dv hcc (ix2 (j 0) (0 : Fin 1))) (ix2 (rowOf hN srcW e) c)
        = h (ix2 (rowOf hN srcW e) c) * dv (ix1 (rowOf hN srcW e)) :=
    fun e => congrArg (h (ix2 (rowOf hN srcW e) c) * ·) (Cert.Gcn.LayoutRead.col_cast_apply dv hcc (rowOf hN srcW e))
  simp only [hsum]
  exact Cert.Gcn.Law.norm_law (fun e : Fin E => (dstB (startAt e)).toInt = (n.val : ℤ))
    (fun e => h (ix2 (rowOf hN srcW e) c)) (fun e => dv (ix1 (rowOf hN srcW e))) (fun e => dv (ix1 (rowOf hN dstW e)))
    r hr (fun e he => by rw [harr e n he]; exact er)

/-- ONE LAYER, BOTH WAYS. Scaling the rows by the node scale `dv` before the neighbourhood sum and the sum by `dv`
    after it, then bias and rectifier, is the same as weighting each arriving row by the product of its two end
    nodes' scales, then bias and rectifier — for any layer input `h`: the scale of a node is its in-degree to the
    power -1/2, a non-negative real, and the wrapped destination word of an edge that arrives at `n` names `n`. -/
theorem layer_generic (g : GatherDims ⟨2, ![N, C]⟩ ⟨2, ![E, 1]⟩ ⟨2, ![E, C]⟩)
    (ho : g.offsetDims = [1]) (hc : g.collapsedSliceDims = [0]) (hob : g.operandBatchingDims = [])
    (hsb : g.startIndicesBatchingDims = []) (hm : g.startIndexMap = [0]) (hv : g.indexVectorDim = 1)
    (hs : g.sliceSizes = ![1, C])
    (s : ScatterDims ⟨2, ![N, C]⟩ ⟨2, ![E, 1]⟩ ⟨2, ![E, C]⟩)
    (h1 : s.updateWindowDims = [1]) (h2 : s.insertedWindowDims = [0])
    (h3 : s.scatterDimsToOperandDims = [0]) (h4 : s.indexVectorDim = 1)
    (gv : GatherDims ⟨1, ![N]⟩ ⟨2, ![E, 1]⟩ ⟨1, ![E]⟩)
    (vo : gv.offsetDims = []) (vc : gv.collapsedSliceDims = [0]) (vob : gv.operandBatchingDims = [])
    (vsb : gv.startIndicesBatchingDims = []) (vm : gv.startIndexMap = [0]) (vv : gv.indexVectorDim = 1)
    (vs : gv.sliceSizes = ![1])
    (sd : ScatterDims ⟨1, ![N]⟩ ⟨2, ![E, 1]⟩ ⟨1, ![E]⟩)
    (hN : 0 < N) (hE : E ≠ 1) (hC : C ≠ 1)
    (hcol : (⟨1, ![E]⟩ : Shape).BroadcastsInDim ⟨2, ![E, 1]⟩ ![0])
    (hs0 : (⟨0, ![]⟩ : Shape).BroadcastsInDim ⟨1, ![E]⟩ ![])
    (hzN : (⟨0, ![]⟩ : Shape).BroadcastsInDim ⟨1, ![N]⟩ ![])
    (hzNC : (⟨0, ![]⟩ : Shape).BroadcastsInDim ⟨2, ![N, C]⟩ ![])
    (hb2 : (⟨2, ![E, 1]⟩ : Shape).BroadcastsInDim ⟨2, ![E, C]⟩ ![0, 1])
    (hba : (⟨1, ![C]⟩ : Shape).BroadcastsInDim ⟨2, ![1, C]⟩ ![1])
    (hbb : (⟨2, ![1, C]⟩ : Shape).BroadcastsInDim ⟨2, ![N, C]⟩ ![0, 1])
    (hcc : (⟨1, ![N]⟩ : Shape).ShapeCasts ⟨2, ![N, 1]⟩) (hcr : (⟨1, ![C]⟩ : Shape).ShapeCasts ⟨2, ![1, C]⟩)
    (h : FVec Ideal ⟨2, ![N, C]⟩ .f32) (b : FVec Ideal ⟨1, ![C]⟩ .f32) (src dst : IVec ⟨1, ![E]⟩ 32) (k : BitVec 32) :
    Cert.Gcn.Fn.post (Host.scatterAdd (F := Ideal) s (broadcastInDim ⟨2, ![N, C]⟩ ![] hzNC (constant (F := Ideal) ⟨0, ![]⟩ .f32 0x00000000#32)) (broadcastInDim ⟨2, ![E, 1]⟩ ![0] hcol dst)
        (Host.gather g (fun j => h j * (shapeCast ⟨2, ![N, 1]⟩ (Host.powf (F := Ideal) (Host.scatterAdd (F := Ideal) sd (broadcastInDim ⟨1, ![N]⟩ ![] hzN (constant (F := Ideal) ⟨0, ![]⟩ .f32 0x00000000#32)) (broadcastInDim ⟨2, ![E, 1]⟩ ![0] hcol dst) (broadcastInDim ⟨1, ![E]⟩ ![] hs0 (constant (F := Ideal) ⟨0, ![]⟩ .f32 0x3F800000#32))) (broadcastInDim ⟨1, ![N]⟩ ![] hzN (constant (F := Ideal) ⟨0, ![]⟩ .f32 0xBF000000#32))) hcc) (ix2 (j 0) (0 : Fin 1))) (broadcastInDim ⟨2, ![E, 1]⟩ ![0] hcol (select (cmpi .slt src (broadcastInDim ⟨1, ![E]⟩ ![] hs0 (constantI ⟨0, ![]⟩ 32 0#32))) (addi src (broadcastInDim ⟨1, ![E]⟩ ![] hs0 (constantI ⟨0, ![]⟩ 32 k))) src))))
      (shapeCast ⟨2, ![N, 1]⟩ (Host.powf (F := Ideal) (Host.scatterAdd (F := Ideal) sd (broadcastInDim ⟨1, ![N]⟩ ![] hzN (constant (F := Ideal) ⟨0, ![]⟩ .f32 0x00000000#32)) (broadcastInDim ⟨2, ![E, 1]⟩ ![0] hcol dst) (broadcastInDim ⟨1, ![E]⟩ ![] hs0 (constant (F := Ideal) ⟨0, ![]⟩ .f32 0x3F800000#32))) (broadcastInDim ⟨1, ![N]⟩ ![] hzN (constant (F := Ideal) ⟨0, ![]⟩ .f32 0xBF000000#32))) hcc) (shapeCast ⟨2, ![1, C]⟩ b hcr)
    = maximumf (addf (Host.scatterAdd (F := Ideal) s (broadcastInDim ⟨2, ![N, C]⟩ ![] hzNC (constant (F := Ideal) ⟨0, ![]⟩ .f32 0x00000000#32)) (broadcastInDim ⟨2, ![E, 1]⟩ ![0] hcol dst)
          (mulf (Host.gather g h (broadcastInDim ⟨2, ![E, 1]⟩ ![0] hcol (select (cmpi .slt src (broadcastInDim ⟨1, ![E]⟩ ![] hs0 (constantI ⟨0, ![]⟩ 32 0#32))) (addi src (broadcastInDim ⟨1, ![E]⟩ ![] hs0 (constantI ⟨0, ![]⟩ 32 k))) src)))
            (broadcastInDim ⟨2, ![E, C]⟩ ![0, 1] hb2 (broadcastInDim ⟨2, ![E, 1]⟩ ![0] hcol
              (mulf (Host.gather gv (Host.powf (F := Ideal) (Host.scatterAdd (F := Ideal) sd (broadcastInDim ⟨1, ![N]⟩ ![] hzN (constant (F := Ideal) ⟨0, ![]⟩ .f32 0x00000000#32)) (broadcastInDim ⟨2, ![E, 1]⟩ ![0] hcol dst) (broadcastInDim ⟨1, ![E]⟩ ![] hs0 (constant (F := Ideal) ⟨0, ![]⟩ .f32 0x3F800000#32))) (broadcastInDim ⟨1, ![N]⟩ ![] hzN (constant (F := Ideal) ⟨0, ![]⟩ .f32 0xBF000000#32))) (broadcastInDim ⟨2, ![E, 1]⟩ ![0] hcol (select (cmpi .slt src (broadcastInDim ⟨1, ![E]⟩ ![] hs0 (constantI ⟨0, ![]⟩ 32 0#32))) (addi src (broadcastInDim ⟨1, ![E]⟩ ![] hs0 (constantI ⟨0, ![]⟩ 32 k))) src))) (Host.gather gv (Host.powf (F := Ideal) (Host.scatterAdd (F := Ideal) sd (broadcastInDim ⟨1, ![N]⟩ ![] hzN (constant (F := Ideal) ⟨0, ![]⟩ .f32 0x00000000#32)) (broadcastInDim ⟨2, ![E, 1]⟩ ![0] hcol dst) (broadcastInDim ⟨1, ![E]⟩ ![] hs0 (constant (F := Ideal) ⟨0, ![]⟩ .f32 0x3F800000#32))) (broadcastInDim ⟨1, ![N]⟩ ![] hzN (constant (F := Ideal) ⟨0, ![]⟩ .f32 0xBF000000#32))) (broadcastInDim ⟨2, ![E, 1]⟩ ![0] hcol (select (cmpi .slt dst (broadcastInDim ⟨1, ![E]⟩ ![] hs0 (constantI ⟨0, ![]⟩ 32 0#32))) (addi dst (broadcastInDim ⟨1, ![E]⟩ ![] hs0 (constantI ⟨0, ![]⟩ 32 k))) dst))))))))
        (broadcastInDim ⟨2, ![N, C]⟩ ![0, 1] hbb (broadcastInDim ⟨2, ![1, C]⟩ ![1] hba b)))
      (broadcastInDim ⟨2, ![N, C]⟩ ![] hzNC (constant (F := Ideal) ⟨0, ![]⟩ .f32 0x00000000#32)) := by
  refine layer_core g ho hc hob hsb hm hv hs s h1 h2 h3 h4 gv vo vc vob vsb vm vv vs hN hE hC hcol hzNC hb2 hba hbb hcc hcr h b
    _ (fun n => ?_) _ _ _ (fun e n he => ?_)
  · exact Cert.Gcn.AggRead.scale_real_consts sd _ hzN hzN hs0 (ix1 n)
  · exact Cert.Gcn.AggRead.rowOf_wrapped_of_arrives hN hE dst k hcol hs0 e n he

/-! ## At the two programs' shapes -/

/-- One layer of the kernel's program, from the layer's product `h` (rows scaled, summed along the edges, scaled
    again, biased, rectified), is the reference's layer from the same product: 50000 nodes, 550000 edges with the
    self-loops, 256 columns, and a negative source or destination word moved up by 50000. -/
theorem layer_bridge (h : (⟨Cert.KernelIdeal.S50000x256, .f32⟩ : BufTy).Contents (Elt Ideal)) (x1 : (⟨Cert.KernelIdeal.S2x500000, .i32⟩ : BufTy).Contents (Elt Ideal)) (b : (⟨Cert.KernelIdeal.S256, .f32⟩ : BufTy).Contents (Elt Ideal)) :
    Cert.Gcn.Fn.post (M := 50000) (N := 256) (Cert.KernelIdeal.KHost.agg (Cert.KernelIdeal.KHost.srcOf x1) (Cert.KernelIdeal.KHost.dstOf x1) (fun j => h j * Cert.KernelIdeal.KVal.dc x1 (Idealize.ShloMosaic.ValueIdx.ix2 (j 0) (0 : Fin 1)))) (Cert.KernelIdeal.KVal.dc x1) (Cert.KernelIdeal.KHost.row256 b)
      = Cert.ReferenceIdeal.RFn.layer h x1 b := by
  have es : Cert.ReferenceIdeal.Read.val_main_v3 (F := Ideal) x1 = Cert.KernelIdeal.KHost.srcOf x1 := rfl
  have ed : Cert.ReferenceIdeal.Read.val_main_v6 (F := Ideal) x1 = Cert.KernelIdeal.KHost.dstOf x1 := rfl
  unfold Cert.ReferenceIdeal.RFn.layer Cert.KernelIdeal.KHost.agg Cert.KernelIdeal.KVal.dc Cert.KernelIdeal.KHost.dinvCol Cert.KernelIdeal.KHost.row256
  unfold Cert.ReferenceIdeal.Read.val_main_v39 Cert.ReferenceIdeal.Read.val_main_v40 Cert.ReferenceIdeal.Read.val_main_v34 Cert.ReferenceIdeal.Read.val_main_v37 Cert.ReferenceIdeal.Read.val_main_v43 Cert.ReferenceIdeal.Read.val_main_call0_v0 Cert.ReferenceIdeal.Read.val_main_v36 Cert.ReferenceIdeal.Read.val_main_v28 Cert.ReferenceIdeal.Read.val_main_v20 Cert.ReferenceIdeal.Read.val_main_v27 Cert.ReferenceIdeal.Read.val_main_v13 Cert.ReferenceIdeal.Read.val_main_v11 Cert.ReferenceIdeal.Read.val_main_v9 Cert.ReferenceIdeal.Read.val_main_v10 Cert.ReferenceIdeal.Read.val_main_v8 Cert.ReferenceIdeal.Read.val_main_v12 Cert.ReferenceIdeal.Read.val_main_v19 Cert.ReferenceIdeal.Read.val_main_v18 Cert.ReferenceIdeal.Read.val_main_v15 Cert.ReferenceIdeal.Read.val_main_v17 Cert.ReferenceIdeal.Read.val_main_v14 Cert.ReferenceIdeal.Read.val_main_v16 Cert.ReferenceIdeal.Read.val_main_v26 Cert.ReferenceIdeal.Read.val_main_v25 Cert.ReferenceIdeal.Read.val_main_v22 Cert.ReferenceIdeal.Read.val_main_v24 Cert.ReferenceIdeal.Read.val_main_v21 Cert.ReferenceIdeal.Read.val_main_v23 Cert.ReferenceIdeal.Read.val_main_v33 Cert.ReferenceIdeal.Read.val_main_v30 Cert.ReferenceIdeal.Read.val_main_v32 Cert.ReferenceIdeal.Read.val_main_v29 Cert.ReferenceIdeal.Read.val_main_v31 Cert.ReferenceIdeal.Read.val_main_v42 Cert.ReferenceIdeal.Read.val_main_cst Cert.ReferenceIdeal.Read.val_main_cst_0 Cert.ReferenceIdeal.Read.val_main_cst_1 Cert.ReferenceIdeal.Read.val_main_cst_7 Cert.ReferenceIdeal.Read.val_main_call0_cst Cert.ReferenceIdeal.Read.val_main_c Cert.ReferenceIdeal.Read.val_main_c_2 Cert.ReferenceIdeal.Read.val_main_c_3 Cert.ReferenceIdeal.Read.val_main_c_4 Cert.ReferenceIdeal.Read.val_main_c_5 Cert.ReferenceIdeal.Read.val_main_c_6
  rw [es, ed]
  exact layer_generic (N := 50000) (E := 550000) (C := 256)
    Cert.KernelIdeal.gather_S50000x256_S550000x1_S550000x256_1_0_n_n_0_1_1256 rfl rfl rfl rfl rfl rfl rfl
    Cert.KernelIdeal.scatter_S50000x256_S550000x1_S550000x256_1_0_0_1 rfl rfl rfl rfl
    Cert.ReferenceIdeal.gather_S50000_S550000x1_S550000_n_0_n_n_0_1_1 rfl rfl rfl rfl rfl rfl rfl
    Cert.KernelIdeal.scatter_S50000_S550000x1_S550000_n_0_0_1
    (by decide) (by decide) (by decide)
    Cert.KernelIdeal.Facts₀.bcast_S550000_S550000x1_0 Cert.KernelIdeal.Facts₀.bcast_S_S550000 Cert.KernelIdeal.Facts₀.bcast_S_S50000 Cert.KernelIdeal.Facts₀.bcast_S_S50000x256
    Cert.ReferenceIdeal.Facts₀.bcast_S550000x1_S550000x256_0_1 Cert.ReferenceIdeal.Facts₀.bcast_S256_S1x256_1 Cert.ReferenceIdeal.Facts₀.bcast_S1x256_S50000x256_0_1
    Cert.KernelIdeal.Facts₀.shapeCasts_S50000_S50000x1 Cert.KernelIdeal.Facts₀.shapeCasts_S256_S1x256
    h b (Cert.KernelIdeal.KHost.srcOf x1) (Cert.KernelIdeal.KHost.dstOf x1) 50000#32

end Cert.Gcn.LayerBridge

end
-- ==== Proof.TailBridge.lean ====
/-
  The last stage of the two programs: graph means and read-out.

  One program states its graph means and its two bias rows as definitions (`pool`, `row256`, `row5`) and its
  read-out as the function `cls`; the other prints the read-out as two matrix products with vector biases spread over
  the rows and a rectifier against a spread zero (`tail`). The graph means of the two are the same tree of operations:
  the rows added at their graph's word into zeros, divided by the graph's node count, at least one. The read-out of
  the second is `cls` at the biases laid out as one row each, by the generic lemma, whose contraction-record facts
  hold at the two literal records by computation.
-/
import Idealize.ShloMosaic.PureOps.Ideal
import proofs.«140251_j35588099015135_2_alg».proof.Proof.Fn
import proofs.«140251_j35588099015135_2_alg».proof.Proof.LayoutRead
import proofs.«140251_j35588099015135_2_alg».proof.Proof.KHostFn
import proofs.«140251_j35588099015135_2_alg».proof.Proof.RFn

noncomputable section

namespace Cert.Gcn.TailBridge

open Idealize.ShloMosaic Cert.ReferenceIdeal.Read

/-- The graph means of the two programs are the same operations over the same records. -/
theorem pool_eq (x2 : (⟨Cert.KernelIdeal.S50000, .i32⟩ : BufTy).Contents (Elt Ideal)) (h : (⟨Cert.KernelIdeal.S50000x256, .f32⟩ : BufTy).Contents (Elt Ideal)) :
    Cert.KernelIdeal.KHost.pool x2 h
      = Host.divf (F := Ideal) (φ := .f32)
          (Host.scatterAdd (F := Ideal) (φ := .f32) Cert.ReferenceIdeal.scatter_S64x256_S50000x1_S50000x256_1_0_0_1
            (val_main_v124 (F := Ideal)) (val_main_v125 (F := Ideal) x2) h)
          (val_main_v134 (F := Ideal) x2) := by
  unfold Cert.KernelIdeal.KHost.pool val_main_v134 val_main_v133 val_main_v132 val_main_v131 val_main_v130
    val_main_v129 val_main_v128 val_main_v127 val_main_v125 val_main_v124 val_main_cst_28 val_main_cst_29
    val_main_cst_30 val_main_cst_31
  rfl

/-- The kernel side's read-out of its graph means is the reference's last stage. -/
theorem tail_bridge (h : (⟨Cert.KernelIdeal.S50000x256, .f32⟩ : BufTy).Contents (Elt Ideal)) (x2 : (⟨Cert.KernelIdeal.S50000, .i32⟩ : BufTy).Contents (Elt Ideal))
    (x9 : (⟨Cert.KernelIdeal.S256x256, .f32⟩ : BufTy).Contents (Elt Ideal)) (x10 : (⟨Cert.KernelIdeal.S256, .f32⟩ : BufTy).Contents (Elt Ideal))
    (x11 : (⟨Cert.KernelIdeal.S256x5, .f32⟩ : BufTy).Contents (Elt Ideal)) (x12 : (⟨Cert.KernelIdeal.S5, .f32⟩ : BufTy).Contents (Elt Ideal)) :
    Cert.Gcn.Fn.cls (M := 64) (K := 256) (H := 256) (N := 5) (Cert.KernelIdeal.KHost.pool x2 h) x9
        (Cert.KernelIdeal.KHost.row256 x10) x11 (Cert.KernelIdeal.KHost.row5 x12)
      = Cert.ReferenceIdeal.RFn.tail h x2 x9 x10 x11 x12 := by
  unfold Cert.ReferenceIdeal.RFn.tail val_main_v138 val_main_v137 val_main_v143 val_main_v142 val_main_call3_v0
    val_main_call3_cst
  rw [pool_eq x2 h]
  exact (Cert.Gcn.LayoutRead.readout_eq_cls
    Cert.ReferenceIdeal.dot_S64x256_S256x256_S64x256_1_0_0_1_n_n rfl rfl
    lhs_main_v136_0 lhs_main_v136_1 rhs_main_v136_0 rhs_main_v136_1
    Cert.ReferenceIdeal.dot_S64x256_S256x5_S64x5_1_0_0_1_n_n rfl rfl
    lhs_main_v141_0 lhs_main_v141_1 rhs_main_v141_0 rhs_main_v141_1
    _ x9 x11 x10 x12 (by decide) (by decide) _ _ _ _ _
    Cert.KernelIdeal.Gen.shapeCasts_S256_S1x256 Cert.KernelIdeal.Gen.shapeCasts_S5_S1x5).symm

end Cert.Gcn.TailBridge

end
-- ==== Proof.Bridge.lean ====
/-
  The idealized kernel's function of the arguments is the reference's.

  Layer by layer: the reference's product of a layer's input with its weights is the plain matrix product, the kernel's
  pre-scaled product is that product with each row scaled, and one layer written either way is the same function of
  the product (the layer bridge: the node scale is a non-negative real, so it moves across the neighbourhood sum). So
  the three layers' outputs agree one after the other, each feeding the next. The graph means are the same operations
  of the same node features, and the reference's read-out — two products, each bias broadcast over the rows, a
  rectifier between — is the kernel's read-out with the biases laid out as rows.
-/
import proofs.«140251_j35588099015135_2_alg».proof.Proof.KVal
import proofs.«140251_j35588099015135_2_alg».proof.Proof.RFn
import proofs.«140251_j35588099015135_2_alg».proof.Proof.LayerBridge
import proofs.«140251_j35588099015135_2_alg».proof.Proof.TailBridge
import proofs.«140251_j35588099015135_2_alg».proof.Proof.LibMatProd

noncomputable section

namespace Cert.Proof.Bridge

open Idealize.ShloMosaic Idealize.ShloMosaic.ValueIdx Cert.Lib.MatProd
open Cert.KernelIdeal.KVal Cert.ReferenceIdeal.Read
open Cert.KernelIdeal (KHost.agg KHost.srcOf KHost.dstOf KHost.row256 KHost.row5 KHost.pool)

/-! ## The reference's products are plain matrix products -/

theorem v7_prod (x0 : (⟨Cert.KernelIdeal.S50000x128, .f32⟩ : BufTy).Contents (Elt Ideal)) (x3 : (⟨Cert.KernelIdeal.S128x256, .f32⟩ : BufTy).Contents (Elt Ideal)) :
    val_main_v7 (F := Ideal) x0 x3 = prod (M := 50000) (K := 128) (N := 256) x0 x3 :=
  dotGeneral_eq_prod Cert.ReferenceIdeal.dot_S50000x128_S128x256_S50000x256_1_0_0_1_n_n rfl rfl
    lhs_main_v7_0 lhs_main_v7_1 rhs_main_v7_0 rhs_main_v7_1 none x0 x3

theorem v46_prod (x0 : (⟨Cert.KernelIdeal.S50000x128, .f32⟩ : BufTy).Contents (Elt Ideal)) (x1 : (⟨Cert.KernelIdeal.S2x500000, .i32⟩ : BufTy).Contents (Elt Ideal)) (x3 : (⟨Cert.KernelIdeal.S128x256, .f32⟩ : BufTy).Contents (Elt Ideal)) (x4 : (⟨Cert.KernelIdeal.S256, .f32⟩ : BufTy).Contents (Elt Ideal)) (x5 : (⟨Cert.KernelIdeal.S256x256, .f32⟩ : BufTy).Contents (Elt Ideal)) :
    val_main_v46 (F := Ideal) x0 x1 x3 x4 x5 = prod (M := 50000) (K := 256) (N := 256) (val_main_v45 (F := Ideal) x0 x1 x3 x4) x5 :=
  dotGeneral_eq_prod Cert.ReferenceIdeal.dot_S50000x256_S256x256_S50000x256_1_0_0_1_n_n rfl rfl
    lhs_main_v46_0 lhs_main_v46_1 rhs_main_v46_0 rhs_main_v46_1 none _ x5

theorem v85_prod (x0 : (⟨Cert.KernelIdeal.S50000x128, .f32⟩ : BufTy).Contents (Elt Ideal)) (x1 : (⟨Cert.KernelIdeal.S2x500000, .i32⟩ : BufTy).Contents (Elt Ideal)) (x3 : (⟨Cert.KernelIdeal.S128x256, .f32⟩ : BufTy).Contents (Elt Ideal)) (x4 : (⟨Cert.KernelIdeal.S256, .f32⟩ : BufTy).Contents (Elt Ideal)) (x5 : (⟨Cert.KernelIdeal.S256x256, .f32⟩ : BufTy).Contents (Elt Ideal)) (x6 : (⟨Cert.KernelIdeal.S256, .f32⟩ : BufTy).Contents (Elt Ideal)) (x7 : (⟨Cert.KernelIdeal.S256x256, .f32⟩ : BufTy).Contents (Elt Ideal)) :
    val_main_v85 (F := Ideal) x0 x1 x3 x4 x5 x6 x7 = prod (M := 50000) (K := 256) (N := 256) (val_main_v84 (F := Ideal) x0 x1 x3 x4 x5 x6) x7 :=
  dotGeneral_eq_prod Cert.ReferenceIdeal.dot_S50000x256_S256x256_S50000x256_1_0_0_1_n_n rfl rfl
    lhs_main_v85_0 lhs_main_v85_1 rhs_main_v85_0 rhs_main_v85_1 none _ x7

/-! ## The three layers -/

/-- Layer 0's output. -/
theorem out0 (x0 : (⟨Cert.KernelIdeal.S50000x128, .f32⟩ : BufTy).Contents (Elt Ideal)) (x1 : (⟨Cert.KernelIdeal.S2x500000, .i32⟩ : BufTy).Contents (Elt Ideal)) (x3 : (⟨Cert.KernelIdeal.S128x256, .f32⟩ : BufTy).Contents (Elt Ideal)) (x4 : (⟨Cert.KernelIdeal.S256, .f32⟩ : BufTy).Contents (Elt Ideal)) :
    Cert.Gcn.Fn.post (M := 50000) (N := 256) (a0 x0 x1 x3) (dc x1) (Cert.KernelIdeal.KHost.row256 x4)
      = val_main_v45 (F := Ideal) x0 x1 x3 x4 := by
  rw [Cert.ReferenceIdeal.RFn.v45_eq, v7_prod]
  exact Cert.Gcn.LayerBridge.layer_bridge (prod (M := 50000) (K := 128) (N := 256) x0 x3) x1 x4

/-- Layer 1's output. -/
theorem out1 (x0 : (⟨Cert.KernelIdeal.S50000x128, .f32⟩ : BufTy).Contents (Elt Ideal)) (x1 : (⟨Cert.KernelIdeal.S2x500000, .i32⟩ : BufTy).Contents (Elt Ideal)) (x3 : (⟨Cert.KernelIdeal.S128x256, .f32⟩ : BufTy).Contents (Elt Ideal)) (x4 : (⟨Cert.KernelIdeal.S256, .f32⟩ : BufTy).Contents (Elt Ideal)) (x5 : (⟨Cert.KernelIdeal.S256x256, .f32⟩ : BufTy).Contents (Elt Ideal)) (x6 : (⟨Cert.KernelIdeal.S256, .f32⟩ : BufTy).Contents (Elt Ideal)) :
    Cert.Gcn.Fn.post (M := 50000) (N := 256) (a1 x0 x1 x3 x4 x5) (dc x1) (Cert.KernelIdeal.KHost.row256 x6)
      = val_main_v84 (F := Ideal) x0 x1 x3 x4 x5 x6 := by
  rw [Cert.ReferenceIdeal.RFn.v84_eq, v46_prod]
  unfold a1 p1
  rw [out0]
  exact Cert.Gcn.LayerBridge.layer_bridge (prod (M := 50000) (K := 256) (N := 256) (val_main_v45 (F := Ideal) x0 x1 x3 x4) x5) x1 x6

/-- Layer 2's output: the node features. -/
theorem out2 (x0 : (⟨Cert.KernelIdeal.S50000x128, .f32⟩ : BufTy).Contents (Elt Ideal)) (x1 : (⟨Cert.KernelIdeal.S2x500000, .i32⟩ : BufTy).Contents (Elt Ideal)) (x3 : (⟨Cert.KernelIdeal.S128x256, .f32⟩ : BufTy).Contents (Elt Ideal)) (x4 : (⟨Cert.KernelIdeal.S256, .f32⟩ : BufTy).Contents (Elt Ideal)) (x5 : (⟨Cert.KernelIdeal.S256x256, .f32⟩ : BufTy).Contents (Elt Ideal)) (x6 : (⟨Cert.KernelIdeal.S256, .f32⟩ : BufTy).Contents (Elt Ideal)) (x7 : (⟨Cert.KernelIdeal.S256x256, .f32⟩ : BufTy).Contents (Elt Ideal)) (x8 : (⟨Cert.KernelIdeal.S256, .f32⟩ : BufTy).Contents (Elt Ideal)) :
    hk x0 x1 x3 x4 x5 x6 x7 x8 = val_main_v123 (F := Ideal) x0 x1 x3 x4 x5 x6 x7 x8 := by
  rw [Cert.ReferenceIdeal.RFn.v123_eq, v85_prod]
  unfold hk a2 p2
  rw [out1]
  exact Cert.Gcn.LayerBridge.layer_bridge (prod (M := 50000) (K := 256) (N := 256) (val_main_v84 (F := Ideal) x0 x1 x3 x4 x5 x6) x7) x1 x8

/-! ## The result -/

/-- The idealized kernel's result is the reference's, as functions of the thirteen arguments. -/
theorem bridge (x0 : (⟨Cert.KernelIdeal.S50000x128, .f32⟩ : BufTy).Contents (Elt Ideal)) (x1 : (⟨Cert.KernelIdeal.S2x500000, .i32⟩ : BufTy).Contents (Elt Ideal)) (x2 : (⟨Cert.KernelIdeal.S50000, .i32⟩ : BufTy).Contents (Elt Ideal)) (x3 : (⟨Cert.KernelIdeal.S128x256, .f32⟩ : BufTy).Contents (Elt Ideal)) (x4 : (⟨Cert.KernelIdeal.S256, .f32⟩ : BufTy).Contents (Elt Ideal)) (x5 : (⟨Cert.KernelIdeal.S256x256, .f32⟩ : BufTy).Contents (Elt Ideal)) (x6 : (⟨Cert.KernelIdeal.S256, .f32⟩ : BufTy).Contents (Elt Ideal)) (x7 : (⟨Cert.KernelIdeal.S256x256, .f32⟩ : BufTy).Contents (Elt Ideal)) (x8 : (⟨Cert.KernelIdeal.S256, .f32⟩ : BufTy).Contents (Elt Ideal)) (x9 : (⟨Cert.KernelIdeal.S256x256, .f32⟩ : BufTy).Contents (Elt Ideal)) (x10 : (⟨Cert.KernelIdeal.S256, .f32⟩ : BufTy).Contents (Elt Ideal)) (x11 : (⟨Cert.KernelIdeal.S256x5, .f32⟩ : BufTy).Contents (Elt Ideal)) (x12 : (⟨Cert.KernelIdeal.S5, .f32⟩ : BufTy).Contents (Elt Ideal)) :
    kval x0 x1 x2 x3 x4 x5 x6 x7 x8 x9 x10 x11 x12
      = val_main_v144 (F := Ideal) x0 x1 x2 x3 x4 x5 x6 x7 x8 x9 x10 x11 x12 := by
  rw [Cert.ReferenceIdeal.RFn.v144_eq, ← out2]
  exact Cert.Gcn.TailBridge.tail_bridge (hk x0 x1 x3 x4 x5 x6 x7 x8) x2 x9 x10 x11 x12

end Cert.Proof.Bridge

end
-- ==== Proof.lean ====
/-
  A three-layer graph-convolution network with mean pooling and a two-layer read-out: the kernel program (five
  regions among stretches of host gathers and scatter-adds) against its reference, over the extended reals.

  Both programs compute, per layer, the neighbourhood sum of the rows of (features · weights) with the symmetric
  normalization 1 / sqrt(deg(source) · deg(destination)). The reference scales each edge's row by the product of the
  two node scales; the kernel scales every node's row once before the sum and each node's sum once after it. A node
  scale is an in-degree — a finite sum of ones — raised to the power -1/2, hence a non-negative real, and
  multiplication by a non-negative real distributes over a finite sum of extended reals whatever the summands are;
  so the two agree for every input, and the precondition is never opened. The graph means are the same operations
  on both sides, and the read-out's biases are the same numbers laid out as rows or broadcast over the rows.

  The three frames are the generated frame certificates (the reference's is its generated run with the result
  dropped). The kernel's run with its result named, the closed form of each region, the walk through the ten segment
  boundaries and the bridge to the reference's term are the modules imported below.
-/
import proofs.«140251_j35588099015135_2_alg».proof.Defs
import proofs.«140251_j35588099015135_2_alg».proof.Proof.Gen.Kernel
import proofs.«140251_j35588099015135_2_alg».proof.Proof.Gen.Kernel.Skeleton
import proofs.«140251_j35588099015135_2_alg».proof.Proof.Gen.Kernel.Launch
import proofs.«140251_j35588099015135_2_alg».proof.Proof.Gen.Kernel.Points
import proofs.«140251_j35588099015135_2_alg».proof.Proof.Gen.Kernel.Frame
import proofs.«140251_j35588099015135_2_alg».proof.Proof.Gen.KernelIdeal
import proofs.«140251_j35588099015135_2_alg».proof.Proof.Gen.KernelIdeal.Skeleton
import proofs.«140251_j35588099015135_2_alg».proof.Proof.Gen.KernelIdeal.Launch
import proofs.«140251_j35588099015135_2_alg».proof.Proof.Gen.KernelIdeal.Points
import proofs.«140251_j35588099015135_2_alg».proof.Proof.Gen.KernelIdeal.Frame
import proofs.«140251_j35588099015135_2_alg».proof.Proof.Gen.ReferenceIdeal
import proofs.«140251_j35588099015135_2_alg».proof.Proof.Gen.Pre_finite_inputs
import proofs.«140251_j35588099015135_2_alg».proof.Proof.Gen.ReferenceIdeal.Run
import proofs.«140251_j35588099015135_2_alg».proof.Proof.Gen.ReferenceIdeal.Read
import proofs.«140251_j35588099015135_2_alg».proof.Proof.KRun
import proofs.«140251_j35588099015135_2_alg».proof.Proof.KChain
import proofs.«140251_j35588099015135_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the kernel's function of the arguments in their result buffers: the kernel by its
    run and the walk through its segments, the reference by its generated run and the bridge. -/
theorem algebraic : Cert.algebraic_KernelIdeal_ReferenceIdeal := by
  intro m ρ m' ρ' _ hagree
  refine ⟨fun c => Cert.KernelIdeal.KVal.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KChain.W10_v65 m ρ c), (h c).2⟩)
      (Cert.KernelIdeal.KRun.run_value (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v144_eq, e0, e1, e2, e3, e4, e5, e6, e7, e8, e9, e10, e11, e12]
    exact (Cert.Proof.Bridge.bridge _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
